-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S100000x32 .f32) (main_arg2 : FVec F S32 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S32x100000 : Shape := ⟨2, ![32, 100000]⟩
abbrev S32x1 : Shape := ⟨2, ![32, 1]⟩
abbrev S1x128 : Shape := ⟨2, ![1, 128]⟩
abbrev S32x102400 : Shape := ⟨2, ![32, 102400]⟩
abbrev S4096x128 : Shape := ⟨2, ![4096, 128]⟩
abbrev S32x128 : Shape := ⟨2, ![32, 128]⟩
abbrev S102400x128 : Shape := ⟨2, ![102400, 128]⟩
abbrev S32x4096 : Shape := ⟨2, ![32, 4096]⟩

abbrev nBuf : Space → Nat
  | .hbm => 12
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x100000, .f32⟩
  | .hbm, ⟨8, _⟩ => ⟨S32x1, .f32⟩
  | .hbm, ⟨9, _⟩ => ⟨S1x128, .f32⟩
  | .hbm, ⟨10, _⟩ => ⟨S1x128, .f32⟩
  | .hbm, ⟨11, _⟩ => ⟨S100000x128, .f32⟩
  | .local _ .vmem, ⟨0, _⟩ => ⟨S32x102400, .f32⟩
  | .local _ .vmem, ⟨1, _⟩ => ⟨S4096x128, .f32⟩
  | .local _ .vmem, ⟨2, _⟩ => ⟨S4096x128, .f32⟩
  | .local _ .vmem, ⟨3, _⟩ => ⟨S32x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S32x128, .f32⟩
  | .local _ .vmem, ⟨11, _⟩ => ⟨S32x128, .bf16⟩
  | .local _ .vmem, ⟨12, _⟩ => ⟨S102400x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c24_i32 : BitVec 32 := 24#32
  let v6 : BitVec 1 := Scalar.cmpi .slt arg1 c24_i32
  let v7 : BitVec 1 := Scalar.andi v5 v6
  let v8 : BitVec 32 := Scalar.extui v7
  let c0_i32_3 : BitVec 32 := 0#32
  let v9 : BitVec 1 := Scalar.cmpi .ne v8 c0_i32_3
  v9

def k0_off1 (i : grid0.Coords) : Fin 2 → Nat :=
  let c0 : Index := 0#32
  let arg1 : BitVec 32 := BitVec.ofNat 32 (i 1).val
  let c4096_i32 : BitVec 32 := 4096#32
  let v23 : BitVec 32 := Scalar.muli arg1 c4096_i32
  let v24 : Index := Scalar.indexCast v23
  ![0, v24.toNat]
def k0_off2 (i : grid0.Coords) : Fin 2 → Nat :=
  let arg1 : BitVec 32 := BitVec.ofNat 32 (i 1).val
  let c4096_i32_17 : BitVec 32 := 4096#32
  let v36 : BitVec 32 := Scalar.muli arg1 c4096_i32_17
  let v37 : Index := Scalar.indexCast v36
  let c0_18 : Index := 0#32
  ![v37.toNat, 0]
def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let arg1 : BitVec 32 := BitVec.ofNat 32 (i 1).val
  let c24_i32_5 : BitVec 32 := 24#32
  let v11 : BitVec 1 := Scalar.cmpi .eq arg1 c24_i32_5
  let v12 : BitVec 1 := Scalar.andi v10 v11
  let v13 : BitVec 32 := Scalar.extui v12
  let c0_i32_6 : BitVec 32 := 0#32
  let v14 : BitVec 1 := Scalar.cmpi .ne v13 c0_i32_6
  v14

def k0_off3 (i : grid0.Coords) : Fin 2 → Nat :=
  let c0 : Index := 0#32
  let arg1 : BitVec 32 := BitVec.ofNat 32 (i 1).val
  let c4096_i32 : BitVec 32 := 4096#32
  let v23 : BitVec 32 := Scalar.muli arg1 c4096_i32
  let v24 : Index := Scalar.indexCast v23
  ![0, v24.toNat]
def k0_off4 (i : grid0.Coords) : Fin 2 → Nat :=
  let arg1 : BitVec 32 := BitVec.ofNat 32 (i 1).val
  let c4096_i32_20 : BitVec 32 := 4096#32
  let v46 : BitVec 32 := Scalar.muli arg1 c4096_i32_20
  let v47 : Index := Scalar.indexCast v46
  let c0_21 : Index := 0#32
  ![v47.toNat, 0]
def k0_cond5 (i : grid0.Coords) : BitVec 1 :=
  let arg0 : BitVec 32 := BitVec.ofNat 32 (i 0).val
  let c1_i32_9 : BitVec 32 := 1#32
  let v20 : BitVec 1 := Scalar.cmpi .eq arg0 c1_i32_9
  let v21 : BitVec 32 := Scalar.extui v20
  let c0_i32_10 : BitVec 32 := 0#32
  let v22 : BitVec 1 := Scalar.cmpi .ne v21 c0_i32_10
  v22

def k0_off5 (i : grid0.Coords) : Fin 2 → Nat :=
  let c0 : Index := 0#32
  let arg1 : BitVec 32 := BitVec.ofNat 32 (i 1).val
  let c4096_i32 : BitVec 32 := 4096#32
  let v23 : BitVec 32 := Scalar.muli arg1 c4096_i32
  let v24 : Index := Scalar.indexCast v23
  ![0, v24.toNat]
def k0_off6 (i : grid0.Coords) : Fin 2 → Nat :=
  let arg1 : BitVec 32 := BitVec.ofNat 32 (i 1).val
  let c4096_i32_13 : BitVec 32 := 4096#32
  let v30 : BitVec 32 := Scalar.muli arg1 c4096_i32_13
  let v31 : Index := Scalar.indexCast v30
  let c0_14 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S32x102400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S100000x32_S32x100000_1_0 : S100000x32.Transposes [1, 0] S32x100000
  shapeCasts_S32_S32x1 : S32.ShapeCasts S32x1
  shapeCasts_S128_S1x128 : S128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  h_S32x4096 : 0 < S32x4096.numel
  shapeCasts_S32x4096_S32x4096 : S32x4096.ShapeCasts S32x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S32x4096_d1_w32 : S32x4096.Iotas .tc 32 [1]
  iota_S4096x128_d0_w32 : S4096x128.Iotas .tc 32 [0]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  packedbf16_S32x128_S32x128_0_0 : (Rect.unit (s := S32x128) ![0, 0] S32x128.size inb_S32x128_S32x128_0_0).PackedRows (EltTy.packing .bf16)
  broadcasts_S1x128_S4096x128 : S1x128.Broadcasts S4096x128
  dot_S32x4096_S4096x128_S32x128_1_0_0_1_n_n_wf : DotDims.WF S32x4096 S4096x128 S32x128 [1] [0] [0] [1] [] []
  dot_S32x128_S128x128_S32x128_1_0_0_1_n_n_wf : DotDims.WF S32x128 S128x128 S32x128 [1] [0] [0] [1] [] []
  dot_S32x4096_S32x128_S4096x128_0_0_1_1_n_n_wf : DotDims.WF S32x4096 S32x128 S4096x128 [0] [0] [1] [1] [] []
  hrank0 : 0 < grid0.rank
  k0_off1_inb : ∀ i : grid0.Coords, ∀ (k0_h2 : k0_cond2 i = 1#1), ∀ a, (k0_off1 i) a + S32x4096.size a ≤ S32x102400.size a
  k0_off2_inb : ∀ i : grid0.Coords, ∀ (k0_h2 : k0_cond2 i = 1#1), ∀ a, (k0_off2 i) a + S4096x128.size a ≤ S102400x128.size a
  k0_off2_packedbf16 : ∀ i : grid0.Coords, ∀ (k0_h2 : k0_cond2 i = 1#1), (Rect.unit (s := S102400x128) (k0_off2 i) S4096x128.size (k0_off2_inb i k0_h2)).PackedRows (EltTy.packing .bf16)
  k0_off3_inb : ∀ i : grid0.Coords, ∀ (k0_h3 : k0_cond3 i = 1#1), ∀ a, (k0_off3 i) a + S32x4096.size a ≤ S32x102400.size a
  k0_off4_inb : ∀ i : grid0.Coords, ∀ (k0_h3 : k0_cond3 i = 1#1), ∀ a, (k0_off4 i) a + S4096x128.size a ≤ S102400x128.size a
  k0_off4_packedbf16 : ∀ i : grid0.Coords, ∀ (k0_h3 : k0_cond3 i = 1#1), (Rect.unit (s := S102400x128) (k0_off4 i) S4096x128.size (k0_off4_inb i k0_h3)).PackedRows (EltTy.packing .bf16)
  k0_off5_inb : ∀ i : grid0.Coords, ∀ (k0_h5 : k0_cond5 i = 1#1), ∀ a, (k0_off5 i) a + S32x4096.size a ≤ S32x102400.size a
  k0_off6_inb : ∀ i : grid0.Coords, ∀ (k0_h5 : k0_cond5 i = 1#1), ∀ a, (k0_off6 i) a + S4096x128.size a ≤ S102400x128.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hstart0_0 : ∀ (i : grid0.Coords) a, cc0_transform_0 i a * S32x102400.size a < S32x100000.size a
  hwx0_0 : ∀ i : grid0.Coords, EltTy.bits .f32 = 32 ∨ (Rect.unit (s := S32x100000) (fun a => cc0_transform_0 i a * S32x102400.size a) (fun a => (Pipeline.Clip.of (cc0_transform_0 i a) (S32x102400.size a) (S32x100000.size a)).extent (S32x102400.size a)) fun a => Pipeline.Clip.inb (Pipeline.Clip.ok_of (hstart0_0 i a))).WholeWords (EltTy.packing .f32)
  hwxs0_0 : ∀ i : grid0.Coords, EltTy.bits .f32 = 32 ∨ (Rect.unit (s := S32x102400) (fun _ => 0) (fun a => (Pipeline.Clip.of (cc0_transform_0 i a) (S32x102400.size a) (S32x100000.size a)).extent (S32x102400.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S100000x128.size a
  hwx0_1 : ∀ i : grid0.Coords, EltTy.bits .f32 = 32 ∨ (Rect.unit (s := S100000x128) (fun a => cc0_transform_1 i a * S4096x128.size a) (fun a => (Pipeline.Clip.of (cc0_transform_1 i a) (S4096x128.size a) (S100000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S100000x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S4096x128.size a < S100000x128.size a
  hwx0_7 : ∀ i : grid0.Coords, EltTy.bits .f32 = 32 ∨ (Rect.unit (s := S100000x128) (fun a => cc0_transform_7 i a * S4096x128.size a) (fun a => (Pipeline.Clip.of (cc0_transform_7 i a) (S4096x128.size a) (S100000x128.size a)).extent (S4096x128.size a)) fun a => Pipeline.Clip.inb (Pipeline.Clip.ok_of (hstart0_7 i a))).WholeWords (EltTy.packing .f32)
  hwxs0_7 : ∀ i : grid0.Coords, EltTy.bits .f32 = 32 ∨ (Rect.unit (s := S4096x128) (fun _ => 0) (fun a => (Pipeline.Clip.of (cc0_transform_7 i a) (S4096x128.size a) (S100000x128.size a)).extent (S4096x128.size a)) fun a => (Nat.zero_add _).trans_le (Pipeline.Clip.extent_le (Pipeline.Clip.ok_of (hstart0_7 i a)))).WholeWords (EltTy.packing .f32)

variable [Facts₀]

def dot_S32x4096_S4096x128_S32x128_1_0_0_1_n_n : DotDims S32x4096 S4096x128 S32x128 where
  lhsContracting := [1]
  rhsContracting := [0]
  lhsNonContracting := [0]
  rhsNonContracting := [1]
  lhsBatch := []
  rhsBatch := []
  wf := dot_S32x4096_S4096x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x4096_S32x128_S4096x128_0_0_1_1_n_n : DotDims S32x4096 S32x128 S4096x128 where
  lhsContracting := [0]
  rhsContracting := [0]
  lhsNonContracting := [1]
  rhsNonContracting := [1]
  lhsBatch := []
  rhsBatch := []
  wf := dot_S32x4096_S32x128_S4096x128_0_0_1_1_n_n_wf

abbrev win0_0 : Pipeline.Window sig grid0 :=
  Pipeline.Window.ofSpecClip (Memref.whole main_call0_v0) S32x102400.size cc0_transform_0 reads0_0 false false 1 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v0) S4096x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond5 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S32x100000 : Shape := ⟨2, ![32, 100000]⟩
abbrev S32x128 : Shape := ⟨2, ![32, 128]⟩
abbrev S32x1 : Shape := ⟨2, ![32, 1]⟩
abbrev S1x128 : Shape := ⟨2, ![1, 128]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x100000, .f32⟩
  | .hbm, ⟨8, _⟩ => ⟨S32x128, .f32⟩
  | .hbm, ⟨9, _⟩ => ⟨S32x1, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S1x128, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S100000x32_S32x100000_1_0 : S100000x32.Transposes [1, 0] S32x100000
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S1x128_S100000x128_0_1 : S1x128.BroadcastsInDim S100000x128 (![0, 1] : Fin 2 → Fin S100000x128.rank)
  dot_S32x100000_S100000x128_S32x128_1_0_0_1_n_n_wf : DotDims.WF S32x100000 S100000x128 S32x128 [1] [0] [0] [1] [] []
  dot_S32x128_S128x128_S32x128_1_0_0_1_n_n_wf : DotDims.WF S32x128 S128x128 S32x128 [1] [0] [0] [1] [] []
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []

variable [Facts₀]

def dot_S32x100000_S100000x128_S32x128_1_0_0_1_n_n : DotDims S32x100000 S100000x128 S32x128 where
  lhsContracting := [1]
  rhsContracting := [0]
  lhsNonContracting := [0]
  rhsNonContracting := [1]
  lhsBatch := []
  rhsBatch := []
  wf := dot_S32x100000_S100000x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KConds.lean ====
/-
  (The same statement for the kernel as printed, read at the word-level values: nothing here depends on the float instance.)
  The five conditionals of the kernel body, as propositions over the grid coordinates (p, i) — p the phase (0: project,
  1: back-project), i the block of 4096 rows — and where on the grid of 2 × 25 points each holds:
  the accumulator is reset at the first point; a whole block is accumulated at p = 0, i < 24; the ragged last block at
  p = 0, i = 24; the spectrum is gated and folded into the output weights at p = 1, i = 0; every point of p = 1
  back-projects one block.
-/
import proofs.«135913_g34772055229035_cont_8to1_b_1465_20_alg».proof.Proof.Gen.Kernel.Frame
import proofs.«135913_g34772055229035_cont_8to1_b_1465_20_alg».proof.Proof.Gen.Kernel.Skeleton
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The reset of the accumulator: p = 0 and i = 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- A whole block accumulated: p = 0 and i < 24. -/
abbrev cond2 (i : grid0.Coords) : Prop := k0_cond2 i = 1#1
/-- The ragged last block accumulated: p = 0 and i = 24. -/
abbrev cond3 (i : grid0.Coords) : Prop := k0_cond3 i = 1#1
/-- The spectrum gated and folded into the output weights: p = 1 and i = 0. -/
abbrev cond4 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- One block back-projected: p = 1. -/
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 24 :=
  (by decide +kernel : ∀ t : Fin grid0.N, cond2 (grid0.coords t) ↔ t.val < 24)
theorem hcond3 : ∀ t : Fin cfg0.N, cond3 (grid0.coords t) ↔ t.val = 24 :=
  (by decide +kernel : ∀ t : Fin grid0.N, cond3 (grid0.coords t) ↔ t.val = 24)
theorem hcond4 : ∀ t : Fin cfg0.N, cond4 (grid0.coords t) ↔ t.val = 25 :=
  (by decide +kernel : ∀ t : Fin grid0.N, cond4 (grid0.coords t) ↔ t.val = 25)
theorem hcond5 : ∀ t : Fin cfg0.N, cond5 (grid0.coords t) ↔ 25 ≤ t.val :=
  (by decide +kernel : ∀ t : Fin grid0.N, cond5 (grid0.coords t) ↔ 25 ≤ t.val)

end Cert.Kernel.Hand

end
-- ==== Proof.KRunE.lean ====
/-
  (The same statement for the kernel as printed, read at the word-level values: nothing here depends on the float instance.)
  The kernel body at a point of the second phase other than its first (p = 1, i > 0): only the back-projection
  branch runs.  It loads block i of the transposed eigenvector panel (32 × 4096 columns of the staged 32 × 102400
  buffer), the folded spectrum (32 × 128), block i of the cached features (4096 rows of the 102400 × 128 cache) and
  the output bias, and stores the whole 4096 × 128 output block.  Stated on any whole memrefs: the buffers it reads
  come back as they were, the output buffer with its one piece written.
-/
import proofs.«135913_g34772055229035_cont_8to1_b_1465_20_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the back-projection alone: the piece the output's staging buffer ends with is the witness the run finds. -/
noncomputable def runE (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : ¬cond3 i) (hc4 : ¬cond4 i) (hc5 : cond5 i)
    (x2 : Vec F S32x102400 .f32) (x8 : Vec F S1x128 .f32) (x11 : Vec F S32x128 .bf16) (x12 : Vec F S102400x128 .bf16) :
    { L9 : List (View.Piece (Elt F) S4096x128 .f32) //
      ∀ (E : Set ℕ) (K : PUnit → sProp 𝕄),
        iprop(owns (c : Thread nD τ) arg2 fullShare x2 ∗ owns (c : Thread nD τ) arg8 fullShare x8 ∗ (∃ d, owns (c : Thread nD τ) arg9 fullShare d)
            ∗ owns (c : Thread nD τ) arg11 fullShare x11 ∗ owns (c : Thread nD τ) arg12 fullShare x12
            ∗ (iprop(owns (c : Thread nD τ) arg2 fullShare x2 ∗ owns (c : Thread nD τ) arg8 fullShare x8
                ∗ (∃ f, arg9.view.loc (c : Thread nD τ) ↦[arg9.view.set]{fullShare} arg9.view.writes (Elt F) f L9)
                ∗ owns (c : Thread nD τ) arg11 fullShare x11 ∗ owns (c : Thread nD τ) arg12 fullShare x12) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    unfold owns
    iintro ⟨⟨%f2, %hf2, H2⟩, ⟨%f8, %hf8, H8⟩, ⟨%d9, %f9, -, H9⟩, ⟨%f11, %hf11, H11⟩, ⟨%f12, %hf12, H12⟩, Hk⟩
    obtain rfl := harg2.eq_unread hf2; obtain rfl := harg8.eq_unread hf8
    obtain rfl := harg11.eq_unread hf11; obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H8]
    · iexists _; isplitr; · ipureintro; exact harg8.read_unread _
      iexact H8
    isplitl [H9]; · iexists _; iexact H9
    isplitl [H11]
    · iexists _; isplitr; · ipureintro; exact harg11.read_unread _
      iexact H11
    · iexists _; isplitr; · ipureintro; exact harg12.read_unread _
      iexact H12

end Cert.Kernel.Hand

end
-- ==== Proof.KRunB.lean ====
/-
  (The same statement for the kernel as printed, read at the word-level values: nothing here depends on the float instance.)
  The kernel body at a point of the first phase that accumulates a whole block (p = 0, 0 < i < 24): it loads block i of
  the eigenvector panel and of the features, adds their product to the accumulator, and copies the feature block into
  rows [4096 i, 4096 (i + 1)) of the cache.  The accumulator ends with its pieces written (the last covers it); the cache
  ends as it was with that one block of rows overwritten.
-/
import proofs.«135913_g34772055229035_cont_8to1_b_1465_20_alg».proof.Proof.KRunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of one whole block's accumulation: the accumulator's and the cache's pieces are the witnesses the run finds. -/
noncomputable def runB (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : cond2 i) (hc3 : ¬cond3 i) (hc4 : ¬cond4 i) (hc5 : ¬cond5 i)
    (x2 : Vec F S32x102400 .f32) (x3 : Vec F S4096x128 .f32) (x10 : Vec F S32x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ owns (c : Thread nD τ) arg10 fullShare x10 ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f10, %hf10, H10⟩, ⟨%f12, %hf12, H12⟩, Hk⟩
    obtain rfl := harg2.eq_unread hf2; obtain rfl := harg3.eq_unread hf3
    obtain rfl := harg10.eq_unread hf10
    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.Kernel.Hand

end
-- ==== Proof.KRunC.lean ====
/-
  (The same statement for the kernel as printed, read at the word-level values: nothing here depends on the float instance.)
  The kernel body at the last point of the first phase (p = 0, i = 24), the ragged block: as a whole block's
  accumulation, but both operands are replaced by zero past the 1696 rows that lie inside the array before they are
  multiplied and before the feature block is copied into the cache.
-/
import proofs.«135913_g34772055229035_cont_8to1_b_1465_20_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the ragged block's accumulation. -/
noncomputable def runC (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : cond3 i) (hc4 : ¬cond4 i) (hc5 : ¬cond5 i)
    (x2 : Vec F S32x102400 .f32) (x3 : Vec F S4096x128 .f32) (x10 : Vec F S32x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ owns (c : Thread nD τ) arg10 fullShare x10 ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f10, %hf10, H10⟩, ⟨%f12, %hf12, H12⟩, Hk⟩
    obtain rfl := harg2.eq_unread hf2; obtain rfl := harg3.eq_unread hf3
    obtain rfl := harg10.eq_unread hf10
    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.Kernel.Hand

end
-- ==== Proof.KRunA.lean ====
/-
  (The same statement for the kernel as printed, read at the word-level values: nothing here depends on the float instance.)
  The kernel body at the first point (p = 0, i = 0): the accumulator is set to zero, then block 0 is accumulated into
  it and copied into the cache.  The accumulator may hold anything before.
-/
import proofs.«135913_g34772055229035_cont_8to1_b_1465_20_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the reset followed by block 0's accumulation. -/
noncomputable def runA (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : cond1 i) (hc2 : cond2 i) (hc3 : ¬cond3 i) (hc4 : ¬cond4 i) (hc5 : ¬cond5 i)
    (x2 : Vec F S32x102400 .f32) (x3 : Vec F S4096x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ (∃ d, owns (c : Thread nD τ) arg10 fullShare d) ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%d10, %f10, -, H10⟩, ⟨%f12, %hf12, H12⟩, Hk⟩
    obtain rfl := harg2.eq_unread hf2; obtain rfl := harg3.eq_unread hf3

    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.Kernel.Hand

end
-- ==== Proof.KRunD.lean ====
/-
  (The same statement for the kernel as printed, read at the word-level values: nothing here depends on the float instance.)
  The kernel body at the first point of the second phase (p = 1, i = 0): the accumulated projection is scaled by the
  eigenvalues, gated, multiplied by the output weights and stored as the folded spectrum; then block 0 is
  back-projected as at every point of this phase.
-/
import proofs.«135913_g34772055229035_cont_8to1_b_1465_20_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the gate followed by block 0's back-projection: the folded spectrum's and the output buffer's pieces are
    the witnesses the run finds. -/
noncomputable def runD (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : ¬cond3 i) (hc4 : cond4 i) (hc5 : cond5 i)
    (x2 : Vec F S32x102400 .f32) (x4 : Vec F S32x1 .f32) (x5 : Vec F S128x128 .f32) (x6 : Vec F S1x128 .f32) (x7 : Vec F S128x128 .f32)
    (x8 : Vec F S1x128 .f32) (x10 : Vec F S32x128 .f32) (x12 : Vec F S102400x128 .bf16) :
    Σ' (L9 : List (View.Piece (Elt F) S4096x128 .f32)), { L11 : List (View.Piece (Elt F) S32x128 .bf16) //
      ∀ (E : Set ℕ) (K : PUnit → sProp 𝕄),
        iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ owns (c : Thread nD τ) arg10 fullShare x10 ∗ (∃ d, owns (c : Thread nD τ) arg11 fullShare d) ∗ owns (c : Thread nD τ) arg12 fullShare x12
            ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9) ∗ owns (c : Thread nD τ) arg10 fullShare x10 ∗ (∃ f, arg11.view.loc (c : Thread nD τ) ↦[arg11.view.set]{fullShare} arg11.view.writes (Elt F) f L11) ∗ owns (c : Thread nD τ) arg12 fullShare x12) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg2.eq_unread hf2; obtain rfl := harg4.eq_unread hf4; obtain rfl := harg5.eq_unread hf5
    obtain rfl := harg6.eq_unread hf6; obtain rfl := harg7.eq_unread hf7; obtain rfl := harg8.eq_unread hf8
    obtain rfl := harg10.eq_unread hf10; obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    · iexists _; isplitr; · ipureintro; exact harg12.read_unread _
      iexact H12

end Cert.Kernel.Hand

end
-- ==== Proof.KSched.lean ====
/-
  (The same statement for the kernel as printed, read at the word-level values: nothing here depends on the float instance.)
  The schedule of the three windows whose blocks may overhang their arrays, decided over the grid of 50 points
  (t = 25 p + i): the staged eigenvector panel is one block of 32 × 102400 of which 100000 columns lie inside the
  array; the feature window's block at point t is block min t 24 of 4096 rows, 1696 of them inside the array for
  block 24; the output window's block is block 0 during the first phase and block t − 25 after, written back at every
  point of the second phase and idle (not stored into) during the first.
-/
import proofs.«135913_g34772055229035_cont_8to1_b_1465_20_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The eigenvector panel's block: index (0, 0) at every point, 32 × 100000 of it inside the array. -/
theorem idx0 : ∀ (t : Fin cfg0.N) (a : Fin 2), (cfg0.win 0).index t a = 0 :=
  (by decide +kernel : ∀ (t : Fin grid0.N) (a : Fin 2), win0_0.index t a = 0)
theorem xs0 : ∀ (t : Fin cfg0.N) (a : Fin 2), (cfg0.win 0).xsize (cfg0.grid.coords t) a = (![32, 100000] : Fin 2 → ℕ) a :=
  (by decide +kernel : ∀ (t : Fin grid0.N) (a : Fin 2), win0_0.xsize (grid0.coords t) a = (![32, 100000] : Fin 2 → ℕ) a)

/-- The feature window's block at point t: rows from 4096 · min t 24, all 128 columns; -/
theorem idx1 : ∀ (t : Fin cfg0.N) (a : Fin 2), (cfg0.win 1).index t a = (![min t.val 24, 0] : Fin 2 → ℕ) a :=
  (by decide +kernel : ∀ (t : Fin grid0.N) (a : Fin 2), win0_1.index t a = (![min t.val 24, 0] : Fin 2 → ℕ) a)
/-- 4096 rows of it inside the array, but 1696 for block 24. -/
theorem xs1 : ∀ (t : Fin cfg0.N) (a : Fin 2), (cfg0.win 1).xsize (cfg0.grid.coords t) a = (![if t.val < 24 then 4096 else 1696, 128] : Fin 2 → ℕ) a :=
  (by decide +kernel : ∀ (t : Fin grid0.N) (a : Fin 2), win0_1.xsize (grid0.coords t) a = (![if t.val < 24 then 4096 else 1696, 128] : Fin 2 → ℕ) a)
/-- It is fetched at every point of the first phase and never again. -/
theorem fetch1 : ∀ t : Fin cfg0.N, (cfg0.win 1).fetch t = true ↔ t.val ≤ 24 :=
  (by decide +kernel : ∀ t : Fin grid0.N, win0_1.fetch t = true ↔ t.val ≤ 24)

/-- The output window's block at point t: rows from 4096 · (t − 25); -/
theorem idx7 : ∀ (t : Fin cfg0.N) (a : Fin 2), (cfg0.win 7).index t a = (![t.val - 25, 0] : Fin 2 → ℕ) a :=
  (by decide +kernel : ∀ (t : Fin grid0.N) (a : Fin 2), win0_7.index t a = (![t.val - 25, 0] : Fin 2 → ℕ) a)
theorem xs7 : ∀ (t : Fin cfg0.N) (a : Fin 2), (cfg0.win 7).xsize (cfg0.grid.coords t) a = (![if t.val = 49 then 1696 else 4096, 128] : Fin 2 → ℕ) a :=
  (by decide +kernel : ∀ (t : Fin grid0.N) (a : Fin 2), win0_7.xsize (grid0.coords t) a = (![if t.val = 49 then 1696 else 4096, 128] : Fin 2 → ℕ) a)
/-- It is written back at every point of the second phase, -/
theorem flush7 : ∀ t : Fin cfg0.N, (cfg0.win 7).flush t = true ↔ 25 ≤ t.val :=
  (by decide +kernel : ∀ t : Fin grid0.N, win0_7.flush t = true ↔ 25 ≤ t.val)
/-- and idle during the first. -/
theorem idle7 : ∀ t : Fin cfg0.N, cfg0.idle 7 (cfg0.grid.coords t) = true ↔ t.val < 25 :=
  (by decide +kernel : ∀ t : Fin grid0.N, idle0 7 (grid0.coords t) = true ↔ t.val < 25)

/-- The rows of the staged panel and of the cache that the body reads and writes at a point: from 4096 i. -/
theorem off1_eq : ∀ t : Fin cfg0.N, k0_off1 (grid0.coords t) = ![0, (t.val % 25) * 4096] :=
  (by decide +kernel : ∀ t : Fin grid0.N, k0_off1 (grid0.coords t) = ![0, (t.val % 25) * 4096])
theorem off3_eq : ∀ t : Fin cfg0.N, k0_off3 (grid0.coords t) = ![0, (t.val % 25) * 4096] :=
  (by decide +kernel : ∀ t : Fin grid0.N, k0_off3 (grid0.coords t) = ![0, (t.val % 25) * 4096])
theorem off5_eq : ∀ t : Fin cfg0.N, k0_off5 (grid0.coords t) = ![0, (t.val % 25) * 4096] :=
  (by decide +kernel : ∀ t : Fin grid0.N, k0_off5 (grid0.coords t) = ![0, (t.val % 25) * 4096])
theorem off2_eq : ∀ t : Fin cfg0.N, k0_off2 (grid0.coords t) = ![(t.val % 25) * 4096, 0] :=
  (by decide +kernel : ∀ t : Fin grid0.N, k0_off2 (grid0.coords t) = ![(t.val % 25) * 4096, 0])
theorem off4_eq : ∀ t : Fin cfg0.N, k0_off4 (grid0.coords t) = ![(t.val % 25) * 4096, 0] :=
  (by decide +kernel : ∀ t : Fin grid0.N, k0_off4 (grid0.coords t) = ![(t.val % 25) * 4096, 0])
theorem off6_eq : ∀ t : Fin cfg0.N, k0_off6 (grid0.coords t) = ![(t.val % 25) * 4096, 0] :=
  (by decide +kernel : ∀ t : Fin grid0.N, k0_off6 (grid0.coords t) = ![(t.val % 25) * 4096, 0])

end Cert.Kernel.Hand

end
-- ==== Proof.KArrays.lean ====
/-
  (The same statement for the kernel as printed, read at the word-level values: nothing here depends on the float instance.)
  What the staging buffers of the two input windows whose blocks overhang their arrays hold when the body runs, and
  what they must hold when it returns.  The eigenvector panel's buffer (32 × 102400) holds the transposed eigenvectors
  on its first 100000 columns and words nothing names past them; the feature window's buffer (4096 × 128) at point t
  holds rows 4096·min t 24 … of the features where those rows lie inside the array, and words nothing names below.
  Both facts hold at every point, fetched there or not, with the unnamed part carried along unchanged.  Last, for the
  output window: contents that agree with the stated block on the rows inside the array are all the obligation asks.
-/
import proofs.«135913_g34772055229035_cont_8to1_b_1465_20_alg».proof.Proof.KSched
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A 32 × 100000 array laid into 32 × 102400: the array on the first 100000 columns, `d` past them. -/
def panel (A : S32x100000.Idx → Elt F .f32) (d : Vec F S32x102400 .f32) : Vec F S32x102400 .f32 :=
  fun y => if h : (y 1).val < 100000 then A (ix2 (n0 := 32) (n1 := 100000) ⟨(y 0).val, idx2_lt0 y⟩ ⟨(y 1).val, h⟩) else d y

/-- Rows 4096 b … 4096 b + 4095 of a 100000 × 128 array: the array's rows where they exist, `d` below the array's end. -/
def rowsOf (b : ℕ) (A : S100000x128.Idx → Elt F .f32) (d : Vec F S4096x128 .f32) : Vec F S4096x128 .f32 :=
  fun y => if h : b * 4096 + (y 0).val < 100000 then A (ix2 (n0 := 100000) (n1 := 128) ⟨b * 4096 + (y 0).val, h⟩ ⟨(y 1).val, idx2_lt1 y⟩) else d y

/-- The transposed eigenvectors as the region finds them, and the features. -/
abbrev ETv (c : Dev nD) : S32x100000.Idx → Elt F .f32 := V m c main_call0_v0
abbrev Xv (c : Dev nD) : S100000x128.Idx → Elt F .f32 := V m c main_arg0

/-! ## The eigenvector panel -/

/-- An element of the panel's block is the array's element with the same coordinates (the block index is (0, 0)). -/
theorem iblk0_apply (c : Dev nD) (t : Fin cfg0.N) (x : ((cfg0.win 0).xblock (cfg0.grid.coords t)).Idx) (k : S32x100000.Idx)
    (hk0 : (k 0).val = (x 0).val) (hk1 : (k 1).val = (x 1).val) :
    iblk m c 0 t x = ETv m c k := by
  unfold iblk ETv
  rw [View.read_apply]
  show V m c main_call0_v0 _ = V m c main_call0_v0 _
  congr 1
  funext a
  apply Fin.ext
  match a with
  | ⟨0, _⟩ => show win0_0.index t 0 * 32 + 1 * (x 0).val = (k 0).val; rw [show win0_0.index t 0 = 0 from idx0 t 0, hk0]; omega
  | ⟨1, _⟩ => show win0_0.index t 1 * 102400 + 1 * (x 1).val = (k 1).val; rw [show win0_0.index t 1 = 0 from idx0 t 1, hk1]; omega

theorem moved0 (t : Fin cfg0.N) (y : S32x102400.Idx) :
    (cfg0.win 0).moved (cfg0.grid.coords t) y = true ↔ (y 1).val < 100000 := by
  have h1 := xs0 t 1
  have h0 := xs0 t 0
  rw [(cfg0.win 0).moved_iff]
  constructor
  · intro h; have := h 1; rw [h1] at this; exact this
  · intro hy a
    match a with
    | ⟨0, _⟩ => show (y 0).val < (cfg0.win 0).xsize (cfg0.grid.coords t) 0; rw [h0]; exact idx2_lt0 y
    | ⟨1, _⟩ => show (y 1).val < (cfg0.win 0).xsize (cfg0.grid.coords t) 1; rw [h1]; exact hy

/-- Filling the panel's buffer with the moved part of `Z` over `d`: `Z` on the first 100000 columns, `d` past them. -/
theorem fill_cut0 (t : Fin cfg0.N) (d Z : Vec F S32x102400 .f32) :
    (cfg0.win 0).fill (cfg0.grid.coords t) d ((cfg0.win 0).cut (cfg0.grid.coords t) Z)
      = fun y => if (y 1).val < 100000 then Z y else d y := by
  funext y
  unfold Window.fill
  by_cases hy : (y 1).val < 100000
  · rw [dif_pos ((moved0 t y).mpr hy), if_pos hy]
  · rw [dif_neg (fun hm => hy ((moved0 t y).mp hm)), if_neg hy]

/-- The panel's buffer just fetched into, over `d`: the array laid in over `d`. -/
theorem fetched0 (c : Dev nD) (t : Fin cfg0.N) (d : Vec F S32x102400 .f32) :
    (cfg0.win 0).fill (cfg0.grid.coords t) d (iblk m c 0 t) = panel (ETv m c) d := by
  funext y
  unfold Window.fill panel
  by_cases hy : (y 1).val < 100000
  · rw [dif_pos ((moved0 t y).mpr hy), dif_pos hy]
    exact iblk0_apply m c t _ _ rfl rfl
  · rw [dif_neg (fun hm => hy ((moved0 t y).mp hm)), dif_neg hy]

theorem panel_if (A : S32x100000.Idx → Elt F .f32) (d d' : Vec F S32x102400 .f32) :
    (fun y => if (y 1).val < 100000 then panel A d' y else d y) = panel A d := by
  funext y; unfold panel; by_cases h : (y 1).val < 100000
  · rw [if_pos h, dif_pos h, dif_pos h]
  · rw [if_neg h, dif_neg h]

/-- THE PANEL'S BUFFER AT EVERY POINT: for proof data over the region-entry arrays which hands the buffer back as the array
    laid in (`hafter`), the buffer holds the array laid in over the `d` it was handed. -/
theorem before0 {c : Dev nD} (dat : Dat τ (Elt F) Unit ℕ (UR sig nD τ) ℕ cfg0 c) (d₀ : Vec F S32x102400 .f32)
    (hA : dat.A 0 = V m c (Pipeline.arrRef spec0 0)) (hafter : ∀ t, dat.after 0 t = panel (ETv m c) d₀) (t : Fin cfg0.N) (d) :
    dat.before 0 t d = panel (ETv m c) d := by
  by_cases hf : (cfg0.win 0).fetch t = true
  · rw [dat.before_fetched 0 t hf]
    have e : dat.blockOf 0 t = iblk m c 0 t := by unfold Dat.blockOf iblk; rw [hA]
    unfold Dat.fetched; rw [e, fetched0]
  · have hf' := Bool.eq_false_iff.mpr hf
    rw [dat.before_unfetched_in 0 rfl t hf' (fun _ => rfl)]
    unfold Dat.kept
    rw [hafter, fill_cut0, panel_if]

/-- What the obligation asks of the panel's buffer on return: it is the array laid in over something. -/
theorem leaves0 (t : Fin cfg0.N) (A : S32x100000.Idx → Elt F .f32) (d d₀ : Vec F S32x102400 .f32) :
    (cfg0.win 0).fill (cfg0.grid.coords t) d ((cfg0.win 0).cut (cfg0.grid.coords t) (panel A d₀)) = panel A d := by
  rw [fill_cut0, panel_if]

/-! ## The feature window -/

/-- An element of the feature block at point t is the features' element 4096 · min t 24 rows further down. -/
theorem iblk1_apply (c : Dev nD) (t : Fin cfg0.N) (x : ((cfg0.win 1).xblock (cfg0.grid.coords t)).Idx) (k : S100000x128.Idx)
    (hk0 : (k 0).val = min t.val 24 * 4096 + (x 0).val) (hk1 : (k 1).val = (x 1).val) :
    iblk m c 1 t x = Xv m c k := by
  unfold iblk Xv
  rw [View.read_apply]
  show V m c main_arg0 _ = V m c main_arg0 _
  congr 1
  funext a
  apply Fin.ext
  match a with
  | ⟨0, _⟩ => show win0_1.index t 0 * 4096 + 1 * (x 0).val = (k 0).val; rw [show win0_1.index t 0 = min t.val 24 from idx1 t 0, hk0]; omega
  | ⟨1, _⟩ => show win0_1.index t 1 * 128 + 1 * (x 1).val = (k 1).val; rw [show win0_1.index t 1 = 0 from idx1 t 1, hk1]; omega

/-- Which rows of the feature window's buffer the transfer at point t moves: those inside the array. -/
theorem moved1 (t : Fin cfg0.N) (y : S4096x128.Idx) :
    (cfg0.win 1).moved (cfg0.grid.coords t) y = true ↔ min t.val 24 * 4096 + (y 0).val < 100000 := by
  have h0 := xs1 t 0
  have h1 := xs1 t 1
  have hN : t.val < 50 := lt_of_lt_of_eq t.isLt (show cfg0.N = 50 from N_0)
  have hy0 : (y 0).val < 4096 := idx2_lt0 y
  rw [(cfg0.win 1).moved_iff]
  constructor
  · intro h
    have := h 0; rw [h0] at this
    show min t.val 24 * 4096 + (y 0).val < 100000
    change (y 0).val < if t.val < 24 then 4096 else 1696 at this
    split_ifs at this with ht <;> omega
  · intro h a
    match a with
    | ⟨0, _⟩ =>
      show (y 0).val < (cfg0.win 1).xsize (cfg0.grid.coords t) 0
      rw [h0]; show (y 0).val < if t.val < 24 then 4096 else 1696
      split_ifs with ht <;> omega
    | ⟨1, _⟩ =>
      show (y 1).val < (cfg0.win 1).xsize (cfg0.grid.coords t) 1
      rw [h1]; exact idx2_lt1 y

theorem fill_cut1 (t : Fin cfg0.N) (d Z : Vec F S4096x128 .f32) :
    (cfg0.win 1).fill (cfg0.grid.coords t) d ((cfg0.win 1).cut (cfg0.grid.coords t) Z)
      = fun y => if min t.val 24 * 4096 + (y 0).val < 100000 then Z y else d y := by
  funext y
  unfold Window.fill
  by_cases hy : min t.val 24 * 4096 + (y 0).val < 100000
  · rw [dif_pos ((moved1 t y).mpr hy), if_pos hy]
  · rw [dif_neg (fun hm => hy ((moved1 t y).mp hm)), if_neg hy]

/-- The feature buffer just fetched into at point t, over `d`: block min t 24 of the features over `d`. -/
theorem fetched1 (c : Dev nD) (t : Fin cfg0.N) (d : Vec F S4096x128 .f32) :
    (cfg0.win 1).fill (cfg0.grid.coords t) d (iblk m c 1 t) = rowsOf (min t.val 24) (Xv m c) d := by
  funext y
  unfold Window.fill rowsOf
  by_cases hy : min t.val 24 * 4096 + (y 0).val < 100000
  · rw [dif_pos ((moved1 t y).mpr hy), dif_pos hy]
    exact iblk1_apply m c t _ _ rfl rfl
  · rw [dif_neg (fun hm => hy ((moved1 t y).mp hm)), dif_neg hy]

theorem rows_if (b : ℕ) (A : S100000x128.Idx → Elt F .f32) (d d' : Vec F S4096x128 .f32) :
    (fun y => if b * 4096 + (y 0).val < 100000 then rowsOf b A d' y else d y) = rowsOf b A d := by
  funext y; unfold rowsOf; by_cases h : b * 4096 + (y 0).val < 100000
  · rw [if_pos h, dif_pos h, dif_pos h]
  · rw [if_neg h, dif_neg h]

/-- THE FEATURE BUFFER AT EVERY POINT: block min t 24 of the features over the `d` it was handed. -/
theorem before1 {c : Dev nD} (dat : Dat τ (Elt F) Unit ℕ (UR sig nD τ) ℕ cfg0 c) (d₀ : Vec F S4096x128 .f32)
    (hA : dat.A 1 = V m c (Pipeline.arrRef spec0 1)) (hafter : ∀ t : Fin cfg0.N, dat.after 1 t = rowsOf (min t.val 24) (Xv m c) d₀) (t : Fin cfg0.N) (d) :
    dat.before 1 t d = rowsOf (min t.val 24) (Xv m c) d := by
  by_cases hf : (cfg0.win 1).fetch t = true
  · rw [dat.before_fetched 1 t hf]
    have e : dat.blockOf 1 t = iblk m c 1 t := by unfold Dat.blockOf iblk; rw [hA]
    unfold Dat.fetched; rw [e, fetched1]
  · have hf' := Bool.eq_false_iff.mpr hf
    have ht : ¬ t.val ≤ 24 := fun h => hf ((fetch1 t).mpr h)
    rw [dat.before_unfetched_in 1 rfl t hf' (fun _ => rfl)]
    unfold Dat.kept
    rw [hafter, fill_cut1]
    have e : min (t.val - 1) 24 = min t.val 24 := by omega
    show (fun y => if min (t.val - 1) 24 * 4096 + (y 0).val < 100000 then rowsOf (min (t.val - 1) 24) (Xv m c) d₀ y else d y) = _
    rw [e, rows_if]

theorem leaves1 (t : Fin cfg0.N) (A : S100000x128.Idx → Elt F .f32) (d d₀ : Vec F S4096x128 .f32) :
    (cfg0.win 1).fill (cfg0.grid.coords t) d ((cfg0.win 1).cut (cfg0.grid.coords t) (rowsOf (min t.val 24) A d₀)) = rowsOf (min t.val 24) A d := by
  rw [fill_cut1, rows_if]

/-! ## The output window -/

/-- Which rows of the output buffer the write-back at point t moves: those of block t − 25 inside the array. -/
theorem moved7 (t : Fin cfg0.N) (y : S4096x128.Idx) :
    (cfg0.win 7).moved (cfg0.grid.coords t) y = true ↔ (t.val - 25) * 4096 + (y 0).val < 100000 := by
  have h0 := xs7 t 0
  have h1 := xs7 t 1
  have hN : t.val < 50 := lt_of_lt_of_eq t.isLt (show cfg0.N = 50 from N_0)
  have hy0 : (y 0).val < 4096 := idx2_lt0 y
  rw [(cfg0.win 7).moved_iff]
  constructor
  · intro h
    have := h 0; rw [h0] at this
    change (y 0).val < if t.val = 49 then 1696 else 4096 at this
    split_ifs at this with ht <;> omega
  · intro h a
    match a with
    | ⟨0, _⟩ =>
      show (y 0).val < (cfg0.win 7).xsize (cfg0.grid.coords t) 0
      rw [h0]; show (y 0).val < if t.val = 49 then 1696 else 4096
      split_ifs with ht <;> omega
    | ⟨1, _⟩ =>
      show (y 1).val < (cfg0.win 7).xsize (cfg0.grid.coords t) 1
      rw [h1]; exact idx2_lt1 y

/-- Contents `P` of the output buffer that agree with `Z` on the rows inside the array are `Z`'s moved part laid over `P`. -/
theorem leaves7 (t : Fin cfg0.N) (P Z : Vec F S4096x128 .f32)
    (h : ∀ y : S4096x128.Idx, (t.val - 25) * 4096 + (y 0).val < 100000 → Z y = P y) :
    (cfg0.win 7).fill (cfg0.grid.coords t) P ((cfg0.win 7).cut (cfg0.grid.coords t) Z) = P := by
  funext y
  unfold Window.fill
  by_cases hy : (t.val - 25) * 4096 + (y 0).val < 100000
  · rw [dif_pos ((moved7 t y).mpr hy)]; exact h y hy
  · rw [dif_neg (fun hm => hy ((moved7 t y).mp hm))]

end Cert.Kernel.Hand

end
-- ==== Proof.KBody.lean ====
/-
  The frame of the kernel as printed, at the word-level values.  Nothing of what the body computes is named: the three
  scratch buffers are held at some contents from point to point, the output window's buffer is handed to the body and
  taken back at contents nothing names (the claim reads none of it), and each input window's buffer is handed back as it
  was found — exactly for the five small windows, on the part their transfers move for the two whose blocks overhang their
  arrays.  At every grid point the case of the body's conditionals that the point selects runs to its end; so every
  weakly fair execution terminates without a fault and the seven argument arrays end as they were.
-/
import proofs.«135913_g34772055229035_cont_8to1_b_1465_20_alg».proof.Proof.KRunD
import proofs.«135913_g34772055229035_cont_8to1_b_1465_20_alg».proof.Proof.KArrays
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The output window is the one the certificate forgets. -/
def forgets : Fin 8 → Bool := fun w => w.val == 7

abbrev sc0 : Memref sig .tc .vmem S32x128 .f32 := Memref.whole cc0_scratch0
abbrev sc1 : Memref sig .tc .vmem S32x128 .bf16 := Memref.whole cc0_scratch1
abbrev sc2 : Memref sig .tc .vmem S102400x128 .bf16 := Memref.whole cc0_scratch2

/-- The proof data: the arrays as the region finds them; the two clipped inputs' buffers at their arrays laid in, the five
    small inputs' at their blocks, the forgotten output's at nothing named; the invariant the class's. -/
def datsB (_ : Fin 1) (c : Dev nD) : Dat τ (Elt F) Unit ℕ (UR sig nD τ) ℕ cfg0 c where
  A w := V m c (Pipeline.arrRef spec0 w)
  after w t := match w with
    | ⟨0, _⟩ => panel (ETv m c) (fun _ => Scalar.ofBits .f32 0#32)
    | ⟨1, _⟩ => rowsOf (min t.val 24) (Xv m c) (fun _ => Scalar.ofBits .f32 0#32)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem AB_eq (c : Dev nD) (w : Fin cfg0.W) : (datsB m 0 c).A w = V m c (Pipeline.arrRef spec0 w) := by
  dsimp only [datsB]
theorem afterB_0 (c : Dev nD) (t : Fin cfg0.N) : (datsB m 0 c).after 0 t = panel (ETv m c) (fun _ => Scalar.ofBits .f32 0#32) := by dsimp only [datsB]
theorem afterB_1 (c : Dev nD) (t : Fin cfg0.N) : (datsB m 0 c).after 1 t = rowsOf (min t.val 24) (Xv m c) (fun _ => Scalar.ofBits .f32 0#32) := by dsimp only [datsB]
theorem afterB_2 (c : Dev nD) (t : Fin cfg0.N) : (datsB m 0 c).after 2 t = iblk m c 2 t := by dsimp only [datsB]
theorem afterB_3 (c : Dev nD) (t : Fin cfg0.N) : (datsB m 0 c).after 3 t = iblk m c 3 t := by dsimp only [datsB]
theorem afterB_4 (c : Dev nD) (t : Fin cfg0.N) : (datsB m 0 c).after 4 t = iblk m c 4 t := by dsimp only [datsB]
theorem afterB_5 (c : Dev nD) (t : Fin cfg0.N) : (datsB m 0 c).after 5 t = iblk m c 5 t := by dsimp only [datsB]
theorem afterB_6 (c : Dev nD) (t : Fin cfg0.N) : (datsB m 0 c).after 6 t = iblk m c 6 t := by dsimp only [datsB]

theorem befB_0 (c : Dev nD) (t : Fin cfg0.N) (d) : (datsB m 0 c).before 0 t d = panel (ETv m c) d :=
  before0 m (datsB m 0 c) _ (AB_eq m c 0) (afterB_0 m c) t d
theorem befB_1 (c : Dev nD) (t : Fin cfg0.N) (d) : (datsB m 0 c).before 1 t d = rowsOf (min t.val 24) (Xv m c) d :=
  before1 m (datsB m 0 c) _ (AB_eq m c 1) (afterB_1 m c) t d
theorem befB_2 (c : Dev nD) (t : Fin cfg0.N) (d) : (datsB m 0 c).before 2 t d = iblk m c 2 t :=
  before0_2_of m (datsB m 0 c) (AB_eq m c 2) (afterB_2 m c) t d
theorem befB_3 (c : Dev nD) (t : Fin cfg0.N) (d) : (datsB m 0 c).before 3 t d = iblk m c 3 t :=
  before0_3_of m (datsB m 0 c) (AB_eq m c 3) (afterB_3 m c) t d
theorem befB_4 (c : Dev nD) (t : Fin cfg0.N) (d) : (datsB m 0 c).before 4 t d = iblk m c 4 t :=
  before0_4_of m (datsB m 0 c) (AB_eq m c 4) (afterB_4 m c) t d
theorem befB_5 (c : Dev nD) (t : Fin cfg0.N) (d) : (datsB m 0 c).before 5 t d = iblk m c 5 t :=
  before0_5_of m (datsB m 0 c) (AB_eq m c 5) (afterB_5 m c) t d
theorem befB_6 (c : Dev nD) (t : Fin cfg0.N) (d) : (datsB m 0 c).before 6 t d = iblk m c 6 t :=
  before0_6_of m (datsB m 0 c) (AB_eq m c 6) (afterB_6 m c) t d

/-- What the body is called with at point t, -/
def bodyPreB (c : Dev nD) (t : Fin cfg0.N) : sProp 𝕄 :=
  iprop((datsB m 0 c).Φ t.castSucc ∗ (datsB m 0 c).owesAt () t.castSucc
    ∗ (∃ d, owns (c : Thread nD τ) (st0_0 t) fullShare ((datsB m 0 c).before 0 t d))
    ∗ (∃ d, owns (c : Thread nD τ) (st0_1 t) fullShare ((datsB m 0 c).before 1 t d))
    ∗ (∃ d, owns (c : Thread nD τ) (st0_2 t) fullShare ((datsB m 0 c).before 2 t d))
    ∗ (∃ d, owns (c : Thread nD τ) (st0_3 t) fullShare ((datsB m 0 c).before 3 t d))
    ∗ (∃ d, owns (c : Thread nD τ) (st0_4 t) fullShare ((datsB m 0 c).before 4 t d))
    ∗ (∃ d, owns (c : Thread nD τ) (st0_5 t) fullShare ((datsB m 0 c).before 5 t d))
    ∗ (∃ d, owns (c : Thread nD τ) (st0_6 t) fullShare ((datsB m 0 c).before 6 t d))
    ∗ (∃ X, owns (c : Thread nD τ) (st0_7 t) fullShare X))

/-- and what it returns. -/
def bodyPostB (c : Dev nD) (t : Fin cfg0.N) : sProp 𝕄 :=
  iprop((datsB m 0 c).Φ t.succ ∗ (datsB m 0 c).owesAt () t.succ
    ∗ (datsB m 0 c).leaves 0 t ∗ (datsB m 0 c).leaves 1 t ∗ (datsB m 0 c).leaves 2 t ∗ (datsB m 0 c).leaves 3 t
    ∗ (datsB m 0 c).leaves 4 t ∗ (datsB m 0 c).leaves 5 t ∗ (datsB m 0 c).leaves 6 t
    ∗ (∃ X, owns (c : Thread nD τ) (st0_7 t) fullShare X))

theorem lvB0 (c : Dev nD) (t : Fin cfg0.N) :
    (datsB m 0 c).leaves 0 t = iprop(∃ d, owns (c : Thread nD τ) (st0_0 t) fullShare (panel (ETv m c) d)) := by
  have e : ∀ d, (cfg0.win 0).fill (cfg0.grid.coords t) d ((cfg0.win 0).cut (cfg0.grid.coords t) ((datsB m 0 c).after 0 t)) = panel (ETv m c) d :=
    fun d => by rw [afterB_0]; exact leaves0 t _ d _
  exact congrArg (fun f : Vec F S32x102400 .f32 → Vec F S32x102400 .f32 => iprop(∃ d, owns (c : Thread nD τ) (st0_0 t) fullShare (f d))) (funext e)
theorem lvB1 (c : Dev nD) (t : Fin cfg0.N) :
    (datsB m 0 c).leaves 1 t = iprop(∃ d, owns (c : Thread nD τ) (st0_1 t) fullShare (rowsOf (min t.val 24) (Xv m c) d)) := by
  have e : ∀ d, (cfg0.win 1).fill (cfg0.grid.coords t) d ((cfg0.win 1).cut (cfg0.grid.coords t) ((datsB m 0 c).after 1 t)) = rowsOf (min t.val 24) (Xv m c) d :=
    fun d => by rw [afterB_1]; exact leaves1 t _ d _
  exact congrArg (fun f : Vec F S4096x128 .f32 → Vec F S4096x128 .f32 => iprop(∃ d, owns (c : Thread nD τ) (st0_1 t) fullShare (f d))) (funext e)
theorem lvB2 (c : Dev nD) (t : Fin cfg0.N) : (datsB m 0 c).leaves 2 t = owns (c : Thread nD τ) (st0_2 t) fullShare (iblk m c 2 t) := by
  show owns (c : Thread nD τ) (st0_2 t) fullShare ((datsB m 0 c).after 2 t) = _; rw [afterB_2]
theorem lvB3 (c : Dev nD) (t : Fin cfg0.N) : (datsB m 0 c).leaves 3 t = owns (c : Thread nD τ) (st0_3 t) fullShare (iblk m c 3 t) := by
  show owns (c : Thread nD τ) (st0_3 t) fullShare ((datsB m 0 c).after 3 t) = _; rw [afterB_3]
theorem lvB4 (c : Dev nD) (t : Fin cfg0.N) : (datsB m 0 c).leaves 4 t = owns (c : Thread nD τ) (st0_4 t) fullShare (iblk m c 4 t) := by
  show owns (c : Thread nD τ) (st0_4 t) fullShare ((datsB m 0 c).after 4 t) = _; rw [afterB_4]
theorem lvB5 (c : Dev nD) (t : Fin cfg0.N) : (datsB m 0 c).leaves 5 t = owns (c : Thread nD τ) (st0_5 t) fullShare (iblk m c 5 t) := by
  show owns (c : Thread nD τ) (st0_5 t) fullShare ((datsB m 0 c).after 5 t) = _; rw [afterB_5]
theorem lvB6 (c : Dev nD) (t : Fin cfg0.N) : (datsB m 0 c).leaves 6 t = owns (c : Thread nD τ) (st0_6 t) fullShare (iblk m c 6 t) := by
  show owns (c : Thread nD τ) (st0_6 t) fullShare ((datsB m 0 c).after 6 t) = _; rw [afterB_6]

/-- The class invariant with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

set_option maxHeartbeats 4000000 in
theorem soundB_A (c : Dev nD) (t : Fin cfg0.N) (ht : t.val = 0) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  unfold bodyPreB bodyPostB bodyAt0
  simp only [befB_0, befB_1, befB_2, befB_3, befB_4, befB_5, befB_6]
  rw [lvB0, lvB1, lvB2, lvB3, lvB4, lvB5, lvB6]
  rw [show (datsB m 0 c).owesAt () t.succ = (datsB m 0 c).owesAt () t.castSucc from rfl,
    show (datsB m 0 c).Φ t.castSucc = Pipeline.ΦA spec0 c from rfl, show (datsB m 0 c).Φ t.succ = Pipeline.ΦA spec0 c from rfl, PhiA_eq]
  iintro ⟨⟨⟨⟨%A, HS0⟩, ⟨%S2, HS1⟩, ⟨%Y, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  have hc1 : cond1 (grid0.coords t) := (hcond1 t).mpr (by omega)
  have hc2 : cond2 (grid0.coords t) := (hcond2 t).mpr (by omega)
  have hc3 : ¬cond3 (grid0.coords t) := fun h => by have := (hcond3 t).mp h; omega
  have hc4 : ¬cond4 (grid0.coords t) := fun h => by have := (hcond4 t).mp h; omega
  have hc5 : ¬cond5 (grid0.coords t) := fun h => by have := (hcond5 t).mp h; omega
  iapply ((runA c (grid0.coords t) _ _ _ _ _ _ _ _ _ _ _ _ _ _ _ _ _ _ _ _ _ _ hc1 hc2 hc3 hc4 hc5 (panel (ETv m c) d0) (rowsOf (min t.val 24) (Xv m c) d1) Y).2.2 Set.univ _)
  isplitl [H0]; · iexact H0
  isplitl [H1]; · iexact H1
  isplitl [HS0]; · iexists _; iexact HS0
  isplitl [HS2]; · iexact HS2
  iintro ⟨H0, H1, ⟨%f10, HS0⟩, HS2⟩
  isplitl [HS0 HS1 HS2 Hg]
  · isplitl [HS0 HS1 HS2]
    · isplitl [HS0]
      · iexists _
        unfold owns; iexists _; isplitr
        swap; · iexact HS0
        ipureintro; rfl
      isplitl [HS1]; · iexists _; iexact HS1
      iexists _
      unfold owns; iexists _; isplitr
      swap; · iexact HS2
      ipureintro; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _; iexact H7

set_option maxHeartbeats 4000000 in
theorem soundB_B (c : Dev nD) (t : Fin cfg0.N) (ht1 : 1 ≤ t.val) (ht : t.val < 24) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  unfold bodyPreB bodyPostB bodyAt0
  simp only [befB_0, befB_1, befB_2, befB_3, befB_4, befB_5, befB_6]
  rw [lvB0, lvB1, lvB2, lvB3, lvB4, lvB5, lvB6]
  rw [show (datsB m 0 c).owesAt () t.succ = (datsB m 0 c).owesAt () t.castSucc from rfl,
    show (datsB m 0 c).Φ t.castSucc = Pipeline.ΦA spec0 c from rfl, show (datsB m 0 c).Φ t.succ = Pipeline.ΦA spec0 c from rfl, PhiA_eq]
  iintro ⟨⟨⟨⟨%A, HS0⟩, ⟨%S2, HS1⟩, ⟨%Y, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  have hc1 : ¬cond1 (grid0.coords t) := fun h => by have := (hcond1 t).mp h; omega
  have hc2 : cond2 (grid0.coords t) := (hcond2 t).mpr (by omega)
  have hc3 : ¬cond3 (grid0.coords t) := fun h => by have := (hcond3 t).mp h; omega
  have hc4 : ¬cond4 (grid0.coords t) := fun h => by have := (hcond4 t).mp h; omega
  have hc5 : ¬cond5 (grid0.coords t) := fun h => by have := (hcond5 t).mp h; omega
  iapply ((runB c (grid0.coords t) _ _ _ _ _ _ _ _ _ _ _ _ _ _ _ _ _ _ _ _ _ _ hc1 hc2 hc3 hc4 hc5 (panel (ETv m c) d0) (rowsOf (min t.val 24) (Xv m c) d1) A Y).2.2 Set.univ _)
  isplitl [H0]; · iexact H0
  isplitl [H1]; · iexact H1
  isplitl [HS0]; · iexact HS0
  isplitl [HS2]; · iexact HS2
  iintro ⟨H0, H1, ⟨%f10, HS0⟩, HS2⟩
  isplitl [HS0 HS1 HS2 Hg]
  · isplitl [HS0 HS1 HS2]
    · isplitl [HS0]
      · iexists _
        unfold owns; iexists _; isplitr
        swap; · iexact HS0
        ipureintro; rfl
      isplitl [HS1]; · iexists _; iexact HS1
      iexists _
      unfold owns; iexists _; isplitr
      swap; · iexact HS2
      ipureintro; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _; iexact H7

set_option maxHeartbeats 4000000 in
theorem soundB_C (c : Dev nD) (t : Fin cfg0.N) (ht : t.val = 24) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  unfold bodyPreB bodyPostB bodyAt0
  simp only [befB_0, befB_1, befB_2, befB_3, befB_4, befB_5, befB_6]
  rw [lvB0, lvB1, lvB2, lvB3, lvB4, lvB5, lvB6]
  rw [show (datsB m 0 c).owesAt () t.succ = (datsB m 0 c).owesAt () t.castSucc from rfl,
    show (datsB m 0 c).Φ t.castSucc = Pipeline.ΦA spec0 c from rfl, show (datsB m 0 c).Φ t.succ = Pipeline.ΦA spec0 c from rfl, PhiA_eq]
  iintro ⟨⟨⟨⟨%A, HS0⟩, ⟨%S2, HS1⟩, ⟨%Y, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr (by omega)
  have hc4 : ¬cond4 (grid0.coords t) := fun h => by have := (hcond4 t).mp h; omega
  have hc5 : ¬cond5 (grid0.coords t) := fun h => by have := (hcond5 t).mp h; omega
  iapply ((runC c (grid0.coords t) _ _ _ _ _ _ _ _ _ _ _ _ _ _ _ _ _ _ _ _ _ _ hc1 hc2 hc3 hc4 hc5 (panel (ETv m c) d0) (rowsOf (min t.val 24) (Xv m c) d1) A Y).2.2 Set.univ _)
  isplitl [H0]; · iexact H0
  isplitl [H1]; · iexact H1
  isplitl [HS0]; · iexact HS0
  isplitl [HS2]; · iexact HS2
  iintro ⟨H0, H1, ⟨%f10, HS0⟩, HS2⟩
  isplitl [HS0 HS1 HS2 Hg]
  · isplitl [HS0 HS1 HS2]
    · isplitl [HS0]
      · iexists _
        unfold owns; iexists _; isplitr
        swap; · iexact HS0
        ipureintro; rfl
      isplitl [HS1]; · iexists _; iexact HS1
      iexists _
      unfold owns; iexists _; isplitr
      swap; · iexact HS2
      ipureintro; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _; iexact H7

set_option maxHeartbeats 4000000 in
theorem soundB_D (c : Dev nD) (t : Fin cfg0.N) (ht : t.val = 25) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  unfold bodyPreB bodyPostB bodyAt0
  simp only [befB_0, befB_1, befB_2, befB_3, befB_4, befB_5, befB_6]
  rw [lvB0, lvB1, lvB2, lvB3, lvB4, lvB5, lvB6]
  rw [show (datsB m 0 c).owesAt () t.succ = (datsB m 0 c).owesAt () t.castSucc from rfl,
    show (datsB m 0 c).Φ t.castSucc = Pipeline.ΦA spec0 c from rfl, show (datsB m 0 c).Φ t.succ = Pipeline.ΦA spec0 c from rfl, PhiA_eq]
  iintro ⟨⟨⟨⟨%A, HS0⟩, ⟨%S2, HS1⟩, ⟨%Y, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr (by omega)
  have hc5 : cond5 (grid0.coords t) := (hcond5 t).mpr (by omega)
  iapply ((runD c (grid0.coords t) _ _ _ _ _ _ _ _ _ _ _ _ _ _ _ _ _ _ _ _ _ _ hc1 hc2 hc3 hc4 hc5 (panel (ETv m c) d0) (iblk m c 2 t) (iblk m c 3 t) (iblk m c 4 t) (iblk m c 5 t) (iblk m c 6 t) A Y).2.2 Set.univ _)
  isplitl [H0]; · iexact H0
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexists _; iexact HS1
  isplitl [HS2]; · iexact HS2
  iintro ⟨H0, H2, H3, H4, H5, H6, ⟨%f9, H9⟩, HS0, ⟨%f11, HS1⟩, HS2⟩
  isplitl [HS0 HS1 HS2 Hg]
  · isplitl [HS0 HS1 HS2]
    · isplitl [HS0]; · iexists _; iexact HS0
      isplitl [HS1]
      · iexists _
        unfold owns; iexists _; isplitr
        swap; · iexact HS1
        ipureintro; rfl
      iexists _; iexact HS2
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _
  unfold owns; iexists _; isplitr
  swap; · iexact H9
  ipureintro; rfl

set_option maxHeartbeats 4000000 in
theorem soundB_E (c : Dev nD) (t : Fin cfg0.N) (ht : 26 ≤ t.val) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  unfold bodyPreB bodyPostB bodyAt0
  simp only [befB_0, befB_1, befB_2, befB_3, befB_4, befB_5, befB_6]
  rw [lvB0, lvB1, lvB2, lvB3, lvB4, lvB5, lvB6]
  rw [show (datsB m 0 c).owesAt () t.succ = (datsB m 0 c).owesAt () t.castSucc from rfl,
    show (datsB m 0 c).Φ t.castSucc = Pipeline.ΦA spec0 c from rfl, show (datsB m 0 c).Φ t.succ = Pipeline.ΦA spec0 c from rfl, PhiA_eq]
  iintro ⟨⟨⟨⟨%A, HS0⟩, ⟨%S2, HS1⟩, ⟨%Y, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : ¬cond4 (grid0.coords t) := fun h => by have := (hcond4 t).mp h; omega
  have hc5 : cond5 (grid0.coords t) := (hcond5 t).mpr (by omega)
  iapply ((runE c (grid0.coords t) _ _ _ _ _ _ _ _ _ _ _ _ _ _ _ _ _ _ _ _ _ _ hc1 hc2 hc3 hc4 hc5 (panel (ETv m c) d0) (iblk m c 6 t) S2 Y).2 Set.univ _)
  isplitl [H0]; · iexact H0
  isplitl [H6]; · iexact H6
  isplitl [H7]; · iexists _; iexact H7
  isplitl [HS1]; · iexact HS1
  isplitl [HS2]; · iexact HS2
  iintro ⟨H0, H6, ⟨%f9, H9⟩, HS1, HS2⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _
  unfold owns; iexists _; isplitr
  swap; · iexact H9
  ipureintro; rfl

/-- The body at any point. -/
theorem soundB (c : Dev nD) (t : Fin cfg0.N) :
    bodyPreB m c t ⊢ wp frame (wpE (defs₀ (F := F)) Variants.none c none) Set.univ (bodyAt0 t) (fun _ => bodyPostB m c t) := by
  have hN : t.val < 50 := lt_of_lt_of_eq t.isLt (show cfg0.N = 50 from N_0)
  by_cases h0 : t.val = 0
  · exact soundB_A m c t h0
  by_cases h1 : t.val < 24
  · exact soundB_B m c t (by omega) h1
  by_cases h2 : t.val = 24
  · exact soundB_C m c t h2
  by_cases h3 : t.val = 25
  · exact soundB_D m c t h3
  · exact soundB_E m c t (by omega)

/-- The library's body obligation, at every point, the output window forgotten. -/
theorem body_obligationB (c : Dev nD) : BodyObligationLoose (datsB (F := F) m 0 c) (defs₀ (F := F)) Variants.none () Set.univ forgets := fun t => by
  rw [bigSep_W0, bigSep_W0]
  exact soundB m c t

set_option backward.isDefEq.respectTransparency.types false in
/-- Every weakly fair execution terminates, every input array of the pipeline unchanged and every other unscoped buffer
    as the region found it; nothing is stated of the forgotten output. -/
theorem run_mainB : θ_run defs (onTc (τ := τ) (main (F := F))) (s₀ m ρ) (Pipeline.RDat.FramePost (cfgs 0) (fun c => (datsB m 0 c).toRForget forgets) (V m)) :=
  Pipeline.RDat.θ_run_frame cfgs (0 : Fin 1) launch0 defs₀ Variants.none (fun c => (datsB m 0 c).toRForget forgets) m ρ main
    (hbody := fun c => (body_obligationB m c).toRForget) (hshare := fun c => ((datsB m 0 c).toRForget forgets).share_full fun _ => rfl)
    (howed := fun _ _ => rfl) (V := V m) (hmain := hmain m Variants.none) (hA := AB_eq m) (hΦ := fun _ _ => rfl)

/-- THE FRAME of the kernel as printed: its seven argument arrays end as they were. -/
theorem frameB : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun (((datsB m 0 c).toRForget forgets).ArrAt_in 1 rfl _) _) ((h c).1 1)).trans ((AB_eq m c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Eq.mp (congrFun (((datsB m 0 c).toRForget forgets).ArrAt_in 3 rfl _) _) ((h c).1 3)).trans ((AB_eq m c 3).trans (V_main_arg3 m c)),
      ((h c).2 main_arg4 (Pipeline.mem_restRefs_of main_arg4 (by decide) (by decide))).trans (V_main_arg4 m c),
      (Eq.mp (congrFun (((datsB m 0 c).toRForget forgets).ArrAt_in 5 rfl _) _) ((h c).1 5)).trans ((AB_eq m c 5).trans (V_main_arg5 m c)),
      ((h c).2 main_arg6 (Pipeline.mem_restRefs_of main_arg6 (by decide) (by decide))).trans (V_main_arg6 m c)⟩) (run_mainB m ρ)

end Cert.Kernel.Hand

end
-- ==== Proof.Conds.lean ====
/-
  The five conditionals of the kernel body, as propositions over the grid coordinates (p, i) — p the phase (0: project,
  1: back-project), i the block of 4096 rows — and where on the grid of 2 × 25 points each holds:
  the accumulator is reset at the first point; a whole block is accumulated at p = 0, i < 24; the ragged last block at
  p = 0, i = 24; the spectrum is gated and folded into the output weights at p = 1, i = 0; every point of p = 1
  back-projects one block.
-/
import proofs.«135913_g34772055229035_cont_8to1_b_1465_20_alg».proof.Proof.Gen.KernelIdeal.Frame
import proofs.«135913_g34772055229035_cont_8to1_b_1465_20_alg».proof.Proof.Gen.KernelIdeal.Skeleton
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The reset of the accumulator: p = 0 and i = 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- A whole block accumulated: p = 0 and i < 24. -/
abbrev cond2 (i : grid0.Coords) : Prop := k0_cond2 i = 1#1
/-- The ragged last block accumulated: p = 0 and i = 24. -/
abbrev cond3 (i : grid0.Coords) : Prop := k0_cond3 i = 1#1
/-- The spectrum gated and folded into the output weights: p = 1 and i = 0. -/
abbrev cond4 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- One block back-projected: p = 1. -/
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 24 :=
  (by decide +kernel : ∀ t : Fin grid0.N, cond2 (grid0.coords t) ↔ t.val < 24)
theorem hcond3 : ∀ t : Fin cfg0.N, cond3 (grid0.coords t) ↔ t.val = 24 :=
  (by decide +kernel : ∀ t : Fin grid0.N, cond3 (grid0.coords t) ↔ t.val = 24)
theorem hcond4 : ∀ t : Fin cfg0.N, cond4 (grid0.coords t) ↔ t.val = 25 :=
  (by decide +kernel : ∀ t : Fin grid0.N, cond4 (grid0.coords t) ↔ t.val = 25)
theorem hcond5 : ∀ t : Fin cfg0.N, cond5 (grid0.coords t) ↔ 25 ≤ t.val :=
  (by decide +kernel : ∀ t : Fin grid0.N, cond5 (grid0.coords t) ↔ 25 ≤ t.val)

end Cert.KernelIdeal.Hand

end
-- ==== Proof.Sched.lean ====
/-
  The schedule of the three windows whose blocks may overhang their arrays, decided over the grid of 50 points
  (t = 25 p + i): the staged eigenvector panel is one block of 32 × 102400 of which 100000 columns lie inside the
  array; the feature window's block at point t is block min t 24 of 4096 rows, 1696 of them inside the array for
  block 24; the output window's block is block 0 during the first phase and block t − 25 after, written back at every
  point of the second phase and idle (not stored into) during the first.
-/
import proofs.«135913_g34772055229035_cont_8to1_b_1465_20_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The eigenvector panel's block: index (0, 0) at every point, 32 × 100000 of it inside the array. -/
theorem idx0 : ∀ (t : Fin cfg0.N) (a : Fin 2), (cfg0.win 0).index t a = 0 :=
  (by decide +kernel : ∀ (t : Fin grid0.N) (a : Fin 2), win0_0.index t a = 0)
theorem xs0 : ∀ (t : Fin cfg0.N) (a : Fin 2), (cfg0.win 0).xsize (cfg0.grid.coords t) a = (![32, 100000] : Fin 2 → ℕ) a :=
  (by decide +kernel : ∀ (t : Fin grid0.N) (a : Fin 2), win0_0.xsize (grid0.coords t) a = (![32, 100000] : Fin 2 → ℕ) a)

/-- The feature window's block at point t: rows from 4096 · min t 24, all 128 columns; -/
theorem idx1 : ∀ (t : Fin cfg0.N) (a : Fin 2), (cfg0.win 1).index t a = (![min t.val 24, 0] : Fin 2 → ℕ) a :=
  (by decide +kernel : ∀ (t : Fin grid0.N) (a : Fin 2), win0_1.index t a = (![min t.val 24, 0] : Fin 2 → ℕ) a)
/-- 4096 rows of it inside the array, but 1696 for block 24. -/
theorem xs1 : ∀ (t : Fin cfg0.N) (a : Fin 2), (cfg0.win 1).xsize (cfg0.grid.coords t) a = (![if t.val < 24 then 4096 else 1696, 128] : Fin 2 → ℕ) a :=
  (by decide +kernel : ∀ (t : Fin grid0.N) (a : Fin 2), win0_1.xsize (grid0.coords t) a = (![if t.val < 24 then 4096 else 1696, 128] : Fin 2 → ℕ) a)
/-- It is fetched at every point of the first phase and never again. -/
theorem fetch1 : ∀ t : Fin cfg0.N, (cfg0.win 1).fetch t = true ↔ t.val ≤ 24 :=
  (by decide +kernel : ∀ t : Fin grid0.N, win0_1.fetch t = true ↔ t.val ≤ 24)

/-- The output window's block at point t: rows from 4096 · (t − 25); -/
theorem idx7 : ∀ (t : Fin cfg0.N) (a : Fin 2), (cfg0.win 7).index t a = (![t.val - 25, 0] : Fin 2 → ℕ) a :=
  (by decide +kernel : ∀ (t : Fin grid0.N) (a : Fin 2), win0_7.index t a = (![t.val - 25, 0] : Fin 2 → ℕ) a)
theorem xs7 : ∀ (t : Fin cfg0.N) (a : Fin 2), (cfg0.win 7).xsize (cfg0.grid.coords t) a = (![if t.val = 49 then 1696 else 4096, 128] : Fin 2 → ℕ) a :=
  (by decide +kernel : ∀ (t : Fin grid0.N) (a : Fin 2), win0_7.xsize (grid0.coords t) a = (![if t.val = 49 then 1696 else 4096, 128] : Fin 2 → ℕ) a)
/-- It is written back at every point of the second phase, -/
theorem flush7 : ∀ t : Fin cfg0.N, (cfg0.win 7).flush t = true ↔ 25 ≤ t.val :=
  (by decide +kernel : ∀ t : Fin grid0.N, win0_7.flush t = true ↔ 25 ≤ t.val)
/-- and idle during the first. -/
theorem idle7 : ∀ t : Fin cfg0.N, cfg0.idle 7 (cfg0.grid.coords t) = true ↔ t.val < 25 :=
  (by decide +kernel : ∀ t : Fin grid0.N, idle0 7 (grid0.coords t) = true ↔ t.val < 25)

/-- The rows of the staged panel and of the cache that the body reads and writes at a point: from 4096 i. -/
theorem off1_eq : ∀ t : Fin cfg0.N, k0_off1 (grid0.coords t) = ![0, (t.val % 25) * 4096] :=
  (by decide +kernel : ∀ t : Fin grid0.N, k0_off1 (grid0.coords t) = ![0, (t.val % 25) * 4096])
theorem off3_eq : ∀ t : Fin cfg0.N, k0_off3 (grid0.coords t) = ![0, (t.val % 25) * 4096] :=
  (by decide +kernel : ∀ t : Fin grid0.N, k0_off3 (grid0.coords t) = ![0, (t.val % 25) * 4096])
theorem off5_eq : ∀ t : Fin cfg0.N, k0_off5 (grid0.coords t) = ![0, (t.val % 25) * 4096] :=
  (by decide +kernel : ∀ t : Fin grid0.N, k0_off5 (grid0.coords t) = ![0, (t.val % 25) * 4096])
theorem off2_eq : ∀ t : Fin cfg0.N, k0_off2 (grid0.coords t) = ![(t.val % 25) * 4096, 0] :=
  (by decide +kernel : ∀ t : Fin grid0.N, k0_off2 (grid0.coords t) = ![(t.val % 25) * 4096, 0])
theorem off4_eq : ∀ t : Fin cfg0.N, k0_off4 (grid0.coords t) = ![(t.val % 25) * 4096, 0] :=
  (by decide +kernel : ∀ t : Fin grid0.N, k0_off4 (grid0.coords t) = ![(t.val % 25) * 4096, 0])
theorem off6_eq : ∀ t : Fin cfg0.N, k0_off6 (grid0.coords t) = ![(t.val % 25) * 4096, 0] :=
  (by decide +kernel : ∀ t : Fin grid0.N, k0_off6 (grid0.coords t) = ![(t.val % 25) * 4096, 0])

end Cert.KernelIdeal.Hand

end
-- ==== Proof.Arrays.lean ====
/-
  What the staging buffers of the two input windows whose blocks overhang their arrays hold when the body runs, and
  what they must hold when it returns.  The eigenvector panel's buffer (32 × 102400) holds the transposed eigenvectors
  on its first 100000 columns and words nothing names past them; the feature window's buffer (4096 × 128) at point t
  holds rows 4096·min t 24 … of the features where those rows lie inside the array, and words nothing names below.
  Both facts hold at every point, fetched there or not, with the unnamed part carried along unchanged.  Last, for the
  output window: contents that agree with the stated block on the rows inside the array are all the obligation asks.
-/
import proofs.«135913_g34772055229035_cont_8to1_b_1465_20_alg».proof.Proof.Sched
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A 32 × 100000 array laid into 32 × 102400: the array on the first 100000 columns, `d` past them. -/
def panel (A : S32x100000.Idx → Elt F .f32) (d : Vec F S32x102400 .f32) : Vec F S32x102400 .f32 :=
  fun y => if h : (y 1).val < 100000 then A (ix2 (n0 := 32) (n1 := 100000) ⟨(y 0).val, idx2_lt0 y⟩ ⟨(y 1).val, h⟩) else d y

/-- Rows 4096 b … 4096 b + 4095 of a 100000 × 128 array: the array's rows where they exist, `d` below the array's end. -/
def rowsOf (b : ℕ) (A : S100000x128.Idx → Elt F .f32) (d : Vec F S4096x128 .f32) : Vec F S4096x128 .f32 :=
  fun y => if h : b * 4096 + (y 0).val < 100000 then A (ix2 (n0 := 100000) (n1 := 128) ⟨b * 4096 + (y 0).val, h⟩ ⟨(y 1).val, idx2_lt1 y⟩) else d y

/-- The transposed eigenvectors as the region finds them, and the features. -/
abbrev ETv (c : Dev nD) : S32x100000.Idx → Elt F .f32 := V m c main_call0_v0
abbrev Xv (c : Dev nD) : S100000x128.Idx → Elt F .f32 := V m c main_arg0

/-! ## The eigenvector panel -/

/-- An element of the panel's block is the array's element with the same coordinates (the block index is (0, 0)). -/
theorem iblk0_apply (c : Dev nD) (t : Fin cfg0.N) (x : ((cfg0.win 0).xblock (cfg0.grid.coords t)).Idx) (k : S32x100000.Idx)
    (hk0 : (k 0).val = (x 0).val) (hk1 : (k 1).val = (x 1).val) :
    iblk m c 0 t x = ETv m c k := by
  unfold iblk ETv
  rw [View.read_apply]
  show V m c main_call0_v0 _ = V m c main_call0_v0 _
  congr 1
  funext a
  apply Fin.ext
  match a with
  | ⟨0, _⟩ => show win0_0.index t 0 * 32 + 1 * (x 0).val = (k 0).val; rw [show win0_0.index t 0 = 0 from idx0 t 0, hk0]; omega
  | ⟨1, _⟩ => show win0_0.index t 1 * 102400 + 1 * (x 1).val = (k 1).val; rw [show win0_0.index t 1 = 0 from idx0 t 1, hk1]; omega

theorem moved0 (t : Fin cfg0.N) (y : S32x102400.Idx) :
    (cfg0.win 0).moved (cfg0.grid.coords t) y = true ↔ (y 1).val < 100000 := by
  have h1 := xs0 t 1
  have h0 := xs0 t 0
  rw [(cfg0.win 0).moved_iff]
  constructor
  · intro h; have := h 1; rw [h1] at this; exact this
  · intro hy a
    match a with
    | ⟨0, _⟩ => show (y 0).val < (cfg0.win 0).xsize (cfg0.grid.coords t) 0; rw [h0]; exact idx2_lt0 y
    | ⟨1, _⟩ => show (y 1).val < (cfg0.win 0).xsize (cfg0.grid.coords t) 1; rw [h1]; exact hy

/-- Filling the panel's buffer with the moved part of `Z` over `d`: `Z` on the first 100000 columns, `d` past them. -/
theorem fill_cut0 (t : Fin cfg0.N) (d Z : Vec F S32x102400 .f32) :
    (cfg0.win 0).fill (cfg0.grid.coords t) d ((cfg0.win 0).cut (cfg0.grid.coords t) Z)
      = fun y => if (y 1).val < 100000 then Z y else d y := by
  funext y
  unfold Window.fill
  by_cases hy : (y 1).val < 100000
  · rw [dif_pos ((moved0 t y).mpr hy), if_pos hy]
  · rw [dif_neg (fun hm => hy ((moved0 t y).mp hm)), if_neg hy]

/-- The panel's buffer just fetched into, over `d`: the array laid in over `d`. -/
theorem fetched0 (c : Dev nD) (t : Fin cfg0.N) (d : Vec F S32x102400 .f32) :
    (cfg0.win 0).fill (cfg0.grid.coords t) d (iblk m c 0 t) = panel (ETv m c) d := by
  funext y
  unfold Window.fill panel
  by_cases hy : (y 1).val < 100000
  · rw [dif_pos ((moved0 t y).mpr hy), dif_pos hy]
    exact iblk0_apply m c t _ _ rfl rfl
  · rw [dif_neg (fun hm => hy ((moved0 t y).mp hm)), dif_neg hy]

theorem panel_if (A : S32x100000.Idx → Elt F .f32) (d d' : Vec F S32x102400 .f32) :
    (fun y => if (y 1).val < 100000 then panel A d' y else d y) = panel A d := by
  funext y; unfold panel; by_cases h : (y 1).val < 100000
  · rw [if_pos h, dif_pos h, dif_pos h]
  · rw [if_neg h, dif_neg h]

/-- THE PANEL'S BUFFER AT EVERY POINT: for proof data over the region-entry arrays which hands the buffer back as the array
    laid in (`hafter`), the buffer holds the array laid in over the `d` it was handed. -/
theorem before0 {c : Dev nD} (dat : Dat τ (Elt F) Unit ℕ (UR sig nD τ) ℕ cfg0 c) (d₀ : Vec F S32x102400 .f32)
    (hA : dat.A 0 = V m c (Pipeline.arrRef spec0 0)) (hafter : ∀ t, dat.after 0 t = panel (ETv m c) d₀) (t : Fin cfg0.N) (d) :
    dat.before 0 t d = panel (ETv m c) d := by
  by_cases hf : (cfg0.win 0).fetch t = true
  · rw [dat.before_fetched 0 t hf]
    have e : dat.blockOf 0 t = iblk m c 0 t := by unfold Dat.blockOf iblk; rw [hA]
    unfold Dat.fetched; rw [e, fetched0]
  · have hf' := Bool.eq_false_iff.mpr hf
    rw [dat.before_unfetched_in 0 rfl t hf' (fun _ => rfl)]
    unfold Dat.kept
    rw [hafter, fill_cut0, panel_if]

/-- What the obligation asks of the panel's buffer on return: it is the array laid in over something. -/
theorem leaves0 (t : Fin cfg0.N) (A : S32x100000.Idx → Elt F .f32) (d d₀ : Vec F S32x102400 .f32) :
    (cfg0.win 0).fill (cfg0.grid.coords t) d ((cfg0.win 0).cut (cfg0.grid.coords t) (panel A d₀)) = panel A d := by
  rw [fill_cut0, panel_if]

/-! ## The feature window -/

/-- An element of the feature block at point t is the features' element 4096 · min t 24 rows further down. -/
theorem iblk1_apply (c : Dev nD) (t : Fin cfg0.N) (x : ((cfg0.win 1).xblock (cfg0.grid.coords t)).Idx) (k : S100000x128.Idx)
    (hk0 : (k 0).val = min t.val 24 * 4096 + (x 0).val) (hk1 : (k 1).val = (x 1).val) :
    iblk m c 1 t x = Xv m c k := by
  unfold iblk Xv
  rw [View.read_apply]
  show V m c main_arg0 _ = V m c main_arg0 _
  congr 1
  funext a
  apply Fin.ext
  match a with
  | ⟨0, _⟩ => show win0_1.index t 0 * 4096 + 1 * (x 0).val = (k 0).val; rw [show win0_1.index t 0 = min t.val 24 from idx1 t 0, hk0]; omega
  | ⟨1, _⟩ => show win0_1.index t 1 * 128 + 1 * (x 1).val = (k 1).val; rw [show win0_1.index t 1 = 0 from idx1 t 1, hk1]; omega

/-- Which rows of the feature window's buffer the transfer at point t moves: those inside the array. -/
theorem moved1 (t : Fin cfg0.N) (y : S4096x128.Idx) :
    (cfg0.win 1).moved (cfg0.grid.coords t) y = true ↔ min t.val 24 * 4096 + (y 0).val < 100000 := by
  have h0 := xs1 t 0
  have h1 := xs1 t 1
  have hN : t.val < 50 := lt_of_lt_of_eq t.isLt (show cfg0.N = 50 from N_0)
  have hy0 : (y 0).val < 4096 := idx2_lt0 y
  rw [(cfg0.win 1).moved_iff]
  constructor
  · intro h
    have := h 0; rw [h0] at this
    show min t.val 24 * 4096 + (y 0).val < 100000
    change (y 0).val < if t.val < 24 then 4096 else 1696 at this
    split_ifs at this with ht <;> omega
  · intro h a
    match a with
    | ⟨0, _⟩ =>
      show (y 0).val < (cfg0.win 1).xsize (cfg0.grid.coords t) 0
      rw [h0]; show (y 0).val < if t.val < 24 then 4096 else 1696
      split_ifs with ht <;> omega
    | ⟨1, _⟩ =>
      show (y 1).val < (cfg0.win 1).xsize (cfg0.grid.coords t) 1
      rw [h1]; exact idx2_lt1 y

theorem fill_cut1 (t : Fin cfg0.N) (d Z : Vec F S4096x128 .f32) :
    (cfg0.win 1).fill (cfg0.grid.coords t) d ((cfg0.win 1).cut (cfg0.grid.coords t) Z)
      = fun y => if min t.val 24 * 4096 + (y 0).val < 100000 then Z y else d y := by
  funext y
  unfold Window.fill
  by_cases hy : min t.val 24 * 4096 + (y 0).val < 100000
  · rw [dif_pos ((moved1 t y).mpr hy), if_pos hy]
  · rw [dif_neg (fun hm => hy ((moved1 t y).mp hm)), if_neg hy]

/-- The feature buffer just fetched into at point t, over `d`: block min t 24 of the features over `d`. -/
theorem fetched1 (c : Dev nD) (t : Fin cfg0.N) (d : Vec F S4096x128 .f32) :
    (cfg0.win 1).fill (cfg0.grid.coords t) d (iblk m c 1 t) = rowsOf (min t.val 24) (Xv m c) d := by
  funext y
  unfold Window.fill rowsOf
  by_cases hy : min t.val 24 * 4096 + (y 0).val < 100000
  · rw [dif_pos ((moved1 t y).mpr hy), dif_pos hy]
    exact iblk1_apply m c t _ _ rfl rfl
  · rw [dif_neg (fun hm => hy ((moved1 t y).mp hm)), dif_neg hy]

theorem rows_if (b : ℕ) (A : S100000x128.Idx → Elt F .f32) (d d' : Vec F S4096x128 .f32) :
    (fun y => if b * 4096 + (y 0).val < 100000 then rowsOf b A d' y else d y) = rowsOf b A d := by
  funext y; unfold rowsOf; by_cases h : b * 4096 + (y 0).val < 100000
  · rw [if_pos h, dif_pos h, dif_pos h]
  · rw [if_neg h, dif_neg h]

/-- THE FEATURE BUFFER AT EVERY POINT: block min t 24 of the features over the `d` it was handed. -/
theorem before1 {c : Dev nD} (dat : Dat τ (Elt F) Unit ℕ (UR sig nD τ) ℕ cfg0 c) (d₀ : Vec F S4096x128 .f32)
    (hA : dat.A 1 = V m c (Pipeline.arrRef spec0 1)) (hafter : ∀ t : Fin cfg0.N, dat.after 1 t = rowsOf (min t.val 24) (Xv m c) d₀) (t : Fin cfg0.N) (d) :
    dat.before 1 t d = rowsOf (min t.val 24) (Xv m c) d := by
  by_cases hf : (cfg0.win 1).fetch t = true
  · rw [dat.before_fetched 1 t hf]
    have e : dat.blockOf 1 t = iblk m c 1 t := by unfold Dat.blockOf iblk; rw [hA]
    unfold Dat.fetched; rw [e, fetched1]
  · have hf' := Bool.eq_false_iff.mpr hf
    have ht : ¬ t.val ≤ 24 := fun h => hf ((fetch1 t).mpr h)
    rw [dat.before_unfetched_in 1 rfl t hf' (fun _ => rfl)]
    unfold Dat.kept
    rw [hafter, fill_cut1]
    have e : min (t.val - 1) 24 = min t.val 24 := by omega
    show (fun y => if min (t.val - 1) 24 * 4096 + (y 0).val < 100000 then rowsOf (min (t.val - 1) 24) (Xv m c) d₀ y else d y) = _
    rw [e, rows_if]

theorem leaves1 (t : Fin cfg0.N) (A : S100000x128.Idx → Elt F .f32) (d d₀ : Vec F S4096x128 .f32) :
    (cfg0.win 1).fill (cfg0.grid.coords t) d ((cfg0.win 1).cut (cfg0.grid.coords t) (rowsOf (min t.val 24) A d₀)) = rowsOf (min t.val 24) A d := by
  rw [fill_cut1, rows_if]

/-! ## The output window -/

/-- Which rows of the output buffer the write-back at point t moves: those of block t − 25 inside the array. -/
theorem moved7 (t : Fin cfg0.N) (y : S4096x128.Idx) :
    (cfg0.win 7).moved (cfg0.grid.coords t) y = true ↔ (t.val - 25) * 4096 + (y 0).val < 100000 := by
  have h0 := xs7 t 0
  have h1 := xs7 t 1
  have hN : t.val < 50 := lt_of_lt_of_eq t.isLt (show cfg0.N = 50 from N_0)
  have hy0 : (y 0).val < 4096 := idx2_lt0 y
  rw [(cfg0.win 7).moved_iff]
  constructor
  · intro h
    have := h 0; rw [h0] at this
    change (y 0).val < if t.val = 49 then 1696 else 4096 at this
    split_ifs at this with ht <;> omega
  · intro h a
    match a with
    | ⟨0, _⟩ =>
      show (y 0).val < (cfg0.win 7).xsize (cfg0.grid.coords t) 0
      rw [h0]; show (y 0).val < if t.val = 49 then 1696 else 4096
      split_ifs with ht <;> omega
    | ⟨1, _⟩ =>
      show (y 1).val < (cfg0.win 7).xsize (cfg0.grid.coords t) 1
      rw [h1]; exact idx2_lt1 y

/-- Contents `P` of the output buffer that agree with `Z` on the rows inside the array are `Z`'s moved part laid over `P`. -/
theorem leaves7 (t : Fin cfg0.N) (P Z : Vec F S4096x128 .f32)
    (h : ∀ y : S4096x128.Idx, (t.val - 25) * 4096 + (y 0).val < 100000 → Z y = P y) :
    (cfg0.win 7).fill (cfg0.grid.coords t) P ((cfg0.win 7).cut (cfg0.grid.coords t) Z) = P := by
  funext y
  unfold Window.fill
  by_cases hy : (t.val - 25) * 4096 + (y 0).val < 100000
  · rw [dif_pos ((moved7 t y).mpr hy)]; exact h y hy
  · rw [dif_neg (fun hm => hy ((moved7 t y).mp hm))]

end Cert.KernelIdeal.Hand

end
-- ==== Proof.Spec.lean ====
/-
  The common specification of the spectral layer, stated once over plain index types.

  With `X : [N, D]` the node features, `E : [N, K]` the eigenvectors, `lam : [K]` the eigenvalues, `Wf, Wo : [D, D]`
  and `bf, bo : [D]` (N = 100000, D = 128, K = 32), both programs compute
      P      = Eᵀ X                                  (the projection, a sum over all N rows)
      S      = P · lam                               (row k scaled by lam k)
      G      = S · logistic (S Wf + bf)              (the gated spectrum)
      out    = X + (back-projection of G through Wo) + bo.
  The reference back-projects first and multiplies by `Wo` afterwards, `(E G) Wo`; the kernel folds `Wo` into the
  spectrum, `E (G Wo)`, and computes the projection block by block: 25 blocks of 4096 rows, the last one ragged
  (1696 rows inside the array), its tail replaced by zeros on both operands.  `outRef` and `outKer` are the two
  arrangements, entry by entry on the extended reals.
-/
import Idealize.ShloMosaic.PureOps.Ideal

noncomputable section

namespace Cert.Spectral

open Idealize.ShloMosaic

variable (X : Fin 100000 → Fin 128 → EReal) (E : Fin 100000 → Fin 32 → EReal) (lam : Fin 32 → EReal)
  (Wf : Fin 128 → Fin 128 → EReal) (bf : Fin 128 → EReal) (Wo : Fin 128 → Fin 128 → EReal) (bo : Fin 128 → EReal)

/-- The projection onto the spectral basis: entry (k, d) is the sum over every row n of `E n k · X n d`. -/
def proj (k : Fin 32) (d : Fin 128) : EReal := ∑ n : Fin 100000, E n k * X n d

/-- The gated spectrum of a projection `A`: with `S k d = A k d · lam k`, entry (k, d) is
    `S k d · logistic (∑ e, S k e · Wf e d + bf d)`. -/
def gate (A : Fin 32 → Fin 128 → EReal) (k : Fin 32) (d : Fin 128) : EReal :=
  (A k d * lam k) * Ideal.logistic ((∑ e : Fin 128, (A k e * lam k) * Wf e d) + bf d)

/-- The reference's arrangement: back-project the gated spectrum, then multiply by `Wo`. -/
def outRef (n : Fin 100000) (j : Fin 128) : EReal :=
  (X n j + ∑ d : Fin 128, (∑ k : Fin 32, E n k * gate lam Wf bf (proj X E) k d) * Wo d j) + bo j

/-- Block `i`'s eigenvector panel, entry (k, r): row `i·4096 + r` of `E` when that row is inside the array, zero past it. -/
def Em (i : ℕ) (k : Fin 32) (r : Fin 4096) : EReal :=
  if h : i * 4096 + r.val < 100000 then E ⟨i * 4096 + r.val, h⟩ k else 0

/-- Block `i` of the features, entry (r, d), zero past the array's end likewise. -/
def Xm (i : ℕ) (r : Fin 4096) (d : Fin 128) : EReal :=
  if h : i * 4096 + r.val < 100000 then X ⟨i * 4096 + r.val, h⟩ d else 0

/-- The running projection after the first `i` blocks: zero, then one block's product added at a time. -/
def accK : ℕ → Fin 32 → Fin 128 → EReal
  | 0 => fun _ _ => 0
  | i + 1 => fun k d => accK i k d + ∑ r : Fin 4096, Em E i k r * Xm X i r d

/-- The kernel's arrangement: `Wo` folded into the gated spectrum of the blockwise projection, then back-projected. -/
def outKer (n : Fin 100000) (j : Fin 128) : EReal :=
  (X n j + ∑ k : Fin 32, E n k * (∑ d : Fin 128, gate lam Wf bf (accK X E 25) k d * Wo d j)) + bo j

end Cert.Spectral

end
-- ==== Proof.DatI.lean ====
/-
  The proof data of the kernel's one pipeline at the ideal instance, in the specification's terms.  Over the launch
  memory, X, E, lam, Wf, bf, Wo, bo are the seven arguments as plain functions of their coordinates.  The body carries
  three scratch buffers from point to point, and the invariant says what they hold before point n (n = 25 p + i):
    the accumulator   the running projection accK n over the first min n 25 blocks (from n = 1 on);
    the feature cache rows below 4096 · min n 25 hold the features, zero past the array's end;
    the folded spectrum (gate of the full projection) · Wo, from n = 26 on.
  The output window's buffer after point t ≥ 25 holds the kernel's arrangement outKer on rows 4096 (t − 25) … that lie
  inside the array.
-/
import proofs.«135913_g34772055229035_cont_8to1_b_1465_20_alg».proof.Proof.Arrays
import proofs.«135913_g34772055229035_cont_8to1_b_1465_20_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

/-- The seven arguments, from the launch memory, as functions of their coordinates. -/
def Xs (c : Dev nD) : Fin 100000 → Fin 128 → EReal := fun n j => (m ((c : Thread nD τ).loc main_arg0) : S100000x128.Idx → EReal) (ix2 n j)
def Es (c : Dev nD) : Fin 100000 → Fin 32 → EReal := fun n k => (m ((c : Thread nD τ).loc main_arg1) : S100000x32.Idx → EReal) (ix2 n k)
def lams (c : Dev nD) : Fin 32 → EReal := fun k => (m ((c : Thread nD τ).loc main_arg2) : S32.Idx → EReal) (ix1 k)
def Wfs (c : Dev nD) : Fin 128 → Fin 128 → EReal := fun a b => (m ((c : Thread nD τ).loc main_arg3) : S128x128.Idx → EReal) (ix2 a b)
def bfs (c : Dev nD) : Fin 128 → EReal := fun a => (m ((c : Thread nD τ).loc main_arg4) : S128.Idx → EReal) (ix1 a)
def Wos (c : Dev nD) : Fin 128 → Fin 128 → EReal := fun a b => (m ((c : Thread nD τ).loc main_arg5) : S128x128.Idx → EReal) (ix2 a b)
def bos (c : Dev nD) : Fin 128 → EReal := fun a => (m ((c : Thread nD τ).loc main_arg6) : S128.Idx → EReal) (ix1 a)

/-- The running projection over the first n blocks, as the accumulator's contents. -/
def accV (c : Dev nD) (n : ℕ) : Vec Ideal S32x128 .f32 :=
  fun y => accK (Xs m c) (Es m c) n ⟨(y 0).val, idx2_lt0 y⟩ ⟨(y 1).val, idx2_lt1 y⟩

/-- The gated spectrum of the full projection times the output weights, as the folded spectrum's contents. -/
def spec2V (c : Dev nD) : Vec Ideal S32x128 .bf16 :=
  fun y => ∑ d : Fin 128, gate (lams m c) (Wfs m c) (bfs m c) (accK (Xs m c) (Es m c) 25) ⟨(y 0).val, idx2_lt0 y⟩ d * Wos m c d ⟨(y 1).val, idx2_lt1 y⟩

/-- Row `row` of the features, zero past the array's end. -/
def Xpad (c : Dev nD) (row : ℕ) (j : Fin 128) : EReal := if h : row < 100000 then Xs m c ⟨row, h⟩ j else 0

/-- The feature cache holds the features on its first n blocks of 4096 rows. -/
def cacheOK (c : Dev nD) (n : ℕ) (Y : Vec Ideal S102400x128 .bf16) : Prop :=
  ∀ y : S102400x128.Idx, (y 0).val < n * 4096 → Y y = Xpad m c (y 0).val ⟨(y 1).val, idx2_lt1 y⟩

/-- The output block after point t: the kernel's arrangement on the rows of block t − 25 inside the array. -/
def outV (c : Dev nD) (t : ℕ) : Vec Ideal S4096x128 .f32 :=
  fun y => if h : (t - 25) * 4096 + (y 0).val < 100000 then
      outKer (Xs m c) (Es m c) (lams m c) (Wfs m c) (bfs m c) (Wos m c) (bos m c) ⟨(t - 25) * 4096 + (y 0).val, h⟩ ⟨(y 1).val, idx2_lt1 y⟩
    else 0

/-- The three scratch buffers, as whole memrefs. -/
abbrev sc0 : Memref sig .tc .vmem S32x128 .f32 := Memref.whole cc0_scratch0
abbrev sc1 : Memref sig .tc .vmem S32x128 .bf16 := Memref.whole cc0_scratch1
abbrev sc2 : Memref sig .tc .vmem S102400x128 .bf16 := Memref.whole cc0_scratch2

/-- What the invariant says of the scratch contents before point n. -/
def InvI (c : Dev nD) (n : ℕ) (A : Vec Ideal S32x128 .f32) (S2 : Vec Ideal S32x128 .bf16) (Y : Vec Ideal S102400x128 .bf16) : Prop :=
  (1 ≤ n → A = accV m c (min n 25)) ∧ (26 ≤ n → S2 = spec2V m c) ∧ cacheOK m c (min n 25) Y

/-- The region invariant before point n. -/
def PhiI (c : Dev nD) (n : ℕ) : sProp 𝕄 :=
  iprop(∃ A S2 Y, owns (c : Thread nD τ) sc0 fullShare A ∗ owns (c : Thread nD τ) sc1 fullShare S2 ∗ owns (c : Thread nD τ) sc2 fullShare Y
      ∗ ⌜InvI m c n A S2 Y⌝ ∗ ∃ r, prngReg c r)

/-- The proof data. -/
def datsI (_ : Fin 1) (c : Dev nD) : Dat τ (Elt Ideal) Unit ℕ (UR sig nD τ) ℕ cfg0 c where
  A w := V m c (Pipeline.arrRef spec0 w)
  after w t := match w with
    | ⟨0, _⟩ => panel (ETv m c) (fun _ => (0 : EReal))
    | ⟨1, _⟩ => rowsOf (min t.val 24) (Xv m c) (fun _ => (0 : EReal))
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outV m c t.val
  Φ t := PhiI m c t.val
  q _ := fullShare
  owed _ := 0

theorem A_eq (c : Dev nD) (w : Fin cfg0.W) : (datsI m 0 c).A w = V m c (Pipeline.arrRef spec0 w) := by
  dsimp only [datsI]

theorem after_0 (c : Dev nD) (t : Fin cfg0.N) : (datsI m 0 c).after 0 t = panel (ETv m c) (fun _ => (0 : EReal)) := by dsimp only [datsI]
theorem after_1 (c : Dev nD) (t : Fin cfg0.N) : (datsI m 0 c).after 1 t = rowsOf (min t.val 24) (Xv m c) (fun _ => (0 : EReal)) := by dsimp only [datsI]
theorem after_2 (c : Dev nD) (t : Fin cfg0.N) : (datsI m 0 c).after 2 t = iblk m c 2 t := by dsimp only [datsI]
theorem after_3 (c : Dev nD) (t : Fin cfg0.N) : (datsI m 0 c).after 3 t = iblk m c 3 t := by dsimp only [datsI]
theorem after_4 (c : Dev nD) (t : Fin cfg0.N) : (datsI m 0 c).after 4 t = iblk m c 4 t := by dsimp only [datsI]
theorem after_5 (c : Dev nD) (t : Fin cfg0.N) : (datsI m 0 c).after 5 t = iblk m c 5 t := by dsimp only [datsI]
theorem after_6 (c : Dev nD) (t : Fin cfg0.N) : (datsI m 0 c).after 6 t = iblk m c 6 t := by dsimp only [datsI]
theorem after_7 (c : Dev nD) (t : Fin cfg0.N) : (datsI m 0 c).after 7 t = outV m c t.val := by dsimp only [datsI]

/-- What the body finds in each input window's buffer. -/
theorem bef_0 (c : Dev nD) (t : Fin cfg0.N) (d) : (datsI m 0 c).before 0 t d = panel (ETv m c) d :=
  before0 m (datsI m 0 c) _ (A_eq m c 0) (after_0 m c) t d
theorem bef_1 (c : Dev nD) (t : Fin cfg0.N) (d) : (datsI m 0 c).before 1 t d = rowsOf (min t.val 24) (Xv m c) d :=
  before1 m (datsI m 0 c) _ (A_eq m c 1) (after_1 m c) t d
theorem bef_2 (c : Dev nD) (t : Fin cfg0.N) (d) : (datsI m 0 c).before 2 t d = iblk m c 2 t :=
  before0_2_of m (datsI m 0 c) (A_eq m c 2) (after_2 m c) t d
theorem bef_3 (c : Dev nD) (t : Fin cfg0.N) (d) : (datsI m 0 c).before 3 t d = iblk m c 3 t :=
  before0_3_of m (datsI m 0 c) (A_eq m c 3) (after_3 m c) t d
theorem bef_4 (c : Dev nD) (t : Fin cfg0.N) (d) : (datsI m 0 c).before 4 t d = iblk m c 4 t :=
  before0_4_of m (datsI m 0 c) (A_eq m c 4) (after_4 m c) t d
theorem bef_5 (c : Dev nD) (t : Fin cfg0.N) (d) : (datsI m 0 c).before 5 t d = iblk m c 5 t :=
  before0_5_of m (datsI m 0 c) (A_eq m c 5) (after_5 m c) t d
theorem bef_6 (c : Dev nD) (t : Fin cfg0.N) (d) : (datsI m 0 c).before 6 t d = iblk m c 6 t :=
  before0_6_of m (datsI m 0 c) (A_eq m c 6) (after_6 m c) t d

end Cert.KernelIdeal.Hand

end
-- ==== Proof.RunE.lean ====
/-
  The kernel body at a point of the second phase other than its first (p = 1, i > 0): only the back-projection
  branch runs.  It loads block i of the transposed eigenvector panel (32 × 4096 columns of the staged 32 × 102400
  buffer), the folded spectrum (32 × 128), block i of the cached features (4096 rows of the 102400 × 128 cache) and
  the output bias, and stores the whole 4096 × 128 output block.  Stated on any whole memrefs: the buffers it reads
  come back as they were, the output buffer with its one piece written.
-/
import proofs.«135913_g34772055229035_cont_8to1_b_1465_20_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the back-projection alone: the piece the output's staging buffer ends with is the witness the run finds. -/
noncomputable def runE (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : ¬cond3 i) (hc4 : ¬cond4 i) (hc5 : cond5 i)
    (x2 : Vec F S32x102400 .f32) (x8 : Vec F S1x128 .f32) (x11 : Vec F S32x128 .bf16) (x12 : Vec F S102400x128 .bf16) :
    { L9 : List (View.Piece (Elt F) S4096x128 .f32) //
      ∀ (E : Set ℕ) (K : PUnit → sProp 𝕄),
        iprop(owns (c : Thread nD τ) arg2 fullShare x2 ∗ owns (c : Thread nD τ) arg8 fullShare x8 ∗ (∃ d, owns (c : Thread nD τ) arg9 fullShare d)
            ∗ owns (c : Thread nD τ) arg11 fullShare x11 ∗ owns (c : Thread nD τ) arg12 fullShare x12
            ∗ (iprop(owns (c : Thread nD τ) arg2 fullShare x2 ∗ owns (c : Thread nD τ) arg8 fullShare x8
                ∗ (∃ f, arg9.view.loc (c : Thread nD τ) ↦[arg9.view.set]{fullShare} arg9.view.writes (Elt F) f L9)
                ∗ owns (c : Thread nD τ) arg11 fullShare x11 ∗ owns (c : Thread nD τ) arg12 fullShare x12) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    unfold owns
    iintro ⟨⟨%f2, %hf2, H2⟩, ⟨%f8, %hf8, H8⟩, ⟨%d9, %f9, -, H9⟩, ⟨%f11, %hf11, H11⟩, ⟨%f12, %hf12, H12⟩, Hk⟩
    obtain rfl := harg2.eq_unread hf2; obtain rfl := harg8.eq_unread hf8
    obtain rfl := harg11.eq_unread hf11; obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H8]
    · iexists _; isplitr; · ipureintro; exact harg8.read_unread _
      iexact H8
    isplitl [H9]; · iexists _; iexact H9
    isplitl [H11]
    · iexists _; isplitr; · ipureintro; exact harg11.read_unread _
      iexact H11
    · iexists _; isplitr; · ipureintro; exact harg12.read_unread _
      iexact H12

end Cert.KernelIdeal.Hand

end
-- ==== Proof.RunB.lean ====
/-
  The kernel body at a point of the first phase that accumulates a whole block (p = 0, 0 < i < 24): it loads block i of
  the eigenvector panel and of the features, adds their product to the accumulator, and copies the feature block into
  rows [4096 i, 4096 (i + 1)) of the cache.  The accumulator ends with its pieces written (the last covers it); the cache
  ends as it was with that one block of rows overwritten.
-/
import proofs.«135913_g34772055229035_cont_8to1_b_1465_20_alg».proof.Proof.RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of one whole block's accumulation: the accumulator's and the cache's pieces are the witnesses the run finds. -/
noncomputable def runB (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : cond2 i) (hc3 : ¬cond3 i) (hc4 : ¬cond4 i) (hc5 : ¬cond5 i)
    (x2 : Vec F S32x102400 .f32) (x3 : Vec F S4096x128 .f32) (x10 : Vec F S32x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ owns (c : Thread nD τ) arg10 fullShare x10 ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f10, %hf10, H10⟩, ⟨%f12, %hf12, H12⟩, Hk⟩
    obtain rfl := harg2.eq_unread hf2; obtain rfl := harg3.eq_unread hf3
    obtain rfl := harg10.eq_unread hf10
    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.KernelIdeal.Hand

end
-- ==== Proof.RunC.lean ====
/-
  The kernel body at the last point of the first phase (p = 0, i = 24), the ragged block: as a whole block's
  accumulation, but both operands are replaced by zero past the 1696 rows that lie inside the array before they are
  multiplied and before the feature block is copied into the cache.
-/
import proofs.«135913_g34772055229035_cont_8to1_b_1465_20_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the ragged block's accumulation. -/
noncomputable def runC (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : cond3 i) (hc4 : ¬cond4 i) (hc5 : ¬cond5 i)
    (x2 : Vec F S32x102400 .f32) (x3 : Vec F S4096x128 .f32) (x10 : Vec F S32x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ owns (c : Thread nD τ) arg10 fullShare x10 ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f10, %hf10, H10⟩, ⟨%f12, %hf12, H12⟩, Hk⟩
    obtain rfl := harg2.eq_unread hf2; obtain rfl := harg3.eq_unread hf3
    obtain rfl := harg10.eq_unread hf10
    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.KernelIdeal.Hand

end
-- ==== Proof.RunA.lean ====
/-
  The kernel body at the first point (p = 0, i = 0): the accumulator is set to zero, then block 0 is accumulated into
  it and copied into the cache.  The accumulator may hold anything before.
-/
import proofs.«135913_g34772055229035_cont_8to1_b_1465_20_alg».proof.Proof.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the reset followed by block 0's accumulation. -/
noncomputable def runA (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : cond1 i) (hc2 : cond2 i) (hc3 : ¬cond3 i) (hc4 : ¬cond4 i) (hc5 : ¬cond5 i)
    (x2 : Vec F S32x102400 .f32) (x3 : Vec F S4096x128 .f32) (x12 : Vec F S102400x128 .bf16) :
    Σ' (L10 : List (View.Piece (Elt F) S32x128 .f32)), { L12 : List (View.Piece (Elt F) S102400x128 .bf16) //
      ∀ (E : Set ℕ) (K : PUnit → sProp 𝕄),
        iprop(owns (c : Thread nD τ) arg2 fullShare x2 ∗ owns (c : Thread nD τ) arg3 fullShare x3 ∗ (∃ d, owns (c : Thread nD τ) arg10 fullShare d) ∗ owns (c : Thread nD τ) arg12 fullShare x12
            ∗ (iprop(owns (c : Thread nD τ) arg2 fullShare x2 ∗ owns (c : Thread nD τ) arg3 fullShare x3 ∗ (∃ f, arg10.view.loc (c : Thread nD τ) ↦[arg10.view.set]{fullShare} arg10.view.writes (Elt F) f L10)
                ∗ (arg12.view.loc (c : Thread nD τ) ↦[arg12.view.set]{fullShare} arg12.view.writes (Elt F) (harg12.unread x12) L12)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%d10, %f10, -, H10⟩, ⟨%f12, %hf12, H12⟩, Hk⟩
    obtain rfl := harg2.eq_unread hf2; obtain rfl := harg3.eq_unread hf3

    obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H3]
    · iexists _; isplitr; · ipureintro; exact harg3.read_unread _
      iexact H3
    isplitl [H10]; · iexists _; iexact H10
    iexact H12

end Cert.KernelIdeal.Hand

end
-- ==== Proof.RunD.lean ====
/-
  The kernel body at the first point of the second phase (p = 1, i = 0): the accumulated projection is scaled by the
  eigenvalues, gated, multiplied by the output weights and stored as the folded spectrum; then block 0 is
  back-projected as at every point of this phase.
-/
import proofs.«135913_g34772055229035_cont_8to1_b_1465_20_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run of the gate followed by block 0's back-projection: the folded spectrum's and the output buffer's pieces are
    the witnesses the run finds. -/
noncomputable def runD (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)
    (hc1 : ¬cond1 i) (hc2 : ¬cond2 i) (hc3 : ¬cond3 i) (hc4 : cond4 i) (hc5 : cond5 i)
    (x2 : Vec F S32x102400 .f32) (x4 : Vec F S32x1 .f32) (x5 : Vec F S128x128 .f32) (x6 : Vec F S1x128 .f32) (x7 : Vec F S128x128 .f32)
    (x8 : Vec F S1x128 .f32) (x10 : Vec F S32x128 .f32) (x12 : Vec F S102400x128 .bf16) :
    Σ' (L9 : List (View.Piece (Elt F) S4096x128 .f32)), { L11 : List (View.Piece (Elt F) S32x128 .bf16) //
      ∀ (E : Set ℕ) (K : PUnit → sProp 𝕄),
        iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ owns (c : Thread nD τ) arg10 fullShare x10 ∗ (∃ d, owns (c : Thread nD τ) arg11 fullShare d) ∗ owns (c : Thread nD τ) arg12 fullShare x12
            ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9) ∗ owns (c : Thread nD τ) arg10 fullShare x10 ∗ (∃ f, arg11.view.loc (c : Thread nD τ) ↦[arg11.view.set]{fullShare} arg11.view.writes (Elt F) f L11) ∗ owns (c : Thread nD τ) arg12 fullShare x12) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg2.eq_unread hf2; obtain rfl := harg4.eq_unread hf4; obtain rfl := harg5.eq_unread hf5
    obtain rfl := harg6.eq_unread hf6; obtain rfl := harg7.eq_unread hf7; obtain rfl := harg8.eq_unread hf8
    obtain rfl := harg10.eq_unread hf10; obtain rfl := harg12.eq_unread hf12
    sl_exec (disch := first | exact hc1 | exact hc2 | exact hc3 | exact hc4 | exact hc5)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    · iexists _; isplitr; · ipureintro; exact harg12.read_unread _
      iexact H12

end Cert.KernelIdeal.Hand

end
-- ==== Proof.Conts.lean ====
/-
  What each case of the kernel body leaves in the buffers it stores into, as a plain function of the contents it read:
  a whole-buffer store leaves its payload; the store into 4096 rows of the feature cache leaves the payload on those
  rows and the cache's former contents elsewhere.  Loads of a whole buffer read its contents; the two sliced loads
  (4096 columns of the staged eigenvector panel, 4096 rows of the cache) read the contents through the slice.
-/
import proofs.«135913_g34772055229035_cont_8to1_b_1465_20_alg».proof.Proof.RunD
import proofs.«135913_g34772055229035_cont_8to1_b_1465_20_alg».proof.Proof.Sched
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by match a with | ⟨0, _⟩ => rfl | ⟨1, _⟩ => rfl

variable (c : Dev nD) (i : grid0.Coords) (arg2 : Memref sig .tc .vmem S32x102400 .f32) (harg2 : arg2.IsWhole) (arg3 : Memref sig .tc .vmem S4096x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S32x128 .f32) (harg10 : arg10.IsWhole) (arg11 : Memref sig .tc .vmem S32x128 .bf16) (harg11 : arg11.IsWhole) (arg12 : Memref sig .tc .vmem S102400x128 .bf16) (harg12 : arg12.IsWhole)

/-- Case E: the output buffer ends holding the back-projection payload of the eigenvector columns, the folded spectrum,
    the cached feature rows and the bias it read. -/
theorem contE9 (hc1 : ¬cond1 i) (hc2 : ¬cond2 i) (hc3 : ¬cond3 i) (hc4 : ¬cond4 i) (hc5 : cond5 i)
    (x2 : Vec F S32x102400 .f32) (x8 : Vec F S1x128 .f32) (x11 : Vec F S32x128 .bf16) (x12 : Vec F S102400x128 .bf16)
    (f : arg9.view.ty.Contents (Elt F)) :
    arg9.view.read (Elt F) (arg9.view.writes (Elt F) f (runE c i arg2 harg2 arg3 harg3 arg4 harg4 arg5 harg5 arg6 harg6 arg7 harg7 arg8 harg8 arg9 harg9 arg10 harg10 arg11 harg11 arg12 harg12 hc1 hc2 hc3 hc4 hc5 x2 x8 x11 x12).1)
      = k0_pay9 (View.ld x2 (Rect.unit (s := S32x102400) (k0_off5 i) S32x4096.size (k0_off5_inb i hc5))) x11
          (View.ld x12 (Rect.unit (s := S102400x128) (k0_off6 i) S4096x128.size (k0_off6_inb i hc5))) x8 := by
  unfold runE; dsimp only
  simp only [View.readAt_eq_ld, Memref.IsWhole.read_unread, View.ld_unit_zero (S := S32x128) hz2, View.ld_unit_zero (S := S1x128) hz2]
  funext y
  exact View.read_writes_cons_unit_of_mem _ _ _ _ _ y y hz2 (fun a => (Nat.zero_add _).symm)

/-- Case B: the accumulator ends holding the former accumulator plus the block's product. -/
theorem contB10 (hc1 : ¬cond1 i) (hc2 : cond2 i) (hc3 : ¬cond3 i) (hc4 : ¬cond4 i) (hc5 : ¬cond5 i)
    (x2 : Vec F S32x102400 .f32) (x3 : Vec F S4096x128 .f32) (x10 : Vec F S32x128 .f32) (x12 : Vec F S102400x128 .bf16)
    (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 hc1 hc2 hc3 hc4 hc5 x2 x3 x10 x12).1)
      = k0_pay3 (View.ld x2 (Rect.unit (s := S32x102400) (k0_off1 i) S32x4096.size (k0_off1_inb i hc2))) x3 x10 := by
  unfold runB; dsimp only

  simp only [View.readAt_eq_ld, Memref.IsWhole.read_unread, View.ld_unit_zero (S := S32x128) hz2, View.ld_unit_zero (S := S4096x128) hz2]
  funext y
  exact View.read_writes_cons_unit_of_mem (s := S32x128) arg10.view f inb_S32x128_S32x128_0_0 _ _ y y hz2 (fun a => (Nat.zero_add _).symm)

/-- Case B: on the block's rows the cache ends holding the block's copy, -/
theorem contB12_mem (hc1 : ¬cond1 i) (hc2 : cond2 i) (hc3 : ¬cond3 i) (hc4 : ¬cond4 i) (hc5 : ¬cond5 i)
    (x2 : Vec F S32x102400 .f32) (x3 : Vec F S4096x128 .f32) (x10 : Vec F S32x128 .f32) (x12 : Vec F S102400x128 .bf16)
    (o : ℕ) (ho : k0_off2 i = ![o, 0]) (y : S102400x128.Idx) (x : S4096x128.Idx)
    (hx0 : (y 0).val = o + (x 0).val) (hx1 : (y 1).val = (x 1).val) :
    arg12.view.read (Elt F) (arg12.view.writes (Elt F) (harg12.unread x12) (runB c i arg2 harg2 arg3 harg3 arg4 harg4 arg5 harg5 arg6 harg6 arg7 harg7 arg8 harg8 arg9 harg9 arg10 harg10 arg11 harg11 arg12 harg12 hc1 hc2 hc3 hc4 hc5 x2 x3 x10 x12).2.1) y
      = k0_pay4 x3 x := by
  unfold runB; dsimp only
  simp only [View.readAt_eq_ld, Memref.IsWhole.read_unread, View.ld_unit_zero (S := S4096x128) hz2]
  exact View.read_writes_cons_rows_of_mem (d := ![102400, 128]) arg12.view (harg12.unread x12) _ _ [] y x ho hx0 hx1

/-- and elsewhere what it held. -/
theorem contB12_not_mem (hc1 : ¬cond1 i) (hc2 : cond2 i) (hc3 : ¬cond3 i) (hc4 : ¬cond4 i) (hc5 : ¬cond5 i)
    (x2 : Vec F S32x102400 .f32) (x3 : Vec F S4096x128 .f32) (x10 : Vec F S32x128 .f32) (x12 : Vec F S102400x128 .bf16)
    (o : ℕ) (ho : k0_off2 i = ![o, 0]) (y : S102400x128.Idx) (hy : (y 0).val < o ∨ o + 4096 ≤ (y 0).val) :
    arg12.view.read (Elt F) (arg12.view.writes (Elt F) (harg12.unread x12) (runB c i arg2 harg2 arg3 harg3 arg4 harg4 arg5 harg5 arg6 harg6 arg7 harg7 arg8 harg8 arg9 harg9 arg10 harg10 arg11 harg11 arg12 harg12 hc1 hc2 hc3 hc4 hc5 x2 x3 x10 x12).2.1) y
      = x12 y := by
  unfold runB; dsimp only
  simp only [View.readAt_eq_ld, Memref.IsWhole.read_unread, View.ld_unit_zero (S := S4096x128) hz2]
  refine (View.read_writes_cons_rows_of_not_mem (d := ![102400, 128]) (W := 4096) arg12.view (harg12.unread x12) _ _ [] y ho rfl hy).trans ?_
  rw [View.writes_nil, Memref.IsWhole.read_unread]

/-- Case C: the accumulator ends holding the former accumulator plus the block's product. -/
theorem contC10 (hc1 : ¬cond1 i) (hc2 : ¬cond2 i) (hc3 : cond3 i) (hc4 : ¬cond4 i) (hc5 : ¬cond5 i)
    (x2 : Vec F S32x102400 .f32) (x3 : Vec F S4096x128 .f32) (x10 : Vec F S32x128 .f32) (x12 : Vec F S102400x128 .bf16)
    (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 arg12 harg12 hc1 hc2 hc3 hc4 hc5 x2 x3 x10 x12).1)
      = k0_pay6 (View.ld x2 (Rect.unit (s := S32x102400) (k0_off3 i) S32x4096.size (k0_off3_inb i hc3))) x3 x10 := by
  unfold runC; dsimp only

  simp only [View.readAt_eq_ld, Memref.IsWhole.read_unread, View.ld_unit_zero (S := S32x128) hz2, View.ld_unit_zero (S := S4096x128) hz2]
  funext y
  exact View.read_writes_cons_unit_of_mem (s := S32x128) arg10.view f inb_S32x128_S32x128_0_0 _ _ y y hz2 (fun a => (Nat.zero_add _).symm)

/-- Case C: on the block's rows the cache ends holding the block's copy, -/
theorem contC12_mem (hc1 : ¬cond1 i) (hc2 : ¬cond2 i) (hc3 : cond3 i) (hc4 : ¬cond4 i) (hc5 : ¬cond5 i)
    (x2 : Vec F S32x102400 .f32) (x3 : Vec F S4096x128 .f32) (x10 : Vec F S32x128 .f32) (x12 : Vec F S102400x128 .bf16)
    (o : ℕ) (ho : k0_off4 i = ![o, 0]) (y : S102400x128.Idx) (x : S4096x128.Idx)
    (hx0 : (y 0).val = o + (x 0).val) (hx1 : (y 1).val = (x 1).val) :
    arg12.view.read (Elt F) (arg12.view.writes (Elt F) (harg12.unread x12) (runC c i arg2 harg2 arg3 harg3 arg4 harg4 arg5 harg5 arg6 harg6 arg7 harg7 arg8 harg8 arg9 harg9 arg10 harg10 arg11 harg11 arg12 harg12 hc1 hc2 hc3 hc4 hc5 x2 x3 x10 x12).2.1) y
      = k0_pay7 x3 x := by
  unfold runC; dsimp only
  simp only [View.readAt_eq_ld, Memref.IsWhole.read_unread, View.ld_unit_zero (S := S4096x128) hz2]
  exact View.read_writes_cons_rows_of_mem (d := ![102400, 128]) arg12.view (harg12.unread x12) _ _ [] y x ho hx0 hx1

/-- and elsewhere what it held. -/
theorem contC12_not_mem (hc1 : ¬cond1 i) (hc2 : ¬cond2 i) (hc3 : cond3 i) (hc4 : ¬cond4 i) (hc5 : ¬cond5 i)
    (x2 : Vec F S32x102400 .f32) (x3 : Vec F S4096x128 .f32) (x10 : Vec F S32x128 .f32) (x12 : Vec F S102400x128 .bf16)
    (o : ℕ) (ho : k0_off4 i = ![o, 0]) (y : S102400x128.Idx) (hy : (y 0).val < o ∨ o + 4096 ≤ (y 0).val) :
    arg12.view.read (Elt F) (arg12.view.writes (Elt F) (harg12.unread x12) (runC c i arg2 harg2 arg3 harg3 arg4 harg4 arg5 harg5 arg6 harg6 arg7 harg7 arg8 harg8 arg9 harg9 arg10 harg10 arg11 harg11 arg12 harg12 hc1 hc2 hc3 hc4 hc5 x2 x3 x10 x12).2.1) y
      = x12 y := by
  unfold runC; dsimp only
  simp only [View.readAt_eq_ld, Memref.IsWhole.read_unread, View.ld_unit_zero (S := S4096x128) hz2]
  refine (View.read_writes_cons_rows_of_not_mem (d := ![102400, 128]) (W := 4096) arg12.view (harg12.unread x12) _ _ [] y ho rfl hy).trans ?_
  rw [View.writes_nil, Memref.IsWhole.read_unread]

/-- Case A: the accumulator ends holding the zero splat plus the block's product. -/
theorem contA10 (hc1 : cond1 i) (hc2 : cond2 i) (hc3 : ¬cond3 i) (hc4 : ¬cond4 i) (hc5 : ¬cond5 i)
    (x2 : Vec F S32x102400 .f32) (x3 : Vec F S4096x128 .f32) (x12 : Vec F S102400x128 .bf16)
    (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 hc1 hc2 hc3 hc4 hc5 x2 x3 x12).1)
      = k0_pay3 (View.ld x2 (Rect.unit (s := S32x102400) (k0_off1 i) S32x4096.size (k0_off1_inb i hc2))) x3 (k0_pay1 (F := F)) := by
  unfold runA; dsimp only
  unfold runA.sl.v30 runA.sl.H10_1
  have e := View.readCov_unit_zero (Val := Elt F) (S := S32x128) (e := .f32) arg10.view hz2 inb_S32x128_S32x128_0_0 (k0_pay1 (F := F))
  first | rw [e] | erw [e] | simp only [e]
  simp only [View.readAt_eq_ld, Memref.IsWhole.read_unread, View.ld_unit_zero (S := S32x128) hz2, View.ld_unit_zero (S := S4096x128) hz2]
  funext y
  exact View.read_writes_cons_unit_of_mem (s := S32x128) arg10.view f inb_S32x128_S32x128_0_0 _ _ y y hz2 (fun a => (Nat.zero_add _).symm)

/-- Case A: on the block's rows the cache ends holding the block's copy, -/
theorem contA12_mem (hc1 : cond1 i) (hc2 : cond2 i) (hc3 : ¬cond3 i) (hc4 : ¬cond4 i) (hc5 : ¬cond5 i)
    (x2 : Vec F S32x102400 .f32) (x3 : Vec F S4096x128 .f32) (x12 : Vec F S102400x128 .bf16)
    (o : ℕ) (ho : k0_off2 i = ![o, 0]) (y : S102400x128.Idx) (x : S4096x128.Idx)
    (hx0 : (y 0).val = o + (x 0).val) (hx1 : (y 1).val = (x 1).val) :
    arg12.view.read (Elt F) (arg12.view.writes (Elt F) (harg12.unread x12) (runA c i arg2 harg2 arg3 harg3 arg4 harg4 arg5 harg5 arg6 harg6 arg7 harg7 arg8 harg8 arg9 harg9 arg10 harg10 arg11 harg11 arg12 harg12 hc1 hc2 hc3 hc4 hc5 x2 x3 x12).2.1) y
      = k0_pay4 x3 x := by
  unfold runA; dsimp only
  simp only [View.readAt_eq_ld, Memref.IsWhole.read_unread, View.ld_unit_zero (S := S4096x128) hz2]
  exact View.read_writes_cons_rows_of_mem (d := ![102400, 128]) arg12.view (harg12.unread x12) _ _ [] y x ho hx0 hx1

/-- and elsewhere what it held. -/
theorem contA12_not_mem (hc1 : cond1 i) (hc2 : cond2 i) (hc3 : ¬cond3 i) (hc4 : ¬cond4 i) (hc5 : ¬cond5 i)
    (x2 : Vec F S32x102400 .f32) (x3 : Vec F S4096x128 .f32) (x12 : Vec F S102400x128 .bf16)
    (o : ℕ) (ho : k0_off2 i = ![o, 0]) (y : S102400x128.Idx) (hy : (y 0).val < o ∨ o + 4096 ≤ (y 0).val) :
    arg12.view.read (Elt F) (arg12.view.writes (Elt F) (harg12.unread x12) (runA c i arg2 harg2 arg3 harg3 arg4 harg4 arg5 harg5 arg6 harg6 arg7 harg7 arg8 harg8 arg9 harg9 arg10 harg10 arg11 harg11 arg12 harg12 hc1 hc2 hc3 hc4 hc5 x2 x3 x12).2.1) y
      = x12 y := by
  unfold runA; dsimp only
  simp only [View.readAt_eq_ld, Memref.IsWhole.read_unread, View.ld_unit_zero (S := S4096x128) hz2]
  refine (View.read_writes_cons_rows_of_not_mem (d := ![102400, 128]) (W := 4096) arg12.view (harg12.unread x12) _ _ [] y ho rfl hy).trans ?_
  rw [View.writes_nil, Memref.IsWhole.read_unread]

/-- Case D: the folded spectrum ends holding the gate's payload of the accumulator, the eigenvalues, the filter weights and
    bias and the output weights, -/
theorem contD11 (hc1 : ¬cond1 i) (hc2 : ¬cond2 i) (hc3 : ¬cond3 i) (hc4 : cond4 i) (hc5 : cond5 i)
    (x2 : Vec F S32x102400 .f32) (x4 : Vec F S32x1 .f32) (x5 : Vec F S128x128 .f32) (x6 : Vec F S1x128 .f32) (x7 : Vec F S128x128 .f32)
    (x8 : Vec F S1x128 .f32) (x10 : Vec F S32x128 .f32) (x12 : Vec F S102400x128 .bf16)
    (f : arg11.view.ty.Contents (Elt F)) :
    arg11.view.read (Elt F) (arg11.view.writes (Elt F) f (runD c i arg2 harg2 arg3 harg3 arg4 harg4 arg5 harg5 arg6 harg6 arg7 harg7 arg8 harg8 arg9 harg9 arg10 harg10 arg11 harg11 arg12 harg12 hc1 hc2 hc3 hc4 hc5 x2 x4 x5 x6 x7 x8 x10 x12).2.1)
      = k0_pay8 x10 x4 x5 x6 x7 := by
  unfold runD; dsimp only
  unfold runD.sl.H11_1
  simp only [View.readAt_eq_ld, Memref.IsWhole.read_unread, View.ld_unit_zero (S := S32x128) hz2, View.ld_unit_zero (S := S32x1) hz2,
    View.ld_unit_zero (S := S128x128) hz2, View.ld_unit_zero (S := S1x128) hz2]
  funext y
  exact View.read_writes_cons_unit_of_mem (s := S32x128) arg11.view f inb_S32x128_S32x128_0_0 _ _ y y hz2 (fun a => (Nat.zero_add _).symm)

/-- and the output buffer the back-projection payload over that folded spectrum. -/
theorem contD9 (hc1 : ¬cond1 i) (hc2 : ¬cond2 i) (hc3 : ¬cond3 i) (hc4 : cond4 i) (hc5 : cond5 i)
    (x2 : Vec F S32x102400 .f32) (x4 : Vec F S32x1 .f32) (x5 : Vec F S128x128 .f32) (x6 : Vec F S1x128 .f32) (x7 : Vec F S128x128 .f32)
    (x8 : Vec F S1x128 .f32) (x10 : Vec F S32x128 .f32) (x12 : Vec F S102400x128 .bf16)
    (f : arg9.view.ty.Contents (Elt F)) :
    arg9.view.read (Elt F) (arg9.view.writes (Elt F) f (runD c i arg2 harg2 arg3 harg3 arg4 harg4 arg5 harg5 arg6 harg6 arg7 harg7 arg8 harg8 arg9 harg9 arg10 harg10 arg11 harg11 arg12 harg12 hc1 hc2 hc3 hc4 hc5 x2 x4 x5 x6 x7 x8 x10 x12).1)
      = k0_pay9 (View.ld x2 (Rect.unit (s := S32x102400) (k0_off5 i) S32x4096.size (k0_off5_inb i hc5))) (k0_pay8 x10 x4 x5 x6 x7)
          (View.ld x12 (Rect.unit (s := S102400x128) (k0_off6 i) S4096x128.size (k0_off6_inb i hc5))) x8 := by
  unfold runD; dsimp only
  unfold runD.sl.v28 runD.sl.H11_1
  have e := View.readCov_unit_zero (Val := Elt F) (S := S32x128) (e := .bf16) arg11.view hz2 inb_S32x128_S32x128_0_0
  simp only [View.readAt_eq_ld, Memref.IsWhole.read_unread, View.ld_unit_zero (S := S32x128) hz2, View.ld_unit_zero (S := S32x1) hz2,
    View.ld_unit_zero (S := S128x128) hz2, View.ld_unit_zero (S := S1x128) hz2, e]
  funext y
  exact View.read_writes_cons_unit_of_mem (s := S4096x128) arg9.view f inb_S4096x128_S4096x128_0_0 _ _ y y hz2 (fun a => (Nat.zero_add _).symm)

end Cert.KernelIdeal.Hand

end
-- ==== Proof.BodyI.lean ====
/-
  The body obligation at the ideal instance, shared parts: what the body is called with and what it must return at a
  point, window by window; the post of each window spelled out (the two clipped inputs and the clipped output are
  stated on the part of the buffer their transfers move, the five small inputs exactly; the output window is idle
  during the first phase, where the body hands its buffer back as found); and how the invariant's facts about the
  scratch contents pass from one point to the next.
-/
import proofs.«135913_g34772055229035_cont_8to1_b_1465_20_alg».proof.Proof.DatI
import proofs.«135913_g34772055229035_cont_8to1_b_1465_20_alg».proof.Proof.Conts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

/-- What the body is called with at point t, the windows one by one, -/
def bodyPre (c : Dev nD) (t : Fin cfg0.N) : sProp 𝕄 :=
  iprop((datsI m 0 c).Φ t.castSucc ∗ (datsI m 0 c).owesAt () t.castSucc
    ∗ (∃ d, owns (c : Thread nD τ) (st0_0 t) fullShare ((datsI m 0 c).before 0 t d))
    ∗ (∃ d, owns (c : Thread nD τ) (st0_1 t) fullShare ((datsI m 0 c).before 1 t d))
    ∗ (∃ d, owns (c : Thread nD τ) (st0_2 t) fullShare ((datsI m 0 c).before 2 t d))
    ∗ (∃ d, owns (c : Thread nD τ) (st0_3 t) fullShare ((datsI m 0 c).before 3 t d))
    ∗ (∃ d, owns (c : Thread nD τ) (st0_4 t) fullShare ((datsI m 0 c).before 4 t d))
    ∗ (∃ d, owns (c : Thread nD τ) (st0_5 t) fullShare ((datsI m 0 c).before 5 t d))
    ∗ (∃ d, owns (c : Thread nD τ) (st0_6 t) fullShare ((datsI m 0 c).before 6 t d))
    ∗ (∃ d, owns (c : Thread nD τ) (st0_7 t) fullShare ((datsI m 0 c).before 7 t d)))

/-- and what it returns. -/
def bodyPost (c : Dev nD) (t : Fin cfg0.N) : sProp 𝕄 :=
  iprop((datsI m 0 c).Φ t.succ ∗ (datsI m 0 c).owesAt () t.succ
    ∗ (datsI m 0 c).leaves 0 t ∗ (datsI m 0 c).leaves 1 t ∗ (datsI m 0 c).leaves 2 t ∗ (datsI m 0 c).leaves 3 t
    ∗ (datsI m 0 c).leaves 4 t ∗ (datsI m 0 c).leaves 5 t ∗ (datsI m 0 c).leaves 6 t ∗ (datsI m 0 c).leaves 7 t)

theorem Phi_castSucc (c : Dev nD) (t : Fin cfg0.N) : (datsI m 0 c).Φ t.castSucc = PhiI m c t.val := by
  dsimp only [datsI]; simp only [Fin.coe_castSucc]
theorem Phi_succ (c : Dev nD) (t : Fin cfg0.N) : (datsI m 0 c).Φ t.succ = PhiI m c (t.val + 1) := rfl

/-! ## Each window's post -/

theorem lv0 (c : Dev nD) (t : Fin cfg0.N) :
    (datsI m 0 c).leaves 0 t = iprop(∃ d, owns (c : Thread nD τ) (st0_0 t) fullShare (panel (ETv m c) d)) := by
  have e : ∀ d, (cfg0.win 0).fill (cfg0.grid.coords t) d ((cfg0.win 0).cut (cfg0.grid.coords t) ((datsI m 0 c).after 0 t)) = panel (ETv m c) d :=
    fun d => by rw [after_0]; exact leaves0 t _ d _
  exact congrArg (fun f : Vec Ideal S32x102400 .f32 → Vec Ideal S32x102400 .f32 => iprop(∃ d, owns (c : Thread nD τ) (st0_0 t) fullShare (f d))) (funext e)
theorem lv1 (c : Dev nD) (t : Fin cfg0.N) :
    (datsI m 0 c).leaves 1 t = iprop(∃ d, owns (c : Thread nD τ) (st0_1 t) fullShare (rowsOf (min t.val 24) (Xv m c) d)) := by
  have e : ∀ d, (cfg0.win 1).fill (cfg0.grid.coords t) d ((cfg0.win 1).cut (cfg0.grid.coords t) ((datsI m 0 c).after 1 t)) = rowsOf (min t.val 24) (Xv m c) d :=
    fun d => by rw [after_1]; exact leaves1 t _ d _
  exact congrArg (fun f : Vec Ideal S4096x128 .f32 → Vec Ideal S4096x128 .f32 => iprop(∃ d, owns (c : Thread nD τ) (st0_1 t) fullShare (f d))) (funext e)
theorem lv2 (c : Dev nD) (t : Fin cfg0.N) : (datsI m 0 c).leaves 2 t = owns (c : Thread nD τ) (st0_2 t) fullShare (iblk m c 2 t) := by
  show owns (c : Thread nD τ) (st0_2 t) fullShare ((datsI m 0 c).after 2 t) = _; rw [after_2]
theorem lv3 (c : Dev nD) (t : Fin cfg0.N) : (datsI m 0 c).leaves 3 t = owns (c : Thread nD τ) (st0_3 t) fullShare (iblk m c 3 t) := by
  show owns (c : Thread nD τ) (st0_3 t) fullShare ((datsI m 0 c).after 3 t) = _; rw [after_3]
theorem lv4 (c : Dev nD) (t : Fin cfg0.N) : (datsI m 0 c).leaves 4 t = owns (c : Thread nD τ) (st0_4 t) fullShare (iblk m c 4 t) := by
  show owns (c : Thread nD τ) (st0_4 t) fullShare ((datsI m 0 c).after 4 t) = _; rw [after_4]
theorem lv5 (c : Dev nD) (t : Fin cfg0.N) : (datsI m 0 c).leaves 5 t = owns (c : Thread nD τ) (st0_5 t) fullShare (iblk m c 5 t) := by
  show owns (c : Thread nD τ) (st0_5 t) fullShare ((datsI m 0 c).after 5 t) = _; rw [after_5]
theorem lv6 (c : Dev nD) (t : Fin cfg0.N) : (datsI m 0 c).leaves 6 t = owns (c : Thread nD τ) (st0_6 t) fullShare (iblk m c 6 t) := by
  show owns (c : Thread nD τ) (st0_6 t) fullShare ((datsI m 0 c).after 6 t) = _; rw [after_6]

/-- The output window during the first phase: idle and not written back, its buffer is handed back as found. -/
theorem lv7_idle (c : Dev nD) (t : Fin cfg0.N) (ht : t.val < 25) :
    (datsI m 0 c).leaves 7 t = iprop(∃ d, owns (c : Thread nD τ) (st0_7 t) fullShare ((datsI m 0 c).before 7 t d)) :=
  (datsI m 0 c).leaves_idle 7 t ((idle7 t).mpr ht) (Bool.eq_false_iff.mpr fun h => by have := (flush7 t).mp h; omega)

/-- During the second phase: stated on the rows its write-back moves. -/
theorem lv7_live (c : Dev nD) (t : Fin cfg0.N) (ht : 25 ≤ t.val) :
    (datsI m 0 c).leaves 7 t = iprop(∃ d, owns (c : Thread nD τ) (st0_7 t) fullShare ((cfg0.win 7).fill (cfg0.grid.coords t) d ((cfg0.win 7).cut (cfg0.grid.coords t) (outV m c t.val)))) := by
  have hi : cfg0.idle 7 (cfg0.grid.coords t) = false := Bool.eq_false_iff.mpr fun h => by have := (idle7 t).mp h; omega
  unfold Dat.leaves; rw [hi]
  show iprop(∃ d, owns (c : Thread nD τ) (st0_7 t) fullShare ((cfg0.win 7).fill (cfg0.grid.coords t) d ((cfg0.win 7).cut (cfg0.grid.coords t) ((datsI m 0 c).after 7 t)))) = _
  simp only [after_7]

/-! ## The invariant's facts, from point to point -/

theorem inv_keep {c : Dev nD} {n : ℕ} (hn : 26 ≤ n) {A S2 Y} (h : InvI m c n A S2 Y) : InvI m c (n + 1) A S2 Y := by
  have e : min (n + 1) 25 = min n 25 := by omega
  exact ⟨fun _ => by rw [e]; exact h.1 (by omega), fun _ => h.2.1 hn, by rw [e]; exact h.2.2⟩

end Cert.KernelIdeal.Hand

end
-- ==== Proof.BodyA.lean ====
/-
  The body obligation at the first point (t = 0): the accumulator, whatever it held, is reset and ends at the running
  projection over one block; the cache gains block 0's rows.
-/
import proofs.«135913_g34772055229035_cont_8to1_b_1465_20_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 4000000 in
theorem sound_A (c : Dev nD) (t : Fin cfg0.N) (ht : t.val = 0) (hc1 : cond1 (grid0.coords t)) (hc2 : cond2 (grid0.coords t))
    (hAcc : ∀ (d0 : Vec Ideal S32x102400 .f32) (d1 : Vec Ideal S4096x128 .f32),
      k0_pay3 (F := Ideal) (View.ld (panel (ETv m c) d0) (Rect.unit (s := S32x102400) (k0_off1 (grid0.coords t)) S32x4096.size (k0_off1_inb _ hc2)))
        (rowsOf (min t.val 24) (Xv m c) d1) (k0_pay1 (F := Ideal)) = accV m c (t.val + 1))
    (hCache : ∀ (d1 : Vec Ideal S4096x128 .f32) (x : S4096x128.Idx),
      k0_pay4 (F := Ideal) (rowsOf (min t.val 24) (Xv m c) d1) x = Xpad m c (t.val * 4096 + (x 0).val) ⟨(x 1).val, idx2_lt1 x⟩) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  unfold bodyPre bodyPost bodyAt0
  simp only [bef_0, bef_1, bef_2, bef_3, bef_4, bef_5, bef_6]
  rw [lv0, lv1, lv2, lv3, lv4, lv5, lv6, lv7_idle m c t (by omega)]
  rw [show (datsI m 0 c).owesAt () t.succ = (datsI m 0 c).owesAt () t.castSucc from rfl, Phi_castSucc, Phi_succ]
  unfold PhiI
  iintro ⟨⟨%A, %S2, %Y, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc3 : ¬cond3 (grid0.coords t) := fun h => by have := (hcond3 t).mp h; omega
  have hc4 : ¬cond4 (grid0.coords t) := fun h => by have := (hcond4 t).mp h; omega
  have hc5 : ¬cond5 (grid0.coords t) := fun h => by have := (hcond5 t).mp h; omega
  have ho : k0_off2 (grid0.coords t) = ![t.val * 4096, 0] := by rw [off2_eq t]; congr 2; omega

  iapply ((runA c (grid0.coords t) _ _ _ _ _ _ _ _ _ _ _ _ _ _ _ _ _ _ _ _ _ _ hc1 hc2 hc3 hc4 hc5 (panel (ETv m c) d0) (rowsOf (min t.val 24) (Xv m c) d1) Y).2.2 Set.univ _)
  isplitl [H0]; · iexact H0
  isplitl [H1]; · iexact H1
  isplitl [HS0]; · iexists _; iexact HS0
  isplitl [HS2]; · iexact HS2
  iintro ⟨H0, H1, ⟨%f10, HS0⟩, HS2⟩
  isplitl [HS0 HS1 HS2 Hg]
  · iexists (accV m c (t.val + 1)); iexists S2
    iexists (sc2.view.read (Elt Ideal) (sc2.view.writes (Elt Ideal) ((Memref.isWhole_whole cc0_scratch2).unread Y)
      (runA c (grid0.coords t) _ _ _ _ _ _ _ _ _ _ _ _ _ _ _ _ _ _ _ _ _ _ hc1 hc2 hc3 hc4 hc5 (panel (ETv m c) d0) (rowsOf (min t.val 24) (Xv m c) d1) Y).2.1))
    isplitl [HS0]
    · unfold owns; iexists _; isplitr
      swap; · iexact HS0
      ipureintro
      rw [contA10]
      exact hAcc d0 d1
    isplitl [HS1]; · iexact HS1
    isplitl [HS2]
    · unfold owns; iexists _; isplitr
      swap; · iexact HS2
      ipureintro; rfl
    isplitr
    · ipureintro
      refine ⟨fun _ => by rw [show min (t.val + 1) 25 = (t.val + 1) from by omega], fun h => by omega, ?_⟩
      rw [show min (t.val + 1) 25 = (t.val + 1) from by omega]
      intro y hy
      by_cases hin : t.val * 4096 ≤ (y 0).val
      · have hlt : (y 0).val - t.val * 4096 < 4096 := by omega
        rw [contA12_mem (c := c) (i := grid0.coords t) (o := t.val * 4096) (ho := ho) (y := y)
          (x := ix2 (n0 := 4096) (n1 := 128) ⟨(y 0).val - t.val * 4096, hlt⟩ ⟨(y 1).val, idx2_lt1 y⟩) (hx0 := by show (y 0).val = t.val * 4096 + ((y 0).val - t.val * 4096); omega) (hx1 := rfl)]
        rw [hCache d1]
        show Xpad m c (t.val * 4096 + ((y 0).val - t.val * 4096)) _ = _
        rw [show t.val * 4096 + ((y 0).val - t.val * 4096) = (y 0).val from by omega]
      · rw [contA12_not_mem (c := c) (i := grid0.coords t) (o := t.val * 4096) (ho := ho) (y := y) (hy := Or.inl (by omega))]
        exact absurd (show t.val * 4096 ≤ (y 0).val from by omega) hin
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists d7; iexact H7

end Cert.KernelIdeal.Hand

end
-- ==== Proof.BodyB.lean ====
/-
  The body obligation at a point of the first phase that accumulates a whole block after the first (1 ≤ t ≤ 23): the
  accumulator passes from the running projection over t blocks to the one over t + 1, the cache gains block t's rows,
  and the output window, idle, is handed back as found.
-/
import proofs.«135913_g34772055229035_cont_8to1_b_1465_20_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 4000000 in
theorem sound_B (c : Dev nD) (t : Fin cfg0.N) (ht1 : 1 ≤ t.val) (ht : t.val < 24) (hc2 : cond2 (grid0.coords t))
    (hAcc : ∀ (d0 : Vec Ideal S32x102400 .f32) (d1 : Vec Ideal S4096x128 .f32),
      k0_pay3 (F := Ideal) (View.ld (panel (ETv m c) d0) (Rect.unit (s := S32x102400) (k0_off1 (grid0.coords t)) S32x4096.size (k0_off1_inb _ hc2)))
        (rowsOf (min t.val 24) (Xv m c) d1) (accV m c t.val) = accV m c (t.val + 1))
    (hCache : ∀ (d1 : Vec Ideal S4096x128 .f32) (x : S4096x128.Idx),
      k0_pay4 (F := Ideal) (rowsOf (min t.val 24) (Xv m c) d1) x = Xpad m c (t.val * 4096 + (x 0).val) ⟨(x 1).val, idx2_lt1 x⟩) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  unfold bodyPre bodyPost bodyAt0
  simp only [bef_0, bef_1, bef_2, bef_3, bef_4, bef_5, bef_6]
  rw [lv0, lv1, lv2, lv3, lv4, lv5, lv6, lv7_idle m c t (by omega)]
  rw [show (datsI m 0 c).owesAt () t.succ = (datsI m 0 c).owesAt () t.castSucc from rfl, Phi_castSucc, Phi_succ]
  unfold PhiI
  iintro ⟨⟨%A, %S2, %Y, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc1 : ¬cond1 (grid0.coords t) := fun h => by have := (hcond1 t).mp h; omega
  have hc3 : ¬cond3 (grid0.coords t) := fun h => by have := (hcond3 t).mp h; omega
  have hc4 : ¬cond4 (grid0.coords t) := fun h => by have := (hcond4 t).mp h; omega
  have hc5 : ¬cond5 (grid0.coords t) := fun h => by have := (hcond5 t).mp h; omega
  have ho : k0_off2 (grid0.coords t) = ![t.val * 4096, 0] := by rw [off2_eq t]; congr 2; omega
  have hA : A = accV m c t.val := by have := hinv.1 ht1; rwa [show min t.val 25 = t.val from by omega] at this
  iapply ((runB c (grid0.coords t) _ _ _ _ _ _ _ _ _ _ _ _ _ _ _ _ _ _ _ _ _ _ hc1 hc2 hc3 hc4 hc5 (panel (ETv m c) d0) (rowsOf (min t.val 24) (Xv m c) d1) A Y).2.2 Set.univ _)
  isplitl [H0]; · iexact H0
  isplitl [H1]; · iexact H1
  isplitl [HS0]; · iexact HS0
  isplitl [HS2]; · iexact HS2
  iintro ⟨H0, H1, ⟨%f10, HS0⟩, HS2⟩
  isplitl [HS0 HS1 HS2 Hg]
  · iexists (accV m c (t.val + 1)); iexists S2
    iexists (sc2.view.read (Elt Ideal) (sc2.view.writes (Elt Ideal) ((Memref.isWhole_whole cc0_scratch2).unread Y)
      (runB c (grid0.coords t) _ _ _ _ _ _ _ _ _ _ _ _ _ _ _ _ _ _ _ _ _ _ hc1 hc2 hc3 hc4 hc5 (panel (ETv m c) d0) (rowsOf (min t.val 24) (Xv m c) d1) A Y).2.1))
    isplitl [HS0]
    · unfold owns; iexists _; isplitr
      swap; · iexact HS0
      ipureintro
      rw [contB10]
      subst hA; exact hAcc d0 d1
    isplitl [HS1]; · iexact HS1
    isplitl [HS2]
    · unfold owns; iexists _; isplitr
      swap; · iexact HS2
      ipureintro; rfl
    isplitr
    · ipureintro
      refine ⟨fun _ => by rw [show min (t.val + 1) 25 = (t.val + 1) from by omega], fun h => by omega, ?_⟩
      rw [show min (t.val + 1) 25 = (t.val + 1) from by omega]
      intro y hy
      by_cases hin : t.val * 4096 ≤ (y 0).val
      · have hlt : (y 0).val - t.val * 4096 < 4096 := by omega
        rw [contB12_mem (c := c) (i := grid0.coords t) (o := t.val * 4096) (ho := ho) (y := y)
          (x := ix2 (n0 := 4096) (n1 := 128) ⟨(y 0).val - t.val * 4096, hlt⟩ ⟨(y 1).val, idx2_lt1 y⟩) (hx0 := by show (y 0).val = t.val * 4096 + ((y 0).val - t.val * 4096); omega) (hx1 := rfl)]
        rw [hCache d1]
        show Xpad m c (t.val * 4096 + ((y 0).val - t.val * 4096)) _ = _
        rw [show t.val * 4096 + ((y 0).val - t.val * 4096) = (y 0).val from by omega]
      · rw [contB12_not_mem (c := c) (i := grid0.coords t) (o := t.val * 4096) (ho := ho) (y := y) (hy := Or.inl (by omega))]
        exact hinv.2.2 y (by rw [show min t.val 25 = t.val from by omega]; omega)
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists d7; iexact H7

end Cert.KernelIdeal.Hand

end
-- ==== Proof.BodyC.lean ====
/-
  The body obligation at the last point of the first phase (t = 24), the ragged block: the accumulator passes from the
  running projection over 24 blocks to the full one, the cache gains the block's rows (zero past the array's end).
-/
import proofs.«135913_g34772055229035_cont_8to1_b_1465_20_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 4000000 in
theorem sound_C (c : Dev nD) (t : Fin cfg0.N) (ht : t.val = 24) (hc3 : cond3 (grid0.coords t))
    (hAcc : ∀ (d0 : Vec Ideal S32x102400 .f32) (d1 : Vec Ideal S4096x128 .f32),
      k0_pay6 (F := Ideal) (View.ld (panel (ETv m c) d0) (Rect.unit (s := S32x102400) (k0_off3 (grid0.coords t)) S32x4096.size (k0_off3_inb _ hc3)))
        (rowsOf (min t.val 24) (Xv m c) d1) (accV m c 24) = accV m c 25)
    (hCache : ∀ (d1 : Vec Ideal S4096x128 .f32) (x : S4096x128.Idx),
      k0_pay7 (F := Ideal) (rowsOf (min t.val 24) (Xv m c) d1) x = Xpad m c (24 * 4096 + (x 0).val) ⟨(x 1).val, idx2_lt1 x⟩) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  unfold bodyPre bodyPost bodyAt0
  simp only [bef_0, bef_1, bef_2, bef_3, bef_4, bef_5, bef_6]
  rw [lv0, lv1, lv2, lv3, lv4, lv5, lv6, lv7_idle m c t (by omega)]
  rw [show (datsI m 0 c).owesAt () t.succ = (datsI m 0 c).owesAt () t.castSucc from rfl, Phi_castSucc, Phi_succ]
  unfold PhiI
  iintro ⟨⟨%A, %S2, %Y, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc1 : ¬cond1 (grid0.coords t) := fun h => by have := (hcond1 t).mp h; omega
  have hc2 : ¬cond2 (grid0.coords t) := fun h => by have := (hcond2 t).mp h; omega
  have hc4 : ¬cond4 (grid0.coords t) := fun h => by have := (hcond4 t).mp h; omega
  have hc5 : ¬cond5 (grid0.coords t) := fun h => by have := (hcond5 t).mp h; omega
  have ho : k0_off4 (grid0.coords t) = ![24 * 4096, 0] := by rw [off4_eq t]; congr 2; omega
  have hA : A = accV m c 24 := by have := hinv.1 (by omega); rwa [show min t.val 25 = 24 from by omega] at this
  iapply ((runC c (grid0.coords t) _ _ _ _ _ _ _ _ _ _ _ _ _ _ _ _ _ _ _ _ _ _ hc1 hc2 hc3 hc4 hc5 (panel (ETv m c) d0) (rowsOf (min t.val 24) (Xv m c) d1) A Y).2.2 Set.univ _)
  isplitl [H0]; · iexact H0
  isplitl [H1]; · iexact H1
  isplitl [HS0]; · iexact HS0
  isplitl [HS2]; · iexact HS2
  iintro ⟨H0, H1, ⟨%f10, HS0⟩, HS2⟩
  isplitl [HS0 HS1 HS2 Hg]
  · iexists (accV m c 25); iexists S2
    iexists (sc2.view.read (Elt Ideal) (sc2.view.writes (Elt Ideal) ((Memref.isWhole_whole cc0_scratch2).unread Y)
      (runC c (grid0.coords t) _ _ _ _ _ _ _ _ _ _ _ _ _ _ _ _ _ _ _ _ _ _ hc1 hc2 hc3 hc4 hc5 (panel (ETv m c) d0) (rowsOf (min t.val 24) (Xv m c) d1) A Y).2.1))
    isplitl [HS0]
    · unfold owns; iexists _; isplitr
      swap; · iexact HS0
      ipureintro
      rw [contC10]
      subst hA; exact hAcc d0 d1
    isplitl [HS1]; · iexact HS1
    isplitl [HS2]
    · unfold owns; iexists _; isplitr
      swap; · iexact HS2
      ipureintro; rfl
    isplitr
    · ipureintro
      refine ⟨fun _ => by rw [show min (t.val + 1) 25 = 25 from by omega], fun h => by omega, ?_⟩
      rw [show min (t.val + 1) 25 = 25 from by omega]
      intro y hy
      by_cases hin : 24 * 4096 ≤ (y 0).val
      · have hlt : (y 0).val - 24 * 4096 < 4096 := by omega
        rw [contC12_mem (c := c) (i := grid0.coords t) (o := 24 * 4096) (ho := ho) (y := y)
          (x := ix2 (n0 := 4096) (n1 := 128) ⟨(y 0).val - 24 * 4096, hlt⟩ ⟨(y 1).val, idx2_lt1 y⟩) (hx0 := by show (y 0).val = 24 * 4096 + ((y 0).val - 24 * 4096); omega) (hx1 := rfl)]
        rw [hCache d1]
        show Xpad m c (24 * 4096 + ((y 0).val - 24 * 4096)) _ = _
        rw [show 24 * 4096 + ((y 0).val - 24 * 4096) = (y 0).val from by omega]
      · rw [contC12_not_mem (c := c) (i := grid0.coords t) (o := 24 * 4096) (ho := ho) (y := y) (hy := Or.inl (by omega))]
        exact hinv.2.2 y (by rw [show min t.val 25 = t.val from by omega]; omega)
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists d7; iexact H7

end Cert.KernelIdeal.Hand

end
-- ==== Proof.BodyD.lean ====
/-
  The body obligation at the first point of the second phase (t = 25): the full projection in the accumulator is scaled,
  gated and folded into the output weights — the folded spectrum (the gate's value fact, a hypothesis here) — and block 0
  is back-projected over it; the output buffer ends holding, on the rows inside the array, the kernel's arrangement of
  the result.
-/
import proofs.«135913_g34772055229035_cont_8to1_b_1465_20_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 4000000 in
theorem sound_D (c : Dev nD) (t : Fin cfg0.N) (ht : t.val = 25) (hc4 : cond4 (grid0.coords t)) (hc5 : cond5 (grid0.coords t))
    (hGate : k0_pay8 (F := Ideal) (accV m c 25) (iblk m c 2 t) (iblk m c 3 t) (iblk m c 4 t) (iblk m c 5 t) = spec2V m c)
    (hOut : ∀ (d0 : Vec Ideal S32x102400 .f32) (Y : Vec Ideal S102400x128 .bf16), cacheOK m c 25 Y →
      ∀ y : S4096x128.Idx, (t.val - 25) * 4096 + (y 0).val < 100000 →
        outV m c t.val y = k0_pay9 (F := Ideal) (View.ld (panel (ETv m c) d0) (Rect.unit (s := S32x102400) (k0_off5 (grid0.coords t)) S32x4096.size (k0_off5_inb _ hc5)))
          (spec2V m c) (View.ld Y (Rect.unit (s := S102400x128) (k0_off6 (grid0.coords t)) S4096x128.size (k0_off6_inb _ hc5))) (iblk m c 6 t) y) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  unfold bodyPre bodyPost bodyAt0
  simp only [bef_0, bef_1, bef_2, bef_3, bef_4, bef_5, bef_6]
  rw [lv0, lv1, lv2, lv3, lv4, lv5, lv6, lv7_live m c t (by omega)]
  rw [show (datsI m 0 c).owesAt () t.succ = (datsI m 0 c).owesAt () t.castSucc from rfl, Phi_castSucc, Phi_succ]
  unfold PhiI
  iintro ⟨⟨%A, %S2, %Y, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hA : A = accV m c 25 := by have := hinv.1 (by omega); rwa [show min t.val 25 = 25 from by omega] at this
  have hY : cacheOK m c 25 Y := by have := hinv.2.2; rwa [show min t.val 25 = 25 from by omega] at this
  iapply ((runD c (grid0.coords t) _ _ _ _ _ _ _ _ _ _ _ _ _ _ _ _ _ _ _ _ _ _ hc1 hc2 hc3 hc4 hc5 (panel (ETv m c) d0) (iblk m c 2 t) (iblk m c 3 t) (iblk m c 4 t) (iblk m c 5 t) (iblk m c 6 t) A Y).2.2 Set.univ _)
  isplitl [H0]; · iexact H0
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexists _; iexact HS1
  isplitl [HS2]; · iexact HS2
  iintro ⟨H0, H2, H3, H4, H5, H6, ⟨%f9, H9⟩, HS0, ⟨%f11, HS1⟩, HS2⟩
  isplitl [HS0 HS1 HS2 Hg]
  · iexists A; iexists (spec2V m c); iexists Y
    isplitl [HS0]; · iexact HS0
    isplitl [HS1]
    · unfold owns; iexists _; isplitr
      swap; · iexact HS1
      ipureintro
      rw [contD11]; subst hA; exact hGate
    isplitl [HS2]; · iexact HS2
    isplitr
    · ipureintro
      refine ⟨fun _ => by rw [show min (t.val + 1) 25 = 25 from by omega]; exact hA, fun _ => rfl, ?_⟩
      rw [show min (t.val + 1) 25 = 25 from by omega]; exact hY
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _
  unfold owns; iexists _; isplitr
  swap; · iexact H9
  ipureintro
  rw [contD9]
  subst hA
  rw [hGate]
  exact (leaves7 t _ _ (fun y hy => hOut d0 Y hY y hy)).symm

end Cert.KernelIdeal.Hand

end
-- ==== Proof.BodyE.lean ====
/-
  The body obligation at a point of the second phase other than its first (26 ≤ t ≤ 49): only the back-projection runs.
  The output buffer ends holding the back-projection payload, which on the rows inside the array is the kernel's
  arrangement of the result (the value fact, a hypothesis here); every other buffer and the scratch contents are as they
  were.
-/
import proofs.«135913_g34772055229035_cont_8to1_b_1465_20_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 4000000 in
theorem sound_E (c : Dev nD) (t : Fin cfg0.N) (ht : 26 ≤ t.val) (hc5 : cond5 (grid0.coords t))
    (hOut : ∀ (d0 : Vec Ideal S32x102400 .f32) (Y : Vec Ideal S102400x128 .bf16), cacheOK m c 25 Y →
      ∀ y : S4096x128.Idx, (t.val - 25) * 4096 + (y 0).val < 100000 →
        outV m c t.val y = k0_pay9 (F := Ideal) (View.ld (panel (ETv m c) d0) (Rect.unit (s := S32x102400) (k0_off5 (grid0.coords t)) S32x4096.size (k0_off5_inb _ hc5)))
          (spec2V m c) (View.ld Y (Rect.unit (s := S102400x128) (k0_off6 (grid0.coords t)) S4096x128.size (k0_off6_inb _ hc5))) (iblk m c 6 t) y) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : ¬cond4 (grid0.coords t) := fun h => by have := (hcond4 t).mp h; omega
  unfold bodyPre bodyPost bodyAt0
  simp only [bef_0, bef_1, bef_2, bef_3, bef_4, bef_5, bef_6]
  rw [lv0, lv1, lv2, lv3, lv4, lv5, lv6, lv7_live m c t (by omega)]
  rw [show (datsI m 0 c).owesAt () t.succ = (datsI m 0 c).owesAt () t.castSucc from rfl, Phi_castSucc, Phi_succ]
  unfold PhiI
  iintro ⟨⟨%A, %S2, %Y, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS2 : S2 = spec2V m c := hinv.2.1 ht
  have hY : cacheOK m c 25 Y := by have := hinv.2.2; rwa [show min t.val 25 = 25 from by omega] at this
  iapply ((runE c (grid0.coords t) _ _ _ _ _ _ _ _ _ _ _ _ _ _ _ _ _ _ _ _ _ _ hc1 hc2 hc3 hc4 hc5 (panel (ETv m c) d0) (iblk m c 6 t) S2 Y).2 Set.univ _)
  isplitl [H0]; · iexact H0
  isplitl [H6]; · iexact H6
  isplitl [H7]; · iexists _; iexact H7
  isplitl [HS1]; · iexact HS1
  isplitl [HS2]; · iexact HS2
  iintro ⟨H0, H6, ⟨%f9, H9⟩, HS1, HS2⟩
  isplitl [HS0 HS1 HS2 Hg]
  · iexists A; iexists S2; iexists Y
    isplitl [HS0]; · iexact HS0
    isplitl [HS1]; · iexact HS1
    isplitl [HS2]; · iexact HS2
    isplitr
    · ipureintro; exact inv_keep m ht hinv
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _
  unfold owns; iexists _; isplitr
  swap; · iexact H9
  ipureintro
  rw [contE9]
  subst hS2
  exact (leaves7 t _ _ (fun y hy => hOut d0 Y hY y hy)).symm

end Cert.KernelIdeal.Hand

end
-- ==== Proof.PayIdeal.lean ====
/-
  The kernel's payloads read at an index on the extended reals.

  Each payload is a pure term over the vectors loaded before it.  On the extended reals a change of float format
  and a shape cast to the same shape are the identity, an elementwise operation reads elementwise, a broadcast
  along a unit axis reads the operand at that axis's one index, and a matrix product accumulated into the zero
  splat, read at an entry, is the sum over the contracted axis of the operands' products (the contraction index
  of a one-axis contraction is its one coordinate).  The row mask `index < 1696` of the ragged last block is an
  integer comparison of a coordinate below 4096 with 1696, decided by the coordinate.
-/
import proofs.«135913_g34772055229035_cont_8to1_b_1465_20_alg».proof.Proof.Gen.KernelIdeal.Skeleton
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws

noncomputable section

namespace Cert.KernelIdeal.PayIdeal

open Cert.KernelIdeal Cert.KernelIdeal.Gen Idealize.ShloMosaic Idealize.ShloMosaic.ValueIdx

/-! ## The three matrix products into the zero splat, read at an entry -/

theorem lhs_rows_0 (i : S32x128.Idx) (q : dot_S32x4096_S4096x128_S32x128_1_0_0_1_n_n.contr.Idx) :
    (dot_S32x4096_S4096x128_S32x128_1_0_0_1_n_n.lhsIdx i q 0).val = (i 0).val := by
  unfold DotDims.lhsIdx
  rw [dif_neg (show ¬(0 : Fin S32x4096.rank) ∈ dot_S32x4096_S4096x128_S32x128_1_0_0_1_n_n.lhsBatch by decide),
    dif_pos (show (0 : Fin S32x4096.rank) ∈ dot_S32x4096_S4096x128_S32x128_1_0_0_1_n_n.lhsNonContracting by decide)]
  rfl
theorem lhs_rows_1 (i : S32x128.Idx) (q : dot_S32x4096_S4096x128_S32x128_1_0_0_1_n_n.contr.Idx) :
    (dot_S32x4096_S4096x128_S32x128_1_0_0_1_n_n.lhsIdx i q 1).val = (q ⟨0, by decide⟩).val :=
  dot_S32x4096_S4096x128_S32x128_1_0_0_1_n_n.lhsIdx_val_of_single rfl i q
theorem rhs_rows_0 (i : S32x128.Idx) (q : dot_S32x4096_S4096x128_S32x128_1_0_0_1_n_n.contr.Idx) :
    (dot_S32x4096_S4096x128_S32x128_1_0_0_1_n_n.rhsIdx i q 0).val = (q ⟨0, by decide⟩).val :=
  dot_S32x4096_S4096x128_S32x128_1_0_0_1_n_n.rhsIdx_val_of_single rfl i q
theorem rhs_rows_1 (i : S32x128.Idx) (q : dot_S32x4096_S4096x128_S32x128_1_0_0_1_n_n.contr.Idx) :
    (dot_S32x4096_S4096x128_S32x128_1_0_0_1_n_n.rhsIdx i q 1).val = (i 1).val := by
  unfold DotDims.rhsIdx
  rw [dif_neg (show ¬(1 : Fin S4096x128.rank) ∈ dot_S32x4096_S4096x128_S32x128_1_0_0_1_n_n.rhsBatch by decide),
    dif_pos (show (1 : Fin S4096x128.rank) ∈ dot_S32x4096_S4096x128_S32x128_1_0_0_1_n_n.rhsNonContracting by decide)]
  rfl
theorem lhs_square_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide),
    dif_pos (show (0 : Fin S32x128.rank) ∈ dot_S32x128_S128x128_S32x128_1_0_0_1_n_n.lhsNonContracting by decide)]
  rfl
theorem lhs_square_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
theorem rhs_square_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
theorem rhs_square_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide),
    dif_pos (show (1 : Fin S128x128.rank) ∈ dot_S32x128_S128x128_S32x128_1_0_0_1_n_n.rhsNonContracting by decide)]
  rfl
theorem lhs_back_0 (i : S4096x128.Idx) (q : dot_S32x4096_S32x128_S4096x128_0_0_1_1_n_n.contr.Idx) :
    (dot_S32x4096_S32x128_S4096x128_0_0_1_1_n_n.lhsIdx i q 0).val = (q ⟨0, by decide⟩).val :=
  dot_S32x4096_S32x128_S4096x128_0_0_1_1_n_n.lhsIdx_val_of_single rfl i q
theorem lhs_back_1 (i : S4096x128.Idx) (q : dot_S32x4096_S32x128_S4096x128_0_0_1_1_n_n.contr.Idx) :
    (dot_S32x4096_S32x128_S4096x128_0_0_1_1_n_n.lhsIdx i q 1).val = (i 0).val := by
  unfold DotDims.lhsIdx
  rw [dif_neg (show ¬(1 : Fin S32x4096.rank) ∈ dot_S32x4096_S32x128_S4096x128_0_0_1_1_n_n.lhsBatch by decide),
    dif_pos (show (1 : Fin S32x4096.rank) ∈ dot_S32x4096_S32x128_S4096x128_0_0_1_1_n_n.lhsNonContracting by decide)]
  rfl
theorem rhs_back_0 (i : S4096x128.Idx) (q : dot_S32x4096_S32x128_S4096x128_0_0_1_1_n_n.contr.Idx) :
    (dot_S32x4096_S32x128_S4096x128_0_0_1_1_n_n.rhsIdx i q 0).val = (q ⟨0, by decide⟩).val :=
  dot_S32x4096_S32x128_S4096x128_0_0_1_1_n_n.rhsIdx_val_of_single rfl i q
theorem rhs_back_1 (i : S4096x128.Idx) (q : dot_S32x4096_S32x128_S4096x128_0_0_1_1_n_n.contr.Idx) :
    (dot_S32x4096_S32x128_S4096x128_0_0_1_1_n_n.rhsIdx i q 1).val = (i 1).val := by
  unfold DotDims.rhsIdx
  rw [dif_neg (show ¬(1 : Fin S32x128.rank) ∈ dot_S32x4096_S32x128_S4096x128_0_0_1_1_n_n.rhsBatch by decide),
    dif_pos (show (1 : Fin S32x128.rank) ∈ dot_S32x4096_S32x128_S4096x128_0_0_1_1_n_n.rhsNonContracting by decide)]
  rfl

section Products
variable {φ₁ φ₂ : FTy}

/-- `[32, 4096] × [4096, 128]`, contracted over the 4096: entry `(k, d)` is `∑ q, l (k, q) · r (q, d)`. -/
theorem matmul_rows_apply (l : FVec Ideal S32x4096 φ₁) (r : FVec Ideal S4096x128 φ₂) (k : Fin 32) (d : Fin 128) :
    FloatOps.matmul dot_S32x4096_S4096x128_S32x128_1_0_0_1_n_n none l r (constant S32x128 .f32 0x00000000#32) (ix2 k d)
      = ∑ q : Fin 4096, l (ix2 k q) * r (ix2 q d) := by
  rw [Ideal.matmul_constant_zero_apply, ← Equiv.sum_comp (contrEquiv1 dot_S32x4096_S4096x128_S32x128_1_0_0_1_n_n 4096 rfl rfl).symm]
  refine Finset.sum_congr rfl fun q _ => ?_
  have hq := contrEquiv1_symm_val dot_S32x4096_S4096x128_S32x128_1_0_0_1_n_n 4096 rfl rfl q
  have el : dot_S32x4096_S4096x128_S32x128_1_0_0_1_n_n.lhsIdx (ix2 k d) ((contrEquiv1 dot_S32x4096_S4096x128_S32x128_1_0_0_1_n_n 4096 rfl rfl).symm q) = ix2 k q :=
    funext fun a => Fin.ext (by
      match a with
      | ⟨0, _⟩ => exact lhs_rows_0 _ _
      | ⟨1, _⟩ => exact (lhs_rows_1 _ _).trans hq)
  have er : dot_S32x4096_S4096x128_S32x128_1_0_0_1_n_n.rhsIdx (ix2 k d) ((contrEquiv1 dot_S32x4096_S4096x128_S32x128_1_0_0_1_n_n 4096 rfl rfl).symm q) = ix2 q d :=
    funext fun a => Fin.ext (by
      match a with
      | ⟨0, _⟩ => exact (rhs_rows_0 _ _).trans hq
      | ⟨1, _⟩ => exact rhs_rows_1 _ _)
  rw [el, er]

/-- `[32, 128] × [128, 128]`, contracted over the left's columns: entry `(k, j)` is `∑ q, l (k, q) · r (q, j)`. -/
theorem matmul_square_apply (l : FVec Ideal S32x128 φ₁) (r : FVec Ideal S128x128 φ₂) (k : Fin 32) (j : Fin 128) :
    FloatOps.matmul dot_S32x128_S128x128_S32x128_1_0_0_1_n_n none l r (constant S32x128 .f32 0x00000000#32) (ix2 k j)
      = ∑ q : Fin 128, l (ix2 k q) * r (ix2 q j) := by
  rw [Ideal.matmul_constant_zero_apply, ← Equiv.sum_comp (contrEquiv1 dot_S32x128_S128x128_S32x128_1_0_0_1_n_n 128 rfl rfl).symm]
  refine Finset.sum_congr rfl fun q _ => ?_
  have hq := contrEquiv1_symm_val dot_S32x128_S128x128_S32x128_1_0_0_1_n_n 128 rfl rfl q
  have el : dot_S32x128_S128x128_S32x128_1_0_0_1_n_n.lhsIdx (ix2 k j) ((contrEquiv1 dot_S32x128_S128x128_S32x128_1_0_0_1_n_n 128 rfl rfl).symm q) = ix2 k q :=
    funext fun a => Fin.ext (by
      match a with
      | ⟨0, _⟩ => exact lhs_square_0 _ _
      | ⟨1, _⟩ => exact (lhs_square_1 _ _).trans hq)
  have er : dot_S32x128_S128x128_S32x128_1_0_0_1_n_n.rhsIdx (ix2 k j) ((contrEquiv1 dot_S32x128_S128x128_S32x128_1_0_0_1_n_n 128 rfl rfl).symm q) = ix2 q j :=
    funext fun a => Fin.ext (by
      match a with
      | ⟨0, _⟩ => exact (rhs_square_0 _ _).trans hq
      | ⟨1, _⟩ => exact rhs_square_1 _ _)
  rw [el, er]

/-- `[32, 4096]ᵀ × [32, 128]`, contracted over the 32 rows of both: entry `(p, j)` is `∑ q, l (q, p) · r (q, j)`. -/
theorem matmul_back_apply (l : FVec Ideal S32x4096 φ₁) (r : FVec Ideal S32x128 φ₂) (p : Fin 4096) (j : Fin 128) :
    FloatOps.matmul dot_S32x4096_S32x128_S4096x128_0_0_1_1_n_n none l r (constant S4096x128 .f32 0x00000000#32) (ix2 p j)
      = ∑ q : Fin 32, l (ix2 q p) * r (ix2 q j) := by
  rw [Ideal.matmul_constant_zero_apply, ← Equiv.sum_comp (contrEquiv1 dot_S32x4096_S32x128_S4096x128_0_0_1_1_n_n 32 rfl rfl).symm]
  refine Finset.sum_congr rfl fun q _ => ?_
  have hq := contrEquiv1_symm_val dot_S32x4096_S32x128_S4096x128_0_0_1_1_n_n 32 rfl rfl q
  have el : dot_S32x4096_S32x128_S4096x128_0_0_1_1_n_n.lhsIdx (ix2 p j) ((contrEquiv1 dot_S32x4096_S32x128_S4096x128_0_0_1_1_n_n 32 rfl rfl).symm q) = ix2 q p :=
    funext fun a => Fin.ext (by
      match a with
      | ⟨0, _⟩ => exact (lhs_back_0 _ _).trans hq
      | ⟨1, _⟩ => exact lhs_back_1 _ _)
  have er : dot_S32x4096_S32x128_S4096x128_0_0_1_1_n_n.rhsIdx (ix2 p j) ((contrEquiv1 dot_S32x4096_S32x128_S4096x128_0_0_1_1_n_n 32 rfl rfl).symm q) = ix2 q j :=
    funext fun a => Fin.ext (by
      match a with
      | ⟨0, _⟩ => exact (rhs_back_0 _ _).trans hq
      | ⟨1, _⟩ => exact rhs_back_1 _ _)
  rw [el, er]

end Products

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads -/

/-- The back-projection block: the stored features plus `Eᵀ`-block times the folded spectrum, plus the bias row. -/
theorem pay9_apply (v25 : Vec Ideal S32x4096 .f32) (v28 : Vec Ideal S32x128 .bf16) (v32 : Vec Ideal S4096x128 .bf16)
    (v35 : Vec Ideal S1x128 .f32) (r : Fin 4096) (j : Fin 128) :
    k0_pay9 (F := Ideal) v25 v28 v32 v35 (ix2 r j)
      = (v32 (ix2 r j) + ∑ k : Fin 32, v25 (ix2 k r) * v28 (ix2 k j)) + v35 (ix2 (0 : Fin 1) j) := by
  unfold k0_pay9
  simp only [shapeCast_self]
  exact congrArg₂ (· + ·) (congrArg (v32 (ix2 r j) + ·) (matmul_back_apply _ _ r j))
    (broadcastTo_1b_ab_apply v35 _ r j)

/-- One full block's step of the projection: the accumulator plus the block's product. -/
theorem pay3_apply (v25 : Vec Ideal S32x4096 .f32) (v28 : Vec Ideal S4096x128 .f32) (v30 : Vec Ideal S32x128 .f32)
    (k : Fin 32) (d : Fin 128) :
    k0_pay3 (F := Ideal) v25 v28 v30 (ix2 k d) = v30 (ix2 k d) + ∑ r : Fin 4096, v25 (ix2 k r) * v28 (ix2 r d) := by
  unfold k0_pay3 k0_pay2
  simp only [shapeCast_self]
  exact congrArg (v30 (ix2 k d) + ·) (matmul_rows_apply _ _ k d)

/-- The folded gated spectrum: `(S · logistic (S Wf + bf)) Wo` with `S` the projection scaled by the eigenvalue column. -/
theorem pay8_apply (v23 : Vec Ideal S32x128 .f32) (v24 : Vec Ideal S32x1 .f32) (v28 : Vec Ideal S128x128 .f32)
    (v30 : Vec Ideal S1x128 .f32) (v36 : Vec Ideal S128x128 .f32) (k : Fin 32) (j : Fin 128) :
    k0_pay8 (F := Ideal) v23 v24 v28 v30 v36 (ix2 k j)
      = ∑ d : Fin 128, ((v23 (ix2 k d) * v24 (ix2 k (0 : Fin 1)))
          * Ideal.logistic ((∑ e : Fin 128, (v23 (ix2 k e) * v24 (ix2 k (0 : Fin 1))) * v28 (ix2 e d)) + v30 (ix2 (0 : Fin 1) d)))
          * v36 (ix2 d j) := by
  unfold k0_pay8
  simp only [shapeCast_self]
  have h27 : ∀ e : Fin 128, v23 (ix2 k e) * broadcastTo S32x128 v24 broadcasts_S32x1_S32x128 (ix2 k e)
      = v23 (ix2 k e) * v24 (ix2 k (0 : Fin 1)) :=
    fun e => congrArg (v23 (ix2 k e) * ·) (broadcastTo_a1_ab_apply v24 _ k e)
  refine (matmul_square_apply (φ₁ := .f32) (φ₂ := .f32) _ _ k j).trans (Finset.sum_congr rfl fun d _ => congrArg (· * v36 (ix2 d j)) ?_)
  refine congrArg₂ (· * ·) (h27 d) (congrArg Ideal.logistic ?_)
  exact congrArg₂ (· + ·)
    ((matmul_square_apply (φ₁ := .f32) (φ₂ := .f32) _ _ k d).trans (Finset.sum_congr rfl fun e _ => congrArg (· * v28 (ix2 e d)) (h27 e)))
    (broadcastTo_1b_ab_apply v30 _ k d)

/-! ## The row mask of the ragged last block -/

/-- For a coordinate below 4096 the comparison word `r < 1696` (signed, 32 bits) is true exactly when `r < 1696`. -/
theorem mask_word (r : Fin 4096) : IntOp.cmpi .slt (BitVec.ofNat 32 r.val) 1696#32 = 1#1 ↔ r.val < 1696 := by
  rw [IntOp.cmpi_slt, WordArith.toInt_ofNat_small _ (by have := r.isLt; omega),
    show (1696#32 : BitVec 32).toInt = 1696 from by decide]
  omega

/-- A select on that comparison word is the `if` on the coordinate. -/
theorem select_mask {α : Type} (r : Fin 4096) (a b : α) :
    Scalar.select (IntOp.cmpi .slt (BitVec.ofNat 32 r.val) 1696#32) a b = if r.val < 1696 then a else b := by
  by_cases h : r.val < 1696
  · rw [if_pos h, (mask_word r).2 h, select_one]
  · rw [if_neg h, eq_zero_of_ne_one (fun hh => h ((mask_word r).1 hh)), select_zero]

/-- The masked feature block: rows below 1696 kept, the others zero. -/
theorem pay5_apply (v36 : Vec Ideal S4096x128 .f32) (r : Fin 4096) (d : Fin 128) :
    k0_pay5 (F := Ideal) v36 (ix2 r d) = if r.val < 1696 then v36 (ix2 r d) else 0 := by
  unfold k0_pay5
  show Scalar.select (IntOp.cmpi .slt (iota .tc S4096x128 32 [0] iota_S4096x128_d0_w32 (ix2 r d)) 1696#32)
      (v36 (ix2 r d)) (Scalar.ofBits (F := Ideal) .f32 0x00000000#32) = _
  rw [iota_single_apply]
  exact (select_mask r _ _).trans
    (congrArg (fun z => if r.val < 1696 then v36 (ix2 r d) else z) Ideal.ofBits_zero_f32)

/-- The stored copy of the masked feature block. -/
theorem pay7_apply (v36 : Vec Ideal S4096x128 .f32) (r : Fin 4096) (d : Fin 128) :
    k0_pay7 (F := Ideal) v36 (ix2 r d) = if r.val < 1696 then v36 (ix2 r d) else 0 := by
  unfold k0_pay7
  simp only [shapeCast_self]
  exact pay5_apply v36 r d

/-- The ragged last block's step of the projection: both operands masked to the rows below 1696. -/
theorem pay6_apply (v25 : Vec Ideal S32x4096 .f32) (v36 : Vec Ideal S4096x128 .f32) (v40 : Vec Ideal S32x128 .f32)
    (k : Fin 32) (d : Fin 128) :
    k0_pay6 (F := Ideal) v25 v36 v40 (ix2 k d)
      = v40 (ix2 k d) + ∑ r : Fin 4096, (if r.val < 1696 then v25 (ix2 k r) else 0)
          * (if r.val < 1696 then v36 (ix2 r d) else 0) := by
  unfold k0_pay6
  simp only [shapeCast_self]
  refine congrArg (v40 (ix2 k d) + ·) ((matmul_rows_apply _ _ k d).trans
    (Finset.sum_congr rfl fun r _ => congrArg₂ (· * ·) ?_ (pay5_apply v36 r d)))
  show Scalar.select (IntOp.cmpi .slt (iota .tc S32x4096 32 [1] iota_S32x4096_d1_w32 (ix2 k r)) 1696#32)
      (v25 (ix2 k r)) (Scalar.ofBits (F := Ideal) .f32 0x00000000#32) = _
  rw [iota_single_apply]
  exact (select_mask r _ _).trans
    (congrArg (fun z => if r.val < 1696 then v25 (ix2 k r) else z) Ideal.ofBits_zero_f32)

/-! ## The two trivial payloads -/

/-- The accumulator's initial value is zero everywhere. -/
theorem pay1_apply (y : S32x128.Idx) : k0_pay1 (F := Ideal) y = 0 := by
  unfold k0_pay1
  simp only [shapeCast_self]
  exact Ideal.ofBits_zero_f32

/-- The stored copy of a full feature block is the block. -/
theorem pay4_apply (v28 : Vec Ideal S4096x128 .f32) (y : S4096x128.Idx) : k0_pay4 (F := Ideal) v28 y = v28 y := by
  unfold k0_pay4 k0_pay2
  simp only [shapeCast_self]
  rfl

end Cert.KernelIdeal.PayIdeal

end
-- ==== Proof.HostVals.lean ====
/-
  What the kernel's region finds in the arrays the host prepares, and the five small windows' blocks.

  Before the kernel runs, the host transposes the eigenvector array `[100000, 32]` into `[32, 100000]` and reshapes
  the three vectors (the eigenvalues to one column `[32, 1]`, the two biases to one row `[1, 128]` each).  Read at an
  index, the transpose swaps the two coordinates, and a reshape that only adds a unit axis keeps the row-major
  position, hence the other coordinate.  The five small windows (the eigenvalue column, the two square matrices, the
  two bias rows) are not cut: their one block, of index zero on both axes at every grid point, is the whole array.
-/
import proofs.«135913_g34772055229035_cont_8to1_b_1465_20_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem

namespace Cert.KernelIdeal.Hand

open Cert.KernelIdeal Cert.KernelIdeal.Gen Idealize.ShloMosaic.ValueIdx Idealize.ShloMosaic.StableHlo

/-- An `[a]` array cast to one column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable {F : FTy → Type} [FloatOps F]
variable (m : (ℓ : Loc nD τ sig) → Buf (Elt F) ℓ) (c : Dev nD)

/-! ## The four arrays the host prepares -/

theorem V_v0_eq : (V m c main_call0_v0 : S32x100000.Idx → Elt F .f32)
    = transpose S32x100000 [1, 0] (m ((c : Thread nD τ).loc main_arg1)) transposes_S100000x32_S32x100000_1_0 := by
  dsimp only [Gen.V, Gen.hostOps0]; after_results; rfl

theorem V_v1_eq : (V m c main_call0_v1 : S32x1.Idx → Elt F .f32)
    = shapeCast S32x1 (m ((c : Thread nD τ).loc main_arg2) : S32.Idx → Elt F .f32) shapeCasts_S32_S32x1 := by
  dsimp only [Gen.V, Gen.hostOps0]; after_results; rfl

theorem V_v2_eq : (V m c main_call0_v2 : S1x128.Idx → Elt F .f32)
    = shapeCast S1x128 (m ((c : Thread nD τ).loc main_arg4) : S128.Idx → Elt F .f32) shapeCasts_S128_S1x128 := by
  dsimp only [Gen.V, Gen.hostOps0]; after_results; rfl

theorem V_v3_eq : (V m c main_call0_v3 : S1x128.Idx → Elt F .f32)
    = shapeCast S1x128 (m ((c : Thread nD τ).loc main_arg6) : S128.Idx → Elt F .f32) shapeCasts_S128_S1x128 := by
  dsimp only [Gen.V, Gen.hostOps0]; after_results; rfl

/-- The transposed eigenvectors at `(k, n)` are the eigenvectors at `(n, k)`. -/
theorem V_v0_apply (k : Fin 32) (n : Fin 100000) :
    (V m c main_call0_v0 : S32x100000.Idx → Elt F .f32) (ix2 k n)
      = (m ((c : Thread nD τ).loc main_arg1) : S100000x32.Idx → Elt F .f32) (ix2 n k) := by
  rw [V_v0_eq]
  exact transpose_ix2_apply _ _ k n

/-- The eigenvalue column at `(k, 0)` is the eigenvalue `k`. -/
theorem V_v1_apply (k : Fin 32) :
    (V m c main_call0_v1 : S32x1.Idx → Elt F .f32) (ix2 k (0 : Fin 1))
      = (m ((c : Thread nD τ).loc main_arg2) : S32.Idx → Elt F .f32) (ix1 k) := by
  rw [V_v1_eq]
  exact shapeCast_a_a1_apply _ _ k 0

/-- The first bias row at `(0, d)` is the bias's entry `d`. -/
theorem V_v2_apply (d : Fin 128) :
    (V m c main_call0_v2 : S1x128.Idx → Elt F .f32) (ix2 (0 : Fin 1) d)
      = (m ((c : Thread nD τ).loc main_arg4) : S128.Idx → Elt F .f32) (ix1 d) := by
  rw [V_v2_eq]
  exact shapeCast_a_1a_apply _ _ 0 d

/-- The second bias row at `(0, d)` is the bias's entry `d`. -/
theorem V_v3_apply (d : Fin 128) :
    (V m c main_call0_v3 : S1x128.Idx → Elt F .f32) (ix2 (0 : Fin 1) d)
      = (m ((c : Thread nD τ).loc main_arg6) : S128.Idx → Elt F .f32) (ix1 d) := by
  rw [V_v3_eq]
  exact shapeCast_a_1a_apply _ _ 0 d

/-! ## The five uncut windows: the block is the array -/

/-- The eigenvalue column's window: its block at every point is the whole column. -/
theorem iblk2_eq (t : Fin cfg0.N) : (iblk m c 2 t : Vec F S32x1 .f32) = (V m c main_call0_v1 : S32x1.Idx → Elt F .f32) := by
  have hi : ∀ (t : Fin cfg0.N) (a : Fin 2), (cfg0.win 2).index t a = 0 :=
    (by decide +kernel : ∀ (t : Fin grid0.N) (a : Fin 2), win0_2.index t a = 0)
  funext x
  unfold iblk
  rw [View.read_apply]
  show V m c main_call0_v1 _ = V m c main_call0_v1 _
  congr 1
  funext a
  apply Fin.ext
  match a with
  | ⟨0, _⟩ => show (cfg0.win 2).index t 0 * 32 + 1 * (x 0).val = (x 0).val; rw [hi t 0]; omega
  | ⟨1, _⟩ => show (cfg0.win 2).index t 1 * 1 + 1 * (x 1).val = (x 1).val; rw [hi t 1]; omega

/-- The gate matrix's window: its block at every point is the whole matrix. -/
theorem iblk3_eq (t : Fin cfg0.N) : (iblk m c 3 t : Vec F S128x128 .f32) = (V m c main_arg3 : S128x128.Idx → Elt F .f32) := by
  have hi : ∀ (t : Fin cfg0.N) (a : Fin 2), (cfg0.win 3).index t a = 0 :=
    (by decide +kernel : ∀ (t : Fin grid0.N) (a : Fin 2), win0_3.index t a = 0)
  funext x
  unfold iblk
  rw [View.read_apply]
  show V m c main_arg3 _ = V m c main_arg3 _
  congr 1
  funext a
  apply Fin.ext
  match a with
  | ⟨0, _⟩ => show (cfg0.win 3).index t 0 * 128 + 1 * (x 0).val = (x 0).val; rw [hi t 0]; omega
  | ⟨1, _⟩ => show (cfg0.win 3).index t 1 * 128 + 1 * (x 1).val = (x 1).val; rw [hi t 1]; omega

/-- The gate bias row's window: its block at every point is the whole row. -/
theorem iblk4_eq (t : Fin cfg0.N) : (iblk m c 4 t : Vec F S1x128 .f32) = (V m c main_call0_v2 : S1x128.Idx → Elt F .f32) := by
  have hi : ∀ (t : Fin cfg0.N) (a : Fin 2), (cfg0.win 4).index t a = 0 :=
    (by decide +kernel : ∀ (t : Fin grid0.N) (a : Fin 2), win0_4.index t a = 0)
  funext x
  unfold iblk
  rw [View.read_apply]
  show V m c main_call0_v2 _ = V m c main_call0_v2 _
  congr 1
  funext a
  apply Fin.ext
  match a with
  | ⟨0, _⟩ => show (cfg0.win 4).index t 0 * 1 + 1 * (x 0).val = (x 0).val; rw [hi t 0]; omega
  | ⟨1, _⟩ => show (cfg0.win 4).index t 1 * 128 + 1 * (x 1).val = (x 1).val; rw [hi t 1]; omega

/-- The output matrix's window: its block at every point is the whole matrix. -/
theorem iblk5_eq (t : Fin cfg0.N) : (iblk m c 5 t : Vec F S128x128 .f32) = (V m c main_arg5 : S128x128.Idx → Elt F .f32) := by
  have hi : ∀ (t : Fin cfg0.N) (a : Fin 2), (cfg0.win 5).index t a = 0 :=
    (by decide +kernel : ∀ (t : Fin grid0.N) (a : Fin 2), win0_5.index t a = 0)
  funext x
  unfold iblk
  rw [View.read_apply]
  show V m c main_arg5 _ = V m c main_arg5 _
  congr 1
  funext a
  apply Fin.ext
  match a with
  | ⟨0, _⟩ => show (cfg0.win 5).index t 0 * 128 + 1 * (x 0).val = (x 0).val; rw [hi t 0]; omega
  | ⟨1, _⟩ => show (cfg0.win 5).index t 1 * 128 + 1 * (x 1).val = (x 1).val; rw [hi t 1]; omega

/-- The output bias row's window: its block at every point is the whole row. -/
theorem iblk6_eq (t : Fin cfg0.N) : (iblk m c 6 t : Vec F S1x128 .f32) = (V m c main_call0_v3 : S1x128.Idx → Elt F .f32) := by
  have hi : ∀ (t : Fin cfg0.N) (a : Fin 2), (cfg0.win 6).index t a = 0 :=
    (by decide +kernel : ∀ (t : Fin grid0.N) (a : Fin 2), win0_6.index t a = 0)
  funext x
  unfold iblk
  rw [View.read_apply]
  show V m c main_call0_v3 _ = V m c main_call0_v3 _
  congr 1
  funext a
  apply Fin.ext
  match a with
  | ⟨0, _⟩ => show (cfg0.win 6).index t 0 * 1 + 1 * (x 0).val = (x 0).val; rw [hi t 0]; omega
  | ⟨1, _⟩ => show (cfg0.win 6).index t 1 * 128 + 1 * (x 1).val = (x 1).val; rw [hi t 1]; omega

end Cert.KernelIdeal.Hand

end
-- ==== Proof.ValsI.lean ====
/-
  The kernel's payloads at the points of the grid, in the specification's terms.

  At point t < 24 the body adds block t's product to the accumulator: the panel read from column 4096 t holds the
  eigenvectors of rows 4096 t …, the feature buffer the features of the same rows, all inside the array, so the sum
  over the block is the block's term of the running projection.  At t = 24 both operands are masked to the 1696
  rows inside the array, which is the zero extension the specification's ragged block has.  The stored copy of the
  features is the zero-extended feature rows.  At t = 25 the gated spectrum of the full projection is folded into
  the output weights; from t = 25 on each point back-projects one block, reading the features back from the stored
  copy: on rows inside the array this is the kernel's arrangement of the layer.
-/
import proofs.«135913_g34772055229035_cont_8to1_b_1465_20_alg».proof.Proof.DatI
import proofs.«135913_g34772055229035_cont_8to1_b_1465_20_alg».proof.Proof.PayIdeal
import proofs.«135913_g34772055229035_cont_8to1_b_1465_20_alg».proof.Proof.HostVals
import proofs.«135913_g34772055229035_cont_8to1_b_1465_20_alg».proof.Proof.Spec

set_option maxRecDepth 16384

noncomputable section

namespace Cert.KernelIdeal.Hand

open Cert.KernelIdeal Cert.KernelIdeal.Gen Cert.KernelIdeal.PayIdeal
open Idealize.ShloMosaic Idealize.ShloMosaic.TcCoe Idealize.SL.Sem
open Idealize.ShloMosaic.ValueIdx Cert.Spectral

variable (m : (ℓ : Loc nD τ sig) → Buf (Elt Ideal) ℓ) (c : Dev nD)

/-! ## Reading the two overhanging buffers and the arrays -/

/-- The laid-in panel at an index whose column lies inside the array is the array there. -/
theorem panel_apply (A : S32x100000.Idx → Elt Ideal .f32) (d : Vec Ideal S32x102400 .f32) (y : S32x102400.Idx)
    (k : Fin 32) (n : Fin 100000) (h0 : (y 0).val = k.val) (h1 : (y 1).val = n.val) : panel A d y = A (ix2 k n) := by
  have hlt : (y 1).val < 100000 := h1 ▸ n.isLt
  unfold panel
  rw [dif_pos hlt]
  exact congrArg A (congrArg₂ (ix2 (n0 := 32) (n1 := 100000)) (Fin.ext h0) (Fin.ext h1))

/-- Rows of the features at an index whose row lies inside the array. -/
theorem rowsOf_apply (b : ℕ) (A : S100000x128.Idx → Elt Ideal .f32) (d : Vec Ideal S4096x128 .f32) (y : S4096x128.Idx)
    (n : Fin 100000) (j : Fin 128) (h0 : b * 4096 + (y 0).val = n.val) (h1 : (y 1).val = j.val) :
    rowsOf b A d y = A (ix2 n j) := by
  have hlt : b * 4096 + (y 0).val < 100000 := h0 ▸ n.isLt
  unfold rowsOf
  rw [dif_pos hlt]
  exact congrArg A (congrArg₂ (ix2 (n0 := 100000) (n1 := 128)) (Fin.ext h0) (Fin.ext h1))

/-- A 32 × 4096 read of the laid-in panel from column `o`: entry `(k, r)` is the array at `(k, o + r)`. -/
theorem ld_panel (A : S32x100000.Idx → Elt Ideal .f32) (d0 : Vec Ideal S32x102400 .f32) (off : Fin 2 → ℕ)
    (inb : ∀ a, off a + S32x4096.size a ≤ S32x102400.size a) (o : ℕ) (hoff : off = ![0, o]) (k : Fin 32) (r : Fin 4096)
    (n : Fin 100000) (hn : n.val = o + r.val) :
    View.ld (panel A d0) (Rect.unit (s := S32x102400) off S32x4096.size inb) (ix2 k r) = A (ix2 k n) := by
  refine panel_apply A d0 _ k n ?_ ?_
  · show off 0 + 1 * k.val = k.val
    rw [hoff]; show 0 + 1 * k.val = k.val; omega
  · show off 1 + 1 * r.val = n.val
    rw [hoff, hn]; show o + 1 * r.val = o + r.val; omega

/-- The transposed eigenvectors and the features, as the region finds them, in the specification's terms. -/
theorem ETv_apply (k : Fin 32) (n : Fin 100000) : ETv m c (ix2 k n) = Es m c n k := V_v0_apply m c k n
theorem Xv_apply (n : Fin 100000) (j : Fin 128) : Xv m c (ix2 n j) = Xs m c n j :=
  congrFun (V_main_arg0 m c) (ix2 n j)

/-- Zero-extended feature rows at a row inside the array. -/
theorem Xpad_apply (row : ℕ) (j : Fin 128) (n : Fin 100000) (h : row = n.val) : Xpad m c row j = Xs m c n j := by
  unfold Xpad
  rw [dif_pos (h ▸ n.isLt)]
  exact congrArg (fun z => Xs m c z j) (Fin.ext h)

/-- Zero-extended feature rows past the array's end. -/
theorem Xpad_out (row : ℕ) (j : Fin 128) (h : ¬ row < 100000) : Xpad m c row j = 0 := by
  unfold Xpad
  rw [dif_neg h]

/-- A 4096 × 128 read of the stored feature copy from row `o`: entry `(r, j)` is the features' entry `(o + r, j)`. -/
theorem ld_cache (Y : Vec Ideal S102400x128 .bf16) (hY : cacheOK m c 25 Y) (off : Fin 2 → ℕ)
    (inb : ∀ a, off a + S4096x128.size a ≤ S102400x128.size a) (o : ℕ) (hoff : off = ![o, 0]) (r : Fin 4096) (j : Fin 128)
    (hin : o + r.val < 100000) :
    View.ld Y (Rect.unit (s := S102400x128) off S4096x128.size inb) (ix2 r j) = Xs m c ⟨o + r.val, hin⟩ j := by
  have h0 : off 0 + 1 * r.val = o + r.val := by rw [hoff]; show o + 1 * r.val = o + r.val; omega
  have h1 : off 1 + 1 * j.val = j.val := by rw [hoff]; show 0 + 1 * j.val = j.val; omega
  show Y _ = _
  refine (hY _ ?_).trans ((Xpad_apply m c _ _ ⟨o + r.val, hin⟩ h0).trans ?_)
  · show off 0 + 1 * r.val < 25 * 4096
    rw [h0]; omega
  · exact congrArg (Xs m c ⟨o + r.val, hin⟩) (Fin.ext h1)

/-! ## The projection's steps -/

/-- A whole block's step. -/
theorem valAcc (t : Fin cfg0.N) (ht : t.val < 24) (hc2 : cond2 (grid0.coords t)) (d0 : Vec Ideal S32x102400 .f32)
    (d1 : Vec Ideal S4096x128 .f32) (A : Vec Ideal S32x128 .f32) (hA : A = accV m c t.val) :
    k0_pay3 (F := Ideal) (View.ld (panel (ETv m c) d0) (Rect.unit (s := S32x102400) (k0_off1 (grid0.coords t)) S32x4096.size (k0_off1_inb _ hc2)))
      (rowsOf (min t.val 24) (Xv m c) d1) A = accV m c (t.val + 1) := by
  subst hA
  have hoff : k0_off1 (grid0.coords t) = ![0, t.val * 4096] := by
    rw [off1_eq t, Nat.mod_eq_of_lt (show t.val < 25 by omega)]
  have hmin : min t.val 24 = t.val := by omega
  funext y
  obtain ⟨k, d, rfl⟩ : ∃ (k : Fin 32) (d : Fin 128), y = ix2 k d := ⟨y 0, y 1, eq_ix2 y⟩
  refine (pay3_apply _ _ _ k d).trans ?_
  show accK (Xs m c) (Es m c) t.val k d + _
    = accK (Xs m c) (Es m c) t.val k d + ∑ r : Fin 4096, Em (Es m c) t.val k r * Xm (Xs m c) t.val r d
  refine congrArg (accK (Xs m c) (Es m c) t.val k d + ·) (Finset.sum_congr rfl fun r _ => ?_)
  have hin : t.val * 4096 + r.val < 100000 := by have := r.isLt; omega
  rw [ld_panel (ETv m c) d0 _ _ (t.val * 4096) hoff k r ⟨t.val * 4096 + r.val, hin⟩ rfl, ETv_apply,
    rowsOf_apply (min t.val 24) (Xv m c) d1 (ix2 r d) ⟨t.val * 4096 + r.val, hin⟩ d (by rw [hmin]) rfl, Xv_apply]
  unfold Em Xm
  rw [dif_pos hin, dif_pos hin]

/-! ## The folded gated spectrum -/

/-- Over any vectors that read as the eigenvalues, the gate's weights and bias and the output weights. -/
theorem gate_val (A : Vec Ideal S32x128 .f32) (v24 : Vec Ideal S32x1 .f32) (v28 : Vec Ideal S128x128 .f32)
    (v30 : Vec Ideal S1x128 .f32) (v36 : Vec Ideal S128x128 .f32) (hA : A = accV m c 25)
    (h24 : ∀ k : Fin 32, v24 (ix2 k (0 : Fin 1)) = lams m c k) (h28 : ∀ e d : Fin 128, v28 (ix2 e d) = Wfs m c e d)
    (h30 : ∀ d : Fin 128, v30 (ix2 (0 : Fin 1) d) = bfs m c d) (h36 : ∀ d j : Fin 128, v36 (ix2 d j) = Wos m c d j) :
    k0_pay8 (F := Ideal) A v24 v28 v30 v36 = spec2V m c := by
  subst hA
  funext y
  obtain ⟨k, j, rfl⟩ : ∃ (k : Fin 32) (j : Fin 128), y = ix2 k j := ⟨y 0, y 1, eq_ix2 y⟩
  refine (pay8_apply _ _ _ _ _ k j).trans ?_
  simp only [h24, h28, h30, h36]
  rfl

/-- At the small windows' blocks. -/
theorem valGate (t : Fin cfg0.N) :
    k0_pay8 (F := Ideal) (accV m c 25) (iblk m c 2 t) (iblk m c 3 t) (iblk m c 4 t) (iblk m c 5 t) = spec2V m c :=
  gate_val m c _ _ _ _ _ rfl
    (fun k => (congrFun (iblk2_eq m c t) (ix2 k (0 : Fin 1))).trans (V_v1_apply m c k))
    (fun e d => (congrFun (iblk3_eq m c t) (ix2 e d)).trans (congrFun (V_main_arg3 m c) (ix2 e d)))
    (fun d => (congrFun (iblk4_eq m c t) (ix2 (0 : Fin 1) d)).trans (V_v2_apply m c d))
    (fun d j => (congrFun (iblk5_eq m c t) (ix2 d j)).trans (congrFun (V_main_arg5 m c) (ix2 d j)))

/-! ## The back-projection -/

/-- Over any bias row that reads as the output bias. -/
theorem out_val (t : Fin cfg0.N) (ht : 25 ≤ t.val) (hc5 : cond5 (grid0.coords t)) (d0 : Vec Ideal S32x102400 .f32)
    (Y : Vec Ideal S102400x128 .bf16) (hY : cacheOK m c 25 Y) (v35 : Vec Ideal S1x128 .f32)
    (h35 : ∀ j : Fin 128, v35 (ix2 (0 : Fin 1) j) = bos m c j) (y : S4096x128.Idx)
    (hy : (t.val - 25) * 4096 + (y 0).val < 100000) :
    outV m c t.val y = k0_pay9 (F := Ideal) (View.ld (panel (ETv m c) d0) (Rect.unit (s := S32x102400) (k0_off5 (grid0.coords t)) S32x4096.size (k0_off5_inb _ hc5)))
      (spec2V m c) (View.ld Y (Rect.unit (s := S102400x128) (k0_off6 (grid0.coords t)) S4096x128.size (k0_off6_inb _ hc5))) v35 y := by
  obtain ⟨r, j, rfl⟩ : ∃ (r : Fin 4096) (j : Fin 128), y = ix2 r j := ⟨y 0, y 1, eq_ix2 y⟩
  have hN : t.val < 50 := lt_of_lt_of_eq t.isLt (show cfg0.N = 50 from N_0)
  have hmod : t.val % 25 = t.val - 25 := by omega
  have hoff5 : k0_off5 (grid0.coords t) = ![0, (t.val - 25) * 4096] := by rw [off5_eq t, hmod]
  have hoff6 : k0_off6 (grid0.coords t) = ![(t.val - 25) * 4096, 0] := by rw [off6_eq t, hmod]
  have hin : (t.val - 25) * 4096 + r.val < 100000 := hy
  refine Eq.symm ((pay9_apply _ _ _ _ r j).trans ?_)
  rw [ld_cache m c Y hY _ _ ((t.val - 25) * 4096) hoff6 r j hin, h35]
  have eL : ∀ k : Fin 32, View.ld (panel (ETv m c) d0) (Rect.unit (s := S32x102400) (k0_off5 (grid0.coords t)) S32x4096.size (k0_off5_inb _ hc5)) (ix2 k r)
      = Es m c ⟨(t.val - 25) * 4096 + r.val, hin⟩ k :=
    fun k => (ld_panel (ETv m c) d0 _ _ ((t.val - 25) * 4096) hoff5 k r ⟨(t.val - 25) * 4096 + r.val, hin⟩ rfl).trans (ETv_apply m c k _)
  simp only [eL]
  unfold outV
  rw [dif_pos hy]
  rfl

/-- At the output bias row's block. -/
theorem valOut (t : Fin cfg0.N) (ht : 25 ≤ t.val) (hc5 : cond5 (grid0.coords t)) (d0 : Vec Ideal S32x102400 .f32)
    (Y : Vec Ideal S102400x128 .bf16) (hY : cacheOK m c 25 Y) (y : S4096x128.Idx) (hy : (t.val - 25) * 4096 + (y 0).val < 100000) :
    outV m c t.val y = k0_pay9 (F := Ideal) (View.ld (panel (ETv m c) d0) (Rect.unit (s := S32x102400) (k0_off5 (grid0.coords t)) S32x4096.size (k0_off5_inb _ hc5)))
      (spec2V m c) (View.ld Y (Rect.unit (s := S102400x128) (k0_off6 (grid0.coords t)) S4096x128.size (k0_off6_inb _ hc5))) (iblk m c 6 t) y :=
  out_val m c t ht hc5 d0 Y hY _ (fun j => (congrFun (iblk6_eq m c t) (ix2 (0 : Fin 1) j)).trans (V_v3_apply m c j)) y hy

/-! ## The accumulator's start, the ragged last block, and the stored feature copy -/

theorem valAcc0 : accV m c 0 = k0_pay1 (F := Ideal) :=
  funext fun y => (pay1_apply y).symm

/-- The ragged last block's step: both operands masked to the 1696 rows inside the array. -/
theorem valAccTail (t : Fin cfg0.N) (ht : t.val = 24) (hc3 : cond3 (grid0.coords t)) (d0 : Vec Ideal S32x102400 .f32)
    (d1 : Vec Ideal S4096x128 .f32) (A : Vec Ideal S32x128 .f32) (hA : A = accV m c 24) :
    k0_pay6 (F := Ideal) (View.ld (panel (ETv m c) d0) (Rect.unit (s := S32x102400) (k0_off3 (grid0.coords t)) S32x4096.size (k0_off3_inb _ hc3)))
      (rowsOf (min t.val 24) (Xv m c) d1) A = accV m c 25 := by
  subst hA
  have hoff : k0_off3 (grid0.coords t) = ![0, 24 * 4096] := by rw [off3_eq t, ht]
  have hmin : min t.val 24 = 24 := by omega
  funext y
  obtain ⟨k, d, rfl⟩ : ∃ (k : Fin 32) (d : Fin 128), y = ix2 k d := ⟨y 0, y 1, eq_ix2 y⟩
  refine (pay6_apply _ _ _ k d).trans ?_
  show accK (Xs m c) (Es m c) 24 k d + _
    = accK (Xs m c) (Es m c) 24 k d + ∑ r : Fin 4096, Em (Es m c) 24 k r * Xm (Xs m c) 24 r d
  refine congrArg (accK (Xs m c) (Es m c) 24 k d + ·) (Finset.sum_congr rfl fun r _ => ?_)
  unfold Em Xm
  by_cases h : r.val < 1696
  · have hin : 24 * 4096 + r.val < 100000 := by omega
    rw [if_pos h, if_pos h, dif_pos hin, dif_pos hin,
      ld_panel (ETv m c) d0 _ _ (24 * 4096) hoff k r ⟨24 * 4096 + r.val, hin⟩ rfl, ETv_apply,
      rowsOf_apply (min t.val 24) (Xv m c) d1 (ix2 r d) ⟨24 * 4096 + r.val, hin⟩ d (by rw [hmin]) rfl, Xv_apply]
  · have hout : ¬ 24 * 4096 + r.val < 100000 := by omega
    rw [if_neg h, if_neg h, dif_neg hout, dif_neg hout]

/-- The stored copy of a whole feature block. -/
theorem valCache (t : Fin cfg0.N) (ht : t.val < 24) (d1 : Vec Ideal S4096x128 .f32) (x : S4096x128.Idx) :
    k0_pay4 (F := Ideal) (rowsOf (min t.val 24) (Xv m c) d1) x = Xpad m c (t.val * 4096 + (x 0).val) ⟨(x 1).val, idx2_lt1 x⟩ := by
  have hmin : min t.val 24 = t.val := by omega
  have hin : t.val * 4096 + (x 0).val < 100000 := by have := idx2_lt0 x; omega
  refine (pay4_apply _ x).trans ?_
  rw [rowsOf_apply (min t.val 24) (Xv m c) d1 x ⟨t.val * 4096 + (x 0).val, hin⟩ ⟨(x 1).val, idx2_lt1 x⟩ (by rw [hmin]) rfl,
    Xv_apply]
  exact (Xpad_apply m c _ _ ⟨t.val * 4096 + (x 0).val, hin⟩ rfl).symm

/-- The stored copy of the ragged last block: zero past the array's end. -/
theorem valCacheTail (t : Fin cfg0.N) (ht : t.val = 24) (d1 : Vec Ideal S4096x128 .f32) (x : S4096x128.Idx) :
    k0_pay7 (F := Ideal) (rowsOf (min t.val 24) (Xv m c) d1) x = Xpad m c (24 * 4096 + (x 0).val) ⟨(x 1).val, idx2_lt1 x⟩ := by
  obtain ⟨r, d, rfl⟩ : ∃ (r : Fin 4096) (d : Fin 128), x = ix2 r d := ⟨x 0, x 1, eq_ix2 x⟩
  have hmin : min t.val 24 = 24 := by omega
  refine (pay7_apply _ r d).trans ?_
  by_cases h : r.val < 1696
  · have hin : 24 * 4096 + r.val < 100000 := by omega
    rw [if_pos h, rowsOf_apply (min t.val 24) (Xv m c) d1 (ix2 r d) ⟨24 * 4096 + r.val, hin⟩ d (by rw [hmin]) rfl, Xv_apply]
    exact (Xpad_apply m c _ _ ⟨24 * 4096 + r.val, hin⟩ rfl).symm
  · rw [if_neg h]
    exact (Xpad_out m c _ _ (show ¬ 24 * 4096 + r.val < 100000 by omega)).symm

end Cert.KernelIdeal.Hand

end
-- ==== Proof.RunI.lean ====
/-
  The run of the idealized kernel.  At every grid point the body obligation holds — by cases on the point: the first
  point, a whole block, the ragged block, the gate with block 0's back-projection, a later back-projection — with the
  value facts of each case supplied; the invariant is entered from scratch buffers holding anything and forgotten at the
  end; so every weakly fair execution of the program terminates with the output array at what the write-backs of the
  second phase leave and every input unchanged.
-/
import proofs.«135913_g34772055229035_cont_8to1_b_1465_20_alg».proof.Proof.BodyA
import proofs.«135913_g34772055229035_cont_8to1_b_1465_20_alg».proof.Proof.BodyB
import proofs.«135913_g34772055229035_cont_8to1_b_1465_20_alg».proof.Proof.BodyC
import proofs.«135913_g34772055229035_cont_8to1_b_1465_20_alg».proof.Proof.BodyD
import proofs.«135913_g34772055229035_cont_8to1_b_1465_20_alg».proof.Proof.BodyE
import proofs.«135913_g34772055229035_cont_8to1_b_1465_20_alg».proof.Proof.ValsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Spectral

variable (m : (ℓ : Loc nD τ sig) → Buf (Elt Ideal) ℓ) (ρ : Dev nD → PrngReg)

set_option maxHeartbeats 1000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 50 := lt_of_lt_of_eq t.isLt (show cfg0.N = 50 from N_0)
  by_cases h0 : t.val = 0
  · have hc2 : cond2 (grid0.coords t) := (hcond2 t).mpr (by omega)
    exact sound_A m c t h0 ((hcond1 t).mpr h0) hc2
      (fun d0 d1 => valAcc m c t (by omega) hc2 d0 d1 _ (by rw [h0]; exact (valAcc0 m c).symm))
      (fun d1 x => valCache m c t (by omega) d1 x)
  by_cases h1 : t.val < 24
  · have hc2 : cond2 (grid0.coords t) := (hcond2 t).mpr h1
    exact sound_B m c t (by omega) h1 hc2 (fun d0 d1 => valAcc m c t h1 hc2 d0 d1 _ rfl) (fun d1 x => valCache m c t h1 d1 x)
  by_cases h2 : t.val = 24
  · have hc3 : cond3 (grid0.coords t) := (hcond3 t).mpr h2
    exact sound_C m c t h2 hc3 (fun d0 d1 => valAccTail m c t h2 hc3 d0 d1 _ rfl) (fun d1 x => valCacheTail m c t h2 d1 x)
  have hc5 : cond5 (grid0.coords t) := (hcond5 t).mpr (by omega)
  by_cases h3 : t.val = 25
  · exact sound_D m c t h3 ((hcond4 t).mpr h3) hc5 (valGate m c t) (fun d0 Y hY y hy => valOut m c t (by omega) hc5 d0 Y hY y hy)
  · exact sound_E m c t (by omega) hc5 (fun d0 Y hY y hy => valOut m c t (by omega) hc5 d0 Y hY y hy)

/-- The library's body obligation, at every point. -/
theorem body_obligation (c : Dev nD) : BodyObligationLoose (datsI m 0 c) (defs₀ (F := Ideal)) Variants.none () Set.univ := fun t => by
  rw [bigSep_W0, bigSep_W0]
  exact sound_body m c t

/-- The class invariant with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before the first point the scratch buffers hold anything: the invariant says nothing of them yet. -/
theorem hin (c : Dev nD) : Pipeline.ΦA spec0 c ⊢ (datsI m 0 c).Φ 0 := by
  rw [show (datsI m 0 c).Φ 0 = PhiI m c 0 from rfl, PhiA_eq]
  unfold PhiI
  iintro ⟨⟨⟨%A, HS0⟩, ⟨%S2, HS1⟩, ⟨%Y, HS2⟩⟩, Hg⟩
  iexists A; iexists S2; iexists Y
  isplitl [HS0]; · iexact HS0
  isplitl [HS1]; · iexact HS1
  isplitl [HS2]; · iexact HS2
  isplitr
  · ipureintro
    exact ⟨fun h => absurd h (by omega), fun h => absurd h (by omega), fun y hy => absurd hy (by omega)⟩
  iexact Hg

/-- After the last point the scratch contents are forgotten again. -/
theorem hout (c : Dev nD) : (datsI m 0 c).Φ (Fin.last cfg0.N) ⊢ Pipeline.ΦA spec0 c := by
  rw [show (datsI m 0 c).Φ (Fin.last cfg0.N) = PhiI m c (Fin.last cfg0.N).val from rfl, PhiA_eq]
  unfold PhiI
  iintro ⟨%A, %S2, %Y, HS0, HS1, HS2, -, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the idealized kernel terminates, with every array of the pipeline at what the library
    computes from the proof data and every other unscoped buffer as the region found it. -/
theorem run_main : θ_run defs (onTc (τ := τ) (main (F := Ideal))) (s₀ m ρ) (Pipeline.FramePost cfgs (datsI m) 0 (V m)) :=
  Pipeline.θ_run_frame_track cfgs (datsI m) (0 : Fin 1) launch0 defs₀ Variants.none m ρ main
    (hbody := body_obligation m) (hshare := fun c => (datsI m 0 c).share_full fun _ => rfl)
    (howed := fun _ _ => rfl) (V := V m) (hmain := hmain m Variants.none) (hA := A_eq m) (hin := hin m) (hout := hout m)

end Cert.KernelIdeal.Hand

end
-- ==== Proof.FinalI.lean ====
/-
  The output array after the run is the kernel's arrangement of the layer, entry by entry.

  The output window writes a block back at every point of the second phase: at point t the rows of block t − 25
  that lie inside the array, holding the kernel's arrangement `outKer` on exactly those rows.  The 25 blocks of
  4096 rows cover the 100000 rows (row n lies in block n / 4096, whose rows inside the array are all 4096, or the
  first 1696 for the last block), so the array ends holding `outKer` at every entry.
-/
import proofs.«135913_g34772055229035_cont_8to1_b_1465_20_alg».proof.Proof.DatI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx Cert.Spectral

variable (m : (ℓ : Loc nD τ sig) → Buf (Elt Ideal) ℓ)

/-- The kernel's arrangement of the layer as the contents of the output array. -/
def outG (c : Dev nD) : S100000x128.Idx → EReal := fun i =>
  outKer (Xs m c) (Es m c) (lams m c) (Wfs m c) (bfs m c) (Wos m c) (bos m c) ⟨(i 0).val, idx2_lt0 i⟩ ⟨(i 1).val, idx2_lt1 i⟩

/-- Two entries with the same coordinates. -/
theorem outKer_congr (c : Dev nD) (n n' : Fin 100000) (j j' : Fin 128) (hn : n.val = n'.val) (hj : j.val = j'.val) :
    outKer (Xs m c) (Es m c) (lams m c) (Wfs m c) (bfs m c) (Wos m c) (bos m c) n j
      = outKer (Xs m c) (Es m c) (lams m c) (Wfs m c) (bfs m c) (Wos m c) (bos m c) n' j' := by
  rw [Fin.ext hn, Fin.ext hj]

/-- What the write-back at a point of the second phase writes is that block of `outG`. -/
theorem flushed7_eq (c : Dev nD) (t : Fin cfg0.N) (hf : (cfg0.win 7).flush t = true) :
    (datsI m 0 c).flushed 7 t = ((cfg0.win 7).blk t).view.read (Elt Ideal) (outG m c) := by
  funext x
  have hin : (t.val - 25) * 4096 + (((cfg0.win 7).xinj (cfg0.grid.coords t) x) 0).val < 100000 :=
    (moved7 t _).mp ((cfg0.win 7).moved_xinj (cfg0.grid.coords t) x)
  show (cfg0.win 7).cut (cfg0.grid.coords t) ((datsI m 0 c).after 7 t) x = _
  rw [after_7, View.read_apply]
  show outV m c t.val ((cfg0.win 7).xinj (cfg0.grid.coords t) x) = outG m c _
  unfold outV outG
  rw [dif_pos hin]
  refine outKer_congr m c _ _ _ _ ?_ ?_
  · show (t.val - 25) * 4096 + (x 0).val = win0_7.index t 0 * 4096 + 1 * (x 0).val
    rw [show win0_7.index t 0 = t.val - 25 from idx7 t 0]; omega
  · show (x 1).val = win0_7.index t 1 * 128 + 1 * (x 1).val
    rw [show win0_7.index t 1 = 0 from idx7 t 1]; omega

/-- Every entry of the output array lies in the block some point of the second phase writes back. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 100000 := (i 0).isLt
  have h1 : (i 1 : Nat) < 128 := (i 1).isLt
  have hlt : 25 + (i 0 : Nat) / 4096 < cfg0.N := by rw [show cfg0.N = 50 from N_0]; omega
  refine ⟨⟨25 + (i 0 : Nat) / 4096, hlt⟩, (flush7 _).mpr (Nat.le_add_right _ _), ?_⟩
  generalize ht : (⟨25 + (i 0 : Nat) / 4096, hlt⟩ : Fin cfg0.N) = t
  have htv : t.val = 25 + (i 0 : Nat) / 4096 := by rw [← ht]
  show i ∈ ((View.whole main_v0).slice (win0_7.rect t)).set
  rw [View.set_slice_whole, Rect.mem_set_unit]
  intro a
  match a with
  | ⟨0, _⟩ =>
    show win0_7.index t 0 * win0_7.size 0 ≤ (i 0 : Nat) ∧ (i 0 : Nat) < win0_7.index t 0 * win0_7.size 0 + win0_7.xsize (grid0.coords t) 0
    rw [show win0_7.index t 0 = t.val - 25 from idx7 t 0,
      show win0_7.xsize (grid0.coords t) 0 = (if t.val = 49 then 1696 else 4096) from xs7 t 0]
    show (t.val - 25) * 4096 ≤ (i 0 : Nat) ∧ (i 0 : Nat) < (t.val - 25) * 4096 + (if t.val = 49 then 1696 else 4096)
    split_ifs with h49 <;> omega
  | ⟨1, _⟩ =>
    show win0_7.index t 1 * win0_7.size 1 ≤ (i 1 : Nat) ∧ (i 1 : Nat) < win0_7.index t 1 * win0_7.size 1 + win0_7.xsize (grid0.coords t) 1
    rw [show win0_7.index t 1 = 0 from idx7 t 1, show win0_7.xsize (grid0.coords t) 1 = 128 from xs7 t 1]
    omega

/-- The output array after the last point. -/
theorem final7 (c : Dev nD) : (datsI m 0 c).arrAt 7 cfg0.N = outG m c :=
  (datsI m 0 c).arrAt_eq_of_cover 7 (outG m c) (flushed7_eq m c) (cover7 c)

end Cert.KernelIdeal.Hand

end
-- ==== Proof.RefIsSpec.lean ====
/-
  The reference program's result, read entry by entry on the extended reals, is the specification's `outRef`.

  The reference computes, in order: the projection `P = Eᵀ X` (a transpose and a product contracted over the
  100000 rows), the scaled spectrum `S = P · lam` (the eigenvalues broadcast along the feature axis), the gate
  `1 / (1 + exp (-(S Wf + bf)))` written out with the constant one, the gated spectrum `G = S · gate`, the
  back-projection `E G`, its product with `Wo`, and the two additions of `X` and of `bo` (broadcast along the rows).
  Each generated read-at-an-index lemma gives one of these operations at an entry; chained, and with the composed
  index functions identified with indices built from coordinates, the result is `outRef` term for term: the
  expression `1 / (1 + exp (-x))` is `Ideal.logistic x` by definition, and the pattern `0x3F800000` denotes one.
-/
import proofs.«135913_g34772055229035_cont_8to1_b_1465_20_alg».proof.Proof.Gen.ReferenceIdeal.Read
import proofs.«135913_g34772055229035_cont_8to1_b_1465_20_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The composed index functions, at an index given by its coordinates -/

theorem idx_v0 (k : Fin 32) (m : Fin 100000) : idx_main_v0 (ix2 k m) = ix2 m k :=
  funext fun a => by match a with | ⟨0, _⟩ => rfl | ⟨1, _⟩ => rfl
theorem lidx_v1 (k : Fin 32) (d : Fin 128) (m : Fin 100000) : lidx_main_v1 (ix2 k d) m = ix2 k m :=
  funext fun a => by match a with | ⟨0, _⟩ => rfl | ⟨1, _⟩ => rfl
theorem ridx_v1 (k : Fin 32) (d : Fin 128) (m : Fin 100000) : ridx_main_v1 (ix2 k d) m = ix2 m d :=
  funext fun a => by match a with | ⟨0, _⟩ => rfl | ⟨1, _⟩ => rfl
theorem idx_v3 (k : Fin 32) (d : Fin 128) : idx_main_v2 (idx_main_v3 (ix2 k d)) = ix1 k :=
  funext fun a => by match a with | ⟨0, _⟩ => rfl
theorem lidx_v5 (k : Fin 32) (d e : Fin 128) : lidx_main_v5 (ix2 k d) e = ix2 k e :=
  funext fun a => by match a with | ⟨0, _⟩ => rfl | ⟨1, _⟩ => rfl
theorem ridx_v5 (k : Fin 32) (d e : Fin 128) : ridx_main_v5 (ix2 k d) e = ix2 e d :=
  funext fun a => by match a with | ⟨0, _⟩ => rfl | ⟨1, _⟩ => rfl
theorem idx_v7 (k : Fin 32) (d : Fin 128) : idx_main_v6 (idx_main_v7 (ix2 k d)) = ix1 d :=
  funext fun a => by match a with | ⟨0, _⟩ => rfl
theorem lidx_v16 (n : Fin 100000) (d : Fin 128) (k : Fin 32) : lidx_main_v16 (ix2 n d) k = ix2 n k :=
  funext fun a => by match a with | ⟨0, _⟩ => rfl | ⟨1, _⟩ => rfl
theorem ridx_v16 (n : Fin 100000) (d : Fin 128) (k : Fin 32) : ridx_main_v16 (ix2 n d) k = ix2 k d :=
  funext fun a => by match a with | ⟨0, _⟩ => rfl | ⟨1, _⟩ => rfl
theorem lidx_v17 (n : Fin 100000) (j d : Fin 128) : lidx_main_v17 (ix2 n j) d = ix2 n d :=
  funext fun a => by match a with | ⟨0, _⟩ => rfl | ⟨1, _⟩ => rfl
theorem ridx_v17 (n : Fin 100000) (j d : Fin 128) : ridx_main_v17 (ix2 n j) d = ix2 d j :=
  funext fun a => by match a with | ⟨0, _⟩ => rfl | ⟨1, _⟩ => rfl
theorem idx_v20 (n : Fin 100000) (j : Fin 128) : idx_main_v19 (idx_main_v20 (ix2 n j)) = ix1 j :=
  funext fun a => by match a with | ⟨0, _⟩ => rfl

/-! ## The result at an entry -/

variable (a0 : FVec Ideal S100000x128 .f32) (a1 : FVec Ideal S100000x32 .f32) (a2 : FVec Ideal S32 .f32)
  (a3 : FVec Ideal S128x128 .f32) (a4 : FVec Ideal S128 .f32) (a5 : FVec Ideal S128x128 .f32) (a6 : FVec Ideal S128 .f32)

/-- The reference's result at the entry `(n, j)` is `outRef` of the seven arrays read by coordinates. -/
theorem val_main_v21_at (n : Fin 100000) (j : Fin 128) :
    val_main_v21 (F := Ideal) a0 a1 a2 a3 a4 a5 a6 (ix2 n j)
      = Cert.Spectral.outRef (fun n j => a0 (ix2 n j)) (fun n k => a1 (ix2 n k)) (fun k => a2 (ix1 k))
          (fun a b => a3 (ix2 a b)) (fun a => a4 (ix1 a)) (fun a b => a5 (ix2 a b)) (fun a => a6 (ix1 a)) n j := by
  simp only [val_main_v21_apply, val_main_v20_apply, val_main_v19_apply, val_main_v18_apply, val_main_v17_apply,
    val_main_v16_apply, val_main_v15_apply, val_main_v14_apply, val_main_v13_apply, val_main_cst_0_apply,
    val_main_v12_apply, val_main_v11_apply, val_main_cst_apply, val_main_v10_apply, val_main_v9_apply,
    val_main_v8_apply, val_main_v7_apply, val_main_v6_apply, val_main_v5_apply, val_main_v4_apply,
    val_main_v3_apply, val_main_v2_apply, val_main_v1_apply, val_main_v0_apply,
    idx_v0, lidx_v1, ridx_v1, idx_v3, lidx_v5, ridx_v5, idx_v7, lidx_v16, ridx_v16, lidx_v17, ridx_v17, idx_v20,
    Ideal.addf_def, Ideal.mulf_def, Ideal.hostDivf_def, Ideal.hostNegf_def, Ideal.negf_def, Ideal.hostUnary_exp_def,
    Ideal.ofBits_def, Ideal.ofBits_one_f32]
  rfl

/-- The reference's result array is `outRef` of the seven arrays read by coordinates, at each index's two coordinates. -/
theorem val_main_v21_eq_outRef :
    val_main_v21 (F := Ideal) a0 a1 a2 a3 a4 a5 a6
      = fun i => Cert.Spectral.outRef (fun n j => a0 (ix2 n j)) (fun n k => a1 (ix2 n k)) (fun k => a2 (ix1 k))
          (fun a b => a3 (ix2 a b)) (fun a => a4 (ix1 a)) (fun a b => a5 (ix2 a b)) (fun a => a6 (ix1 a)) (i 0) (i 1) := by
  funext i
  obtain ⟨n, j, rfl⟩ : ∃ (n : Fin 100000) (j : Fin 128), i = ix2 n j := ⟨i 0, i 1, eq_ix2 i⟩
  exact val_main_v21_at a0 a1 a2 a3 a4 a5 a6 n j

/-- The term the reference's run states for its result buffer, as a function of the seven argument arrays, is
    `outRef` of those arrays read by coordinates. -/
theorem result_eq_outRef :
    (addf (F := Ideal) (addf (F := Ideal) a0 (Host.dotGeneral (F := Ideal) dot_S100000x128_S128x128_S100000x128_1_0_0_1_n_n none (Host.dotGeneral (F := Ideal) dot_S100000x32_S32x128_S100000x128_1_0_0_1_n_n none a1 (mulf (F := Ideal) (mulf (F := Ideal) (Host.dotGeneral (F := Ideal) dot_S32x100000_S100000x128_S32x128_1_0_0_1_n_n none (transpose S32x100000 [1, 0] a1 transposes_S100000x32_S32x100000_1_0) a0) (broadcastInDim S32x128 ![0, 1] bcast_S32x1_S32x128_0_1 (broadcastInDim S32x1 ![0] bcast_S32_S32x1_0 a2))) (Host.divf (F := Ideal) (broadcastInDim S32x128 ![] bcast_S_S32x128 (constant (F := Ideal) S_ .f32 0x3F800000#32)) (addf (F := Ideal) (broadcastInDim S32x128 ![] bcast_S_S32x128 (constant (F := Ideal) S_ .f32 0x3F800000#32)) (Host.exp (F := Ideal) (Host.negf (F := Ideal) (addf (F := Ideal) (Host.dotGeneral (F := Ideal) dot_S32x128_S128x128_S32x128_1_0_0_1_n_n none (mulf (F := Ideal) (Host.dotGeneral (F := Ideal) dot_S32x100000_S100000x128_S32x128_1_0_0_1_n_n none (transpose S32x100000 [1, 0] a1 transposes_S100000x32_S32x100000_1_0) a0) (broadcastInDim S32x128 ![0, 1] bcast_S32x1_S32x128_0_1 (broadcastInDim S32x1 ![0] bcast_S32_S32x1_0 a2))) a3) (broadcastInDim S32x128 ![0, 1] bcast_S1x128_S32x128_0_1 (broadcastInDim S1x128 ![1] bcast_S128_S1x128_1 a4))))))))) a5)) (broadcastInDim S100000x128 ![0, 1] bcast_S1x128_S100000x128_0_1 (broadcastInDim S1x128 ![1] bcast_S128_S1x128_1 a6)) : FVec Ideal S100000x128 .f32)
      = fun i => Cert.Spectral.outRef (fun n j => a0 (ix2 n j)) (fun n k => a1 (ix2 n k)) (fun k => a2 (ix1 k))
          (fun a b => a3 (ix2 a b)) (fun a => a4 (ix1 a)) (fun a b => a5 (ix2 a b)) (fun a => a6 (ix1 a)) (i 0) (i 1) :=
  (val_main_v21_eq (F := Ideal) a0 a1 a2 a3 a4 a5 a6).trans (val_main_v21_eq_outRef a0 a1 a2 a3 a4 a5 a6)

end Cert.ReferenceIdeal.RefValue

end
-- ==== Proof.SpecLaw.lean ====
/-
  The two arrangements of the spectral layer agree on real inputs: `outKer = outRef`.

  Two facts make it.  First, the blockwise projection is the projection: summing, block after block, 25 panels of
  4096 rows whose entries past row 100000 are zero is summing the 100000 rows themselves (24 · 4096 ≤ 100000 <
  25 · 4096), which needs only that zero is neutral for addition and that zero times zero is zero, so it holds on
  the extended reals with no side condition.  Second, the matrix product is associative,
  `∑ k, e k · (∑ d, g k d · w d) = ∑ d, (∑ k, e k · g k d) · w d`; this needs distributivity, which the extended
  reals have only away from the infinities, so every entry involved is shown to be a real number: sums and
  products of reals are reals and the logistic function of a real is a real, hence every entry of the gated
  spectrum is one; on the reals the identity is the exchange of two finite sums.
-/
import proofs.«135913_g34772055229035_cont_8to1_b_1465_20_alg».proof.Proof.Spec
import Mathlib.Algebra.BigOperators.Fin
import Mathlib.Algebra.BigOperators.Ring.Finset

noncomputable section

namespace Cert.Spectral

open Idealize.ShloMosaic

/-! ## Real entries -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type*} (s : Finset ι) (f : ι → EReal) (h : ∀ i ∈ s, ∃ r : ℝ, f i = (r : EReal)) :
    ∃ r : ℝ, ∑ i ∈ s, f i = (r : EReal) :=
  Finset.sum_induction f (fun x => ∃ r : ℝ, x = (r : EReal)) (fun _ _ => real_add) ⟨0, EReal.coe_zero.symm⟩ h

theorem real_logistic {x : EReal} (hx : ∃ r : ℝ, x = (r : EReal)) : ∃ r : ℝ, Ideal.logistic x = (r : EReal) := by
  obtain ⟨a, rfl⟩ := hx; exact ⟨_, Ideal.logistic_coe a⟩

/-- A finite sum of real numbers, seen in the extended reals, is the sum of the numbers seen there. -/
theorem coe_sum {ι : Type*} (s : Finset ι) (f : ι → ℝ) : ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-! ## Associativity of the matrix product on real entries -/

theorem sum_mul_sum_assoc {ι κ : Type*} [Fintype ι] [Fintype κ] (e : ι → ℝ) (g : ι → κ → ℝ) (w : κ → ℝ) :
    ∑ k, (e k : EReal) * ∑ d, (g k d : EReal) * (w d : EReal)
      = ∑ d, (∑ k, (e k : EReal) * (g k d : EReal)) * (w d : EReal) := by
  simp only [← EReal.coe_mul, ← coe_sum]
  congr 1
  simp only [Finset.mul_sum, Finset.sum_mul]
  rw [Finset.sum_comm]
  exact Finset.sum_congr rfl fun d _ => Finset.sum_congr rfl fun k _ => (mul_assoc _ _ _).symm

theorem sum_assoc_of_real {ι κ : Type*} [Fintype ι] [Fintype κ] {e : ι → EReal} {g : ι → κ → EReal} {w : κ → EReal}
    (he : ∀ k, ∃ r : ℝ, e k = (r : EReal)) (hg : ∀ k d, ∃ r : ℝ, g k d = (r : EReal))
    (hw : ∀ d, ∃ r : ℝ, w d = (r : EReal)) :
    ∑ k, e k * ∑ d, g k d * w d = ∑ d, (∑ k, e k * g k d) * w d := by
  choose e' he' using he
  choose g' hg' using hg
  choose w' hw' using hw
  obtain rfl : e = fun k => (e' k : EReal) := funext he'
  obtain rfl : g = fun k d => (g' k d : EReal) := funext fun k => funext (hg' k)
  obtain rfl : w = fun d => (w' d : EReal) := funext hw'
  exact sum_mul_sum_assoc e' g' w'

variable (X : Fin 100000 → Fin 128 → EReal) (E : Fin 100000 → Fin 32 → EReal) (lam : Fin 32 → EReal)
  (Wf : Fin 128 → Fin 128 → EReal) (bf : Fin 128 → EReal) (Wo : Fin 128 → Fin 128 → EReal) (bo : Fin 128 → EReal)

/-! ## The blockwise projection is the projection -/

/-- Row `m`'s contribution to entry (k, d) of the projection, zero past the array's end. -/
def term (k : Fin 32) (d : Fin 128) (m : ℕ) : EReal :=
  if h : m < 100000 then E ⟨m, h⟩ k * X ⟨m, h⟩ d else 0

/-- One product inside block `i` is the contribution of row `i · 4096 + r`: inside the array both panels hold the
    entries, past it both hold zero. -/
theorem Em_mul_Xm (i : ℕ) (k : Fin 32) (d : Fin 128) (r : Fin 4096) :
    Em E i k r * Xm X i r d = term X E k d (i * 4096 + r.val) := by
  unfold Em Xm term
  by_cases h : i * 4096 + r.val < 100000
  · rw [dif_pos h, dif_pos h, dif_pos h]
  · rw [dif_neg h, dif_neg h, dif_neg h, mul_zero]

/-- After `i` blocks the running projection is the sum of the first `i · 4096` contributions. -/
theorem accK_eq_sum_range (i : ℕ) (k : Fin 32) (d : Fin 128) :
    accK X E i k d = ∑ m ∈ Finset.range (i * 4096), term X E k d m := by
  induction i with
  | zero =>
    show (0 : EReal) = _
    rw [Nat.zero_mul, Finset.range_zero, Finset.sum_empty]
  | succ i ih =>
    rw [Nat.succ_mul, Finset.sum_range_add, ← ih,
      ← Fin.sum_univ_eq_sum_range (fun x => term X E k d (i * 4096 + x)) 4096]
    show accK X E i k d + ∑ r : Fin 4096, Em E i k r * Xm X i r d = _
    congr 1
    exact Finset.sum_congr rfl fun r _ => Em_mul_Xm X E i k d r

/-- All 25 blocks: the 100000 rows, and 2400 zero contributions past them. -/
theorem accK_eq_proj : accK X E 25 = proj X E := by
  funext k d
  rw [accK_eq_sum_range, show 25 * 4096 = 100000 + 2400 from by norm_num, Finset.sum_range_add]
  have tail : ∑ x ∈ Finset.range 2400, term X E k d (100000 + x) = 0 :=
    Finset.sum_eq_zero fun x _ => by unfold term; exact dif_neg (by omega)
  rw [tail, add_zero, ← Fin.sum_univ_eq_sum_range (term X E k d) 100000]
  unfold proj
  exact Finset.sum_congr rfl fun n _ => by unfold term; rw [dif_pos n.isLt]

/-! ## Every entry of the gated spectrum is real -/

theorem real_proj (hX : ∀ n j, ∃ r : ℝ, X n j = (r : EReal)) (hE : ∀ n k, ∃ r : ℝ, E n k = (r : EReal))
    (k : Fin 32) (d : Fin 128) : ∃ r : ℝ, proj X E k d = (r : EReal) :=
  real_sum _ _ fun n _ => real_mul (hE n k) (hX n d)

theorem real_gate {A : Fin 32 → Fin 128 → EReal} (hA : ∀ k d, ∃ r : ℝ, A k d = (r : EReal))
    (hlam : ∀ k, ∃ r : ℝ, lam k = (r : EReal)) (hWf : ∀ a b, ∃ r : ℝ, Wf a b = (r : EReal))
    (hbf : ∀ a, ∃ r : ℝ, bf a = (r : EReal)) (k : Fin 32) (d : Fin 128) :
    ∃ r : ℝ, gate lam Wf bf A k d = (r : EReal) :=
  real_mul (real_mul (hA k d) (hlam k))
    (real_logistic (real_add (real_sum _ _ fun e _ => real_mul (real_mul (hA k e) (hlam k)) (hWf e d)) (hbf d)))

/-! ## The two arrangements agree -/

/-- On real inputs the kernel's arrangement `E (G Wo)` over the blockwise projection is the reference's `(E G) Wo`
    over the projection. -/
theorem outKer_eq_outRef (hX : ∀ n j, ∃ r : ℝ, X n j = (r : EReal)) (hE : ∀ n k, ∃ r : ℝ, E n k = (r : EReal))
    (hlam : ∀ k, ∃ r : ℝ, lam k = (r : EReal)) (hWf : ∀ a b, ∃ r : ℝ, Wf a b = (r : EReal))
    (hbf : ∀ a, ∃ r : ℝ, bf a = (r : EReal)) (hWo : ∀ a b, ∃ r : ℝ, Wo a b = (r : EReal))
    (hbo : ∀ a, ∃ r : ℝ, bo a = (r : EReal)) :
    outKer X E lam Wf bf Wo bo = outRef X E lam Wf bf Wo bo := by
  funext n j
  unfold outKer outRef
  rw [accK_eq_proj,
    sum_assoc_of_real (fun k => hE n k) (real_gate lam Wf bf (real_proj X E hX hE) hlam hWf hbf) (fun d => hWo d j)]

end Cert.Spectral

end
-- ==== Proof.Finite.lean ====
/-
  From the precondition to real entries.

  The precondition is the conjunction, over the seven argument arrays, of "every entry `x` has `|x| < +∞`": each
  array's comparison `|x| < +∞` entry by entry, reduced by `and` over all axes from the constant true, and the seven
  results joined by `and`.  If the whole is true then each conjunct is, a reduction by `and` that is true had a true
  word at every entry, and on the extended reals `max x (-x) < ⊤` excludes both infinities: `x` is a real number.
-/
import proofs.«135913_g34772055229035_cont_8to1_b_1465_20_alg».proof.Proof.Gen.Pre_finite_inputs
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic Idealize.ShloMosaic.ValueIdx

/-- The scalar shape has one index. -/
instance subsingleton_scalar_idx : Subsingleton S_.Idx := ⟨fun a b => funext fun d => d.elim0⟩

/-- One entry: if `|x| < +∞` holds as a comparison word then `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One array: if the reduction by `and` of its entrywise `|x| < +∞` is true then every entry is a real number. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = (r : EReal) :=
  real_of_abs_lt_inf (a i) (Host.reduce_andi_all _ _ hr hu ix0 h i)

/-- The precondition gives real entries in all seven arrays. -/
theorem real_of_pre (a0 : FVec Ideal S100000x128 .f32) (a1 : FVec Ideal S100000x32 .f32) (a2 : FVec Ideal S32 .f32)
    (a3 : FVec Ideal S128x128 .f32) (a4 : FVec Ideal S128 .f32) (a5 : FVec Ideal S128x128 .f32) (a6 : FVec Ideal S128 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6⟩

end Cert.Pre_finite_inputs.Finite

end
-- ==== Proof.lean ====
/-
  The spectral layer: with X [N, D] the node features, E [N, K] the eigenvectors, lam [K] the eigenvalues, Wf, Wo [D, D]
  and bf, bo [D] (N = 100000, D = 128, K = 32),
      P = Eᵀ X,   S = P · lam (row k scaled by lam k),   G = S · logistic (S Wf + bf),   out = X + back-projection + bo.
  The reference back-projects the gated spectrum and then multiplies by Wo: out = X + (E G) Wo + bo.  The kernel, one
  region on a grid of 2 × 25 points over blocks of 4096 rows, computes P block by block in its first phase (the ragged
  last block's tail replaced by zeros on both operands), keeps a copy of the features, then folds Wo into the gated
  spectrum and back-projects block by block: out = X + E (G Wo) + bo.

  The two are equal on finite inputs, entry by entry on the extended reals: the block sums regroup the sum over the N
  rows (zeros add nothing), and (E G) Wo = E (G Wo) is associativity of the matrix product, which needs distributivity
  and therefore finiteness — the precondition is used, to know every input entry is a real, whence every intermediate
  entry is.  The logistic function is one function on both sides (the reference spells it 1 / (1 + exp (−x))), and a
  change of float format is the identity on the extended reals.

  The kernel's value is read off its run: an invariant carries, from grid point to grid point, the accumulator at the
  running projection, the feature copy on the rows already seen, and the folded spectrum once it exists; each
  write-back of the second phase leaves block t − 25 of the kernel's arrangement in the output array, and those blocks
  cover it.  The three frames: the kernel as printed and its idealization run the same five cases of the body's
  conditionals at every point; the reference's frame is its run with the result dropped.  The idealization rewrote
  nothing, so that conjunct is trivial.
-/
import proofs.«135913_g34772055229035_cont_8to1_b_1465_20_alg».proof.Defs
import proofs.«135913_g34772055229035_cont_8to1_b_1465_20_alg».proof.Proof.Gen.Kernel
import proofs.«135913_g34772055229035_cont_8to1_b_1465_20_alg».proof.Proof.Gen.KernelIdeal
import proofs.«135913_g34772055229035_cont_8to1_b_1465_20_alg».proof.Proof.Gen.ReferenceIdeal
import proofs.«135913_g34772055229035_cont_8to1_b_1465_20_alg».proof.Proof.Gen.Pre_finite_inputs
import proofs.«135913_g34772055229035_cont_8to1_b_1465_20_alg».proof.Proof.Gen.ReferenceIdeal.Run
import proofs.«135913_g34772055229035_cont_8to1_b_1465_20_alg».proof.Proof.Gen.ReferenceIdeal.Read
import proofs.«135913_g34772055229035_cont_8to1_b_1465_20_alg».proof.Proof.KBody
import proofs.«135913_g34772055229035_cont_8to1_b_1465_20_alg».proof.Proof.RunI
import proofs.«135913_g34772055229035_cont_8to1_b_1465_20_alg».proof.Proof.FinalI
import proofs.«135913_g34772055229035_cont_8to1_b_1465_20_alg».proof.Proof.RefIsSpec
import proofs.«135913_g34772055229035_cont_8to1_b_1465_20_alg».proof.Proof.SpecLaw
import proofs.«135913_g34772055229035_cont_8to1_b_1465_20_alg».proof.Proof.Finite
import Idealize.ShloMosaic.Adequacy
import Idealize.ShloMosaic.Init

noncomputable section

namespace Cert.Proof

open Idealize.ShloMosaic Idealize.SL.Sem Idealize.ShloMosaic.ValueIdx

/-- The kernel as printed runs, and leaves its seven arguments as they were. -/
theorem frame_k [hKernel : Cert.Kernel.Facts] [hPre : Cert.Pre_finite_inputs.Facts] : Cert.frame_Kernel := fun m ρ _ =>
  Cert.Kernel.Hand.frameB (F := Bits) m ρ

/-- So does its idealization: the run that also names the output, with the output dropped. -/
theorem frame_ki [hKernelIdeal : Cert.KernelIdeal.Facts] [hPre : Cert.Pre_finite_inputs.Facts] : Cert.frame_KernelIdeal := fun m ρ _ =>
  Cert.KernelIdeal.Gen.frame_of m ρ (Cert.KernelIdeal.Hand.datsI m) (Cert.KernelIdeal.Hand.A_eq m) (Cert.KernelIdeal.Hand.run_main m ρ)

/-- The reference's frame is its run with the result dropped. -/
theorem frame_ri [hReferenceIdeal : Cert.ReferenceIdeal.Facts] [hPre : Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the output at the kernel's arrangement of the result:
    the kernel by its run and the blocks its write-backs leave, the reference by its run, the reading of its result as the
    reference's arrangement, and the equality of the two arrangements on finite inputs. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' hpre hagree
  refine ⟨fun c => Cert.KernelIdeal.Hand.outG m c, ?_, ?_⟩
  · refine (θ_run Cert.KernelIdeal.defs _ _).mono (fun r h c => ?_) (Cert.KernelIdeal.Hand.run_main m ρ)
    exact ⟨((h c).1 7).trans (Cert.KernelIdeal.Hand.final7 m c),
      ((h c).1 1).trans (((Cert.KernelIdeal.Hand.datsI m 0 c).arrAt_in 1 rfl _).trans ((Cert.KernelIdeal.Hand.A_eq m c 1).trans (Cert.KernelIdeal.Gen.V_main_arg0 m c))),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).1 3).trans (((Cert.KernelIdeal.Hand.datsI m 0 c).arrAt_in 3 rfl _).trans ((Cert.KernelIdeal.Hand.A_eq m c 3).trans (Cert.KernelIdeal.Gen.V_main_arg3 m c))),
      ((h c).2 Cert.KernelIdeal.main_arg4 (Pipeline.mem_restRefs_of Cert.KernelIdeal.main_arg4 (by decide) (by decide))).trans (Cert.KernelIdeal.Gen.V_main_arg4 m c),
      ((h c).1 5).trans (((Cert.KernelIdeal.Hand.datsI m 0 c).arrAt_in 5 rfl _).trans ((Cert.KernelIdeal.Hand.A_eq m c 5).trans (Cert.KernelIdeal.Gen.V_main_arg5 m c))),
      ((h c).2 Cert.KernelIdeal.main_arg6 (Pipeline.mem_restRefs_of Cert.KernelIdeal.main_arg6 (by decide) (by decide))).trans (Cert.KernelIdeal.Gen.V_main_arg6 m c)⟩
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq_outRef _ _ _ _ _ _ _).trans ?_
    rw [(hagree c).1, (hagree c).2.1, (hagree c).2.2.1, (hagree c).2.2.2.1, (hagree c).2.2.2.2.1, (hagree c).2.2.2.2.2.1, (hagree c).2.2.2.2.2.2]
    obtain ⟨h0, h1, h2, h3, h4, h5, h6⟩ := Cert.Pre_finite_inputs.Finite.real_of_pre _ _ _ _ _ _ _ (hpre c)
    funext i
    exact (congrFun (congrFun (Cert.Spectral.outKer_eq_outRef (Cert.KernelIdeal.Hand.Xs m c) (Cert.KernelIdeal.Hand.Es m c)
      (Cert.KernelIdeal.Hand.lams m c) (Cert.KernelIdeal.Hand.Wfs m c) (Cert.KernelIdeal.Hand.bfs m c) (Cert.KernelIdeal.Hand.Wos m c)
      (Cert.KernelIdeal.Hand.bos m c) (fun n j => h0 (ix2 n j)) (fun n k => h1 (ix2 n k)) (fun k => h2 (ix1 k))
      (fun a b => h3 (ix2 a b)) (fun a => h4 (ix1 a)) (fun a b => h5 (ix2 a b)) (fun a => h6 (ix1 a))) (i 0)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
